-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v145)) (v1 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_v148) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x28x28 : Shape := ⟨4, ![128, 256, 28, 28]⟩
abbrev S128x512 : Shape := ⟨2, ![128, 512]⟩
abbrev S128 : Shape := ⟨1, ![128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S_ : Shape := ⟨0, ![]⟩

class Facts : Prop where
  bcast_S_S128x256x28x28 : S_.BroadcastsInDim S128x256x28x28 (![] : Fin 0 → Fin S128x256x28x28.rank)
  reducesTo_S128x256x28x28_S_d0_1_2_3 : S128x256x28x28.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_

variable [Facts]

def fn_part7 {F : FTy → Type} [FloatOps F] (main_arg25 : FVec F S256 .f32) (main_v118 : IVec S_ 1) (main_v119 : FVec F S256x64 .f32) : IVec S_ 1 :=
  let main_cst_46 : FVec F S_ .f32 := constant S_ .f32 0x7F800000#32
  let main_v120 : FVec F S256x64 .f32 := broadcastInDim S256x64 ![] bcast_S_S256x64 main_cst_46
  let main_v121 : IVec S256x64 1 := cmpf .olt main_v119 main_v120
  let main_c_47 : IVec S_ 1 := constantI S_ 1 1#1
  let main_v122 : IVec S_ 1 := (fun x v => Host.reduce IntOp.andi x v reducesTo_S256x64_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  main_v128

def fn_part6 {F : FTy → Type} [FloatOps F] (main_arg21 : FVec F S256 .f32) (main_arg22 : FVec F S64x256 .f32) (main_arg23 : FVec F S64 .f32) (main_arg24 : FVec F S256x64 .f32) (main_arg25 : FVec F S256 .f32) (main_v98 : IVec S_ 1) (main_v101 : IVec S256x64 1) (main_c_39 : IVec S_ 1) : IVec S_ 1 :=
  let main_v102 : IVec S_ 1 := (fun x v => Host.reduce IntOp.andi x v reducesTo_S256x64_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S64x256 .f32 := Host.absf main_arg22
  let main_cst_42 : FVec F S_ .f32 := constant S_ .f32 0x7F800000#32
  let main_v110 : FVec F S64x256 .f32 := broadcastInDim S64x256 ![] bcast_S_S64x256 main_cst_42
  let main_v111 : IVec S64x256 1 := cmpf .olt main_v109 main_v110
  let main_c_43 : IVec S_ 1 := constantI S_ 1 1#1
  let main_v112 : IVec S_ 1 := (fun x v => Host.reduce IntOp.andi x v reducesTo_S64x256_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S256x64 .f32 := Host.absf main_arg24
  fn_part7 (F := F) main_arg25 main_v118 main_v119

def fn_part5 {F : FTy → Type} [FloatOps F] (main_arg18 : FVec F S64x256 .f32) (main_arg19 : FVec F S64 .f32) (main_arg20 : FVec F S256x64 .f32) (main_arg21 : FVec F S256 .f32) (main_arg22 : FVec F S64x256 .f32) (main_arg23 : FVec F S64 .f32) (main_arg24 : FVec F S256x64 .f32) (main_arg25 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S64x256 .f32 := Host.absf main_arg18
  let main_cst_34 : FVec F S_ .f32 := constant S_ .f32 0x7F800000#32
  let main_v90 : FVec F S64x256 .f32 := broadcastInDim S64x256 ![] bcast_S_S64x256 main_cst_34
  let main_v91 : IVec S64x256 1 := cmpf .olt main_v89 main_v90
  let main_c_35 : IVec S_ 1 := constantI S_ 1 1#1
  let main_v92 : IVec S_ 1 := (fun x v => Host.reduce IntOp.andi x v reducesTo_S64x256_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S256x64 .f32 := Host.absf main_arg20
  let main_cst_38 : FVec F S_ .f32 := constant S_ .f32 0x7F800000#32
  let main_v100 : FVec F S256x64 .f32 := broadcastInDim S256x64 ![] bcast_S_S256x64 main_cst_38
  let main_v101 : IVec S256x64 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128x512 .f32) (main_arg15 : FVec F S128 .f32) (main_arg16 : FVec F S256x128 .f32) (main_arg17 : FVec F S256 .f32) (main_arg18 : FVec F S64x256 .f32) (main_arg19 : FVec F S64 .f32) (main_arg20 : FVec F S256x64 .f32) (main_arg21 : FVec F S256 .f32) (main_arg22 : FVec F S64x256 .f32) (main_arg23 : FVec F S64 .f32) (main_arg24 : FVec F S256x64 .f32) (main_arg25 : FVec F S256 .f32) (main_v63 : IVec S_ 1) (main_v67 : IVec S_ 1) : IVec S_ 1 :=
  let main_v68 : IVec S_ 1 := andi main_v63 main_v67
  let main_v69 : FVec F S128x512 .f32 := Host.absf main_arg14
  let main_cst_26 : FVec F S_ .f32 := constant S_ .f32 0x7F800000#32
  let main_v70 : FVec F S128x512 .f32 := broadcastInDim S128x512 ![] bcast_S_S128x512 main_cst_26
  let main_v71 : IVec S128x512 1 := cmpf .olt main_v69 main_v70
  let main_c_27 : IVec S_ 1 := constantI S_ 1 1#1
  let main_v72 : IVec S_ 1 := (fun x v => Host.reduce IntOp.andi x v reducesTo_S128x512_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg16
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S64 .f32) (main_arg12 : FVec F S256x64 .f32) (main_arg13 : FVec F S256 .f32) (main_arg14 : FVec F S128x512 .f32) (main_arg15 : FVec F S128 .f32) (main_arg16 : FVec F S256x128 .f32) (main_arg17 : FVec F S256 .f32) (main_arg18 : FVec F S64x256 .f32) (main_arg19 : FVec F S64 .f32) (main_arg20 : FVec F S256x64 .f32) (main_arg21 : FVec F S256 .f32) (main_arg22 : FVec F S64x256 .f32) (main_arg23 : FVec F S64 .f32) (main_arg24 : FVec F S256x64 .f32) (main_arg25 : FVec F S256 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S64 .f32) (main_arg8 : FVec F S256x64 .f32) (main_arg9 : FVec F S256 .f32) (main_arg10 : FVec F S64x256 .f32) (main_arg11 : FVec F S64 .f32) (main_arg12 : FVec F S256x64 .f32) (main_arg13 : FVec F S256 .f32) (main_arg14 : FVec F S128x512 .f32) (main_arg15 : FVec F S128 .f32) (main_arg16 : FVec F S256x128 .f32) (main_arg17 : FVec F S256 .f32) (main_arg18 : FVec F S64x256 .f32) (main_arg19 : FVec F S64 .f32) (main_arg20 : FVec F S256x64 .f32) (main_arg21 : FVec F S256 .f32) (main_arg22 : FVec F S64x256 .f32) (main_arg23 : FVec F S64 .f32) (main_arg24 : FVec F S256x64 .f32) (main_arg25 : FVec F S256 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x256 .f32 := Host.absf main_arg10
  let main_cst_18 : FVec F S_ .f32 := constant S_ .f32 0x7F800000#32
  let main_v50 : FVec F S64x256 .f32 := broadcastInDim S64x256 ![] bcast_S_S64x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x128 .f32) (main_arg5 : FVec F S256 .f32) (main_arg6 : FVec F S64x256 .f32) (main_arg7 : FVec F S64 .f32) (main_arg8 : FVec F S256x64 .f32) (main_arg9 : FVec F S256 .f32) (main_arg10 : FVec F S64x256 .f32) (main_arg11 : FVec F S64 .f32) (main_arg12 : FVec F S256x64 .f32) (main_arg13 : FVec F S256 .f32) (main_arg14 : FVec F S128x512 .f32) (main_arg15 : FVec F S128 .f32) (main_arg16 : FVec F S256x128 .f32) (main_arg17 : FVec F S256 .f32) (main_arg18 : FVec F S64x256 .f32) (main_arg19 : FVec F S64 .f32) (main_arg20 : FVec F S256x64 .f32) (main_arg21 : FVec F S256 .f32) (main_arg22 : FVec F S64x256 .f32) (main_arg23 : FVec F S64 .f32) (main_arg24 : FVec F S256x64 .f32) (main_arg25 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S128x256x28x28 .f32) (main_arg1 : FVec F S128x256x28x28 .f32) (main_arg2 : FVec F S128x512 .f32) (main_arg3 : FVec F S128 .f32) (main_arg4 : FVec F S256x128 .f32) (main_arg5 : FVec F S256 .f32) (main_arg6 : FVec F S64x256 .f32) (main_arg7 : FVec F S64 .f32) (main_arg8 : FVec F S256x64 .f32) (main_arg9 : FVec F S256 .f32) (main_arg10 : FVec F S64x256 .f32) (main_arg11 : FVec F S64 .f32) (main_arg12 : FVec F S256x64 .f32) (main_arg13 : FVec F S256 .f32) (main_arg14 : FVec F S128x512 .f32) (main_arg15 : FVec F S128 .f32) (main_arg16 : FVec F S256x128 .f32) (main_arg17 : FVec F S256 .f32) (main_arg18 : FVec F S64x256 .f32) (main_arg19 : FVec F S64 .f32) (main_arg20 : FVec F S256x64 .f32) (main_arg21 : FVec F S256 .f32) (main_arg22 : FVec F S64x256 .f32) (main_arg23 : FVec F S64 .f32) (main_arg24 : FVec F S256x64 .f32) (main_arg25 : FVec F S256 .f32) : IVec S_ 1 :=
  let main_v0 : FVec F S128x256x28x28 .f32 := Host.absf main_arg0
  let main_cst : FVec F S_ .f32 := constant S_ .f32 0x7F800000#32
  let main_v1 : FVec F S128x256x28x28 .f32 := broadcastInDim S128x256x28x28 ![] bcast_S_S128x256x28x28 main_cst
  let main_v2 : IVec S128x256x28x28 1 := cmpf .olt main_v0 main_v1
  let main_c : IVec S_ 1 := constantI S_ 1 1#1
  let main_v3 : IVec S_ 1 := (fun x v => Host.reduce IntOp.andi x v reducesTo_S128x256x28x28_S_d0_1_2_3 h_S_) main_v2 main_c
  let main_v4 : FVec F S128x256x28x28 .f32 := Host.absf main_arg1
  let main_cst_0 : FVec F S_ .f32 := constant S_ .f32 0x7F800000#32
  let main_v5 : FVec F S128x256x28x28 .f32 := broadcastInDim S128x256x28x28 ![] bcast_S_S128x256x28x28 main_cst_0
  let main_v6 : IVec S128x256x28x28 1 := cmpf .olt main_v4 main_v5
  let main_c_1 : IVec S_ 1 := constantI S_ 1 1#1
  let main_v7 : IVec S_ 1 := (fun x v => Host.reduce IntOp.andi x v reducesTo_S128x256x28x28_S_d0_1_2_3 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S128x256x28x28 : Shape := ⟨4, ![128, 256, 28, 28]⟩
abbrev S128x512 : Shape := ⟨2, ![128, 512]⟩
abbrev S128 : Shape := ⟨1, ![128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x200704 : Shape := ⟨2, ![128, 200704]⟩
abbrev S128x128 : Shape := ⟨2, ![128, 128]⟩
abbrev S128x12544 : Shape := ⟨2, ![128, 12544]⟩
abbrev S_ : Shape := ⟨0, ![]⟩
abbrev S128x1 : Shape := ⟨2, ![128, 1]⟩
abbrev S128x256 : Shape := ⟨2, ![128, 256]⟩
abbrev S512x128 : Shape := ⟨2, ![512, 128]⟩
abbrev S1x128 : Shape := ⟨2, ![1, 128]⟩
abbrev S1x256 : Shape := ⟨2, ![1, 256]⟩
abbrev S128x64 : Shape := ⟨2, ![128, 64]⟩
abbrev S1x64 : Shape := ⟨2, ![1, 64]⟩
abbrev S128x256x784 : Shape := ⟨3, ![128, 256, 784]⟩
abbrev S16x128x784 : Shape := ⟨3, ![16, 128, 784]⟩
abbrev S16x128 : Shape := ⟨2, ![16, 128]⟩
abbrev S16x128x1 : Shape := ⟨3, ![16, 128, 1]⟩

abbrev nBuf : Space → Nat
  | .hbm => 219
  | .vmem => 20
  | .smem => 0
  | _ => 0

abbrev hbmTy0_0 (i : Nat) : BufTy := match i % 128 with
  | 0 => ⟨S128x256x28x28, .f32⟩
  | 1 => ⟨S128x256x28x28, .f32⟩
  | 2 => ⟨S128x512, .f32⟩
  | 3 => ⟨S128, .f32⟩
  | 4 => ⟨S256x128, .f32⟩
  | 5 => ⟨S256, .f32⟩
  | 6 => ⟨S64x256, .f32⟩
  | 7 => ⟨S64, .f32⟩
  | 8 => ⟨S256x64, .f32⟩
  | 9 => ⟨S256, .f32⟩
  | 10 => ⟨S64x256, .f32⟩
  | 11 => ⟨S64, .f32⟩
  | 12 => ⟨S256x64, .f32⟩
  | 13 => ⟨S256, .f32⟩
  | 14 => ⟨S128x512, .f32⟩
  | 15 => ⟨S128, .f32⟩
  | 16 => ⟨S256x128, .f32⟩
  | 17 => ⟨S256, .f32⟩
  | 18 => ⟨S64x256, .f32⟩
  | 19 => ⟨S64, .f32⟩
  | 20 => ⟨S256x64, .f32⟩
  | 21 => ⟨S256, .f32⟩
  | 22 => ⟨S64x256, .f32⟩
  | 23 => ⟨S64, .f32⟩
  | 24 => ⟨S256x64, .f32⟩
  | 25 => ⟨S256, .f32⟩
  | 26 => ⟨S128x200704, .f32⟩
  | 27 => ⟨S128x200704, .f32⟩
  | 28 => ⟨S128x128, .f32⟩
  | 29 => ⟨S128x128, .f32⟩
  | 30 => ⟨S128x128, .f32⟩
  | 31 => ⟨S_, .f32⟩
  | 32 => ⟨S128, .f32⟩
  | 33 => ⟨S128x1, .f32⟩
  | 34 => ⟨S128x1, .f32⟩
  | 35 => ⟨S_, .f32⟩
  | 36 => ⟨S128x1, .f32⟩
  | 37 => ⟨S128x1, .f32⟩
  | 38 => ⟨S128x128, .f32⟩
  | 39 => ⟨S128x128, .f32⟩
  | 40 => ⟨S128x128, .f32⟩
  | 41 => ⟨S_, .f32⟩
  | 42 => ⟨S128, .f32⟩
  | 43 => ⟨S128x1, .f32⟩
  | 44 => ⟨S128x1, .f32⟩
  | 45 => ⟨S_, .f32⟩
  | 46 => ⟨S128x1, .f32⟩
  | 47 => ⟨S128x1, .f32⟩
  | 48 => ⟨S128x128, .f32⟩
  | 49 => ⟨S128x128, .f32⟩
  | 50 => ⟨S_, .f32⟩
  | 51 => ⟨S128x256, .f32⟩
  | 52 => ⟨S_, .f32⟩
  | 53 => ⟨S128x256, .f32⟩
  | 54 => ⟨S128x256, .f32⟩
  | 55 => ⟨S_, .f32⟩
  | 56 => ⟨S128x256, .f32⟩
  | 57 => ⟨S_, .f32⟩
  | 58 => ⟨S128x256, .f32⟩
  | 59 => ⟨S128x256, .f32⟩
  | 60 => ⟨S128x256, .f32⟩
  | 61 => ⟨S128x256, .f32⟩
  | 62 => ⟨S128x256, .f32⟩
  | 63 => ⟨S128x256, .f32⟩
  | 64 => ⟨S128x512, .f32⟩
  | 65 => ⟨S512x128, .f32⟩
  | 66 => ⟨S128x128, .f32⟩
  | 67 => ⟨S1x128, .f32⟩
  | 68 => ⟨S128x128, .f32⟩
  | 69 => ⟨S128x128, .f32⟩
  | 70 => ⟨S_, .f32⟩
  | 71 => ⟨S128x128, .f32⟩
  | 72 => ⟨S128x128, .f32⟩
  | 73 => ⟨S128x256, .f32⟩
  | 74 => ⟨S128x256, .f32⟩
  | 75 => ⟨S1x256, .f32⟩
  | 76 => ⟨S128x256, .f32⟩
  | 77 => ⟨S128x256, .f32⟩
  | 78 => ⟨S128x256, .f32⟩
  | 79 => ⟨S128x256, .f32⟩
  | 80 => ⟨S_, .f32⟩
  | 81 => ⟨S128x256, .f32⟩
  | 82 => ⟨S128x256, .f32⟩
  | 83 => ⟨S_, .f32⟩
  | 84 => ⟨S128x256, .f32⟩
  | 85 => ⟨S128x256, .f32⟩
  | 86 => ⟨S256x64, .f32⟩
  | 87 => ⟨S128x64, .f32⟩
  | 88 => ⟨S1x64, .f32⟩
  | 89 => ⟨S128x64, .f32⟩
  | 90 => ⟨S128x64, .f32⟩
  | 91 => ⟨S_, .f32⟩
  | 92 => ⟨S128x64, .f32⟩
  | 93 => ⟨S128x64, .f32⟩
  | 94 => ⟨S64x256, .f32⟩
  | 95 => ⟨S128x256, .f32⟩
  | 96 => ⟨S1x256, .f32⟩
  | 97 => ⟨S128x256, .f32⟩
  | 98 => ⟨S128x256, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S256x64, .f32⟩
  | 108 => ⟨S128x64, .f32⟩
  | 109 => ⟨S1x64, .f32⟩
  | 110 => ⟨S128x64, .f32⟩
  | 111 => ⟨S128x64, .f32⟩
  | 112 => ⟨S_, .f32⟩
  | 113 => ⟨S128x64, .f32⟩
  | 114 => ⟨S128x64, .f32⟩
  | 115 => ⟨S64x256, .f32⟩
  | 116 => ⟨S128x256, .f32⟩
  | 117 => ⟨S1x256, .f32⟩
  | 118 => ⟨S128x256, .f32⟩
  | 119 => ⟨S128x256, .f32⟩
  | 120 => ⟨S128x256, .f32⟩
  | 121 => ⟨S128x256, .f32⟩
  | 122 => ⟨S_, .f32⟩
  | 123 => ⟨S128x256, .f32⟩
  | 124 => ⟨S128x256, .f32⟩
  | 125 => ⟨S_, .f32⟩
  | 126 => ⟨S128x256, .f32⟩
  | 127 => ⟨S128x256, .f32⟩
  | _ => ⟨S128x256x28x28, .f32⟩

abbrev hbmTy0_1 (i : Nat) : BufTy := match i % 128 with
  | 0 => ⟨S512x128, .f32⟩
  | 1 => ⟨S128x128, .f32⟩
  | 2 => ⟨S1x128, .f32⟩
  | 3 => ⟨S128x128, .f32⟩
  | 4 => ⟨S128x128, .f32⟩
  | 5 => ⟨S_, .f32⟩
  | 6 => ⟨S128x128, .f32⟩
  | 7 => ⟨S128x128, .f32⟩
  | 8 => ⟨S128x256, .f32⟩
  | 9 => ⟨S128x256, .f32⟩
  | 10 => ⟨S1x256, .f32⟩
  | 11 => ⟨S128x256, .f32⟩
  | 12 => ⟨S128x256, .f32⟩
  | 13 => ⟨S128x256, .f32⟩
  | 14 => ⟨S128x256, .f32⟩
  | 15 => ⟨S_, .f32⟩
  | 16 => ⟨S128x256, .f32⟩
  | 17 => ⟨S128x256, .f32⟩
  | 18 => ⟨S_, .f32⟩
  | 19 => ⟨S128x256, .f32⟩
  | 20 => ⟨S128x256, .f32⟩
  | 21 => ⟨S256x64, .f32⟩
  | 22 => ⟨S128x64, .f32⟩
  | 23 => ⟨S1x64, .f32⟩
  | 24 => ⟨S128x64, .f32⟩
  | 25 => ⟨S128x64, .f32⟩
  | 26 => ⟨S_, .f32⟩
  | 27 => ⟨S128x64, .f32⟩
  | 28 => ⟨S128x64, .f32⟩
  | 29 => ⟨S64x256, .f32⟩
  | 30 => ⟨S128x256, .f32⟩
  | 31 => ⟨S1x256, .f32⟩
  | 32 => ⟨S128x256, .f32⟩
  | 33 => ⟨S128x256, .f32⟩
  | 34 => ⟨S128x256, .f32⟩
  | 35 => ⟨S128x256, .f32⟩
  | 36 => ⟨S_, .f32⟩
  | 37 => ⟨S128x256, .f32⟩
  | 38 => ⟨S128x256, .f32⟩
  | 39 => ⟨S_, .f32⟩
  | 40 => ⟨S128x256, .f32⟩
  | 41 => ⟨S128x256, .f32⟩
  | 42 => ⟨S256x64, .f32⟩
  | 43 => ⟨S128x64, .f32⟩
  | 44 => ⟨S1x64, .f32⟩
  | 45 => ⟨S128x64, .f32⟩
  | 46 => ⟨S128x64, .f32⟩
  | 47 => ⟨S_, .f32⟩
  | 48 => ⟨S128x64, .f32⟩
  | 49 => ⟨S128x64, .f32⟩
  | 50 => ⟨S64x256, .f32⟩
  | 51 => ⟨S128x256, .f32⟩
  | 52 => ⟨S1x256, .f32⟩
  | 53 => ⟨S128x256, .f32⟩
  | 54 => ⟨S128x256, .f32⟩
  | 55 => ⟨S128x256, .f32⟩
  | 56 => ⟨S128x256, .f32⟩
  | 57 => ⟨S_, .f32⟩
  | 58 => ⟨S128x256, .f32⟩
  | 59 => ⟨S128x256, .f32⟩
  | 60 => ⟨S_, .f32⟩
  | 61 => ⟨S128x256, .f32⟩
  | 62 => ⟨S128x256, .f32⟩
  | 63 => ⟨S_, .f32⟩
  | 64 => ⟨S128x256, .f32⟩
  | 65 => ⟨S128x256, .f32⟩
  | 66 => ⟨S_, .f32⟩
  | 67 => ⟨S128x256, .f32⟩
  | 68 => ⟨S128x256, .f32⟩
  | 69 => ⟨S128x256, .f32⟩
  | 70 => ⟨S_, .f32⟩
  | 71 => ⟨S128x256, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S_, .f32⟩
  | 78 => ⟨S128x256, .f32⟩
  | 79 => ⟨S128x256, .f32⟩
  | 80 => ⟨S128x256, .f32⟩
  | 81 => ⟨S_, .f32⟩
  | 82 => ⟨S128x256, .f32⟩
  | 83 => ⟨S128x256, .f32⟩
  | 84 => ⟨S128x256, .f32⟩
  | 85 => ⟨S128x256x784, .f32⟩
  | 86 => ⟨S128x256x784, .f32⟩
  | 87 => ⟨S128x256x28x28, .f32⟩
  | 88 => ⟨S128x256x784, .f32⟩
  | 89 => ⟨S128x256x784, .f32⟩
  | 90 => ⟨S128x256x28x28, .f32⟩
  | _ => ⟨S128x256x28x28, .f32⟩

abbrev hbmTy (i : Nat) : BufTy := match i / 128 with
  | 0 => hbmTy0_0 i
  | 1 => hbmTy0_1 i
  | _ => ⟨S128x256x28x28, .f32⟩

abbrev bufTy : (tb : Table) → Fin (tcTables nBuf tb) → BufTy
  | .hbm, ⟨i, _⟩ => hbmTy i
  | .local _ .vmem, ⟨0, _⟩ => ⟨S128x12544, .f32⟩
  | .local _ .vmem, ⟨1, _⟩ => ⟨S128x12544, .f32⟩
  | .local _ .vmem, ⟨2, _⟩ => ⟨S128x128, .f32⟩
  | .local _ .vmem, ⟨3, _⟩ => ⟨S128x128, .f32⟩
  | .local _ .vmem, ⟨4, _⟩ => ⟨S128x12544, .f32⟩
  | .local _ .vmem, ⟨5, _⟩ => ⟨S128x12544, .f32⟩
  | .local _ .vmem, ⟨6, _⟩ => ⟨S128x128, .f32⟩
  | .local _ .vmem, ⟨7, _⟩ => ⟨S128x128, .f32⟩
  | .local _ .vmem, ⟨8, _⟩ => ⟨S16x128x784, .f32⟩
  | .local _ .vmem, ⟨9, _⟩ => ⟨S16x128x784, .f32⟩
  | .local _ .vmem, ⟨10, _⟩ => ⟨S16x128, .f32⟩
  | .local _ .vmem, ⟨11, _⟩ => ⟨S16x128, .f32⟩
  | .local _ .vmem, ⟨12, _⟩ => ⟨S16x128x784, .f32⟩
  | .local _ .vmem, ⟨13, _⟩ => ⟨S16x128x784, .f32⟩
  | .local _ .vmem, ⟨14, _⟩ => ⟨S16x128x784, .f32⟩
  | .local _ .vmem, ⟨15, _⟩ => ⟨S16x128x784, .f32⟩
  | .local _ .vmem, ⟨16, _⟩ => ⟨S16x128, .f32⟩
  | .local _ .vmem, ⟨17, _⟩ => ⟨S16x128, .f32⟩
  | .local _ .vmem, ⟨18, _⟩ => ⟨S16x128x784, .f32⟩
  | .local _ .vmem, ⟨19, _⟩ => ⟨S16x128x784, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call0_cst : Ref sig .tc := ⟨.hbm, 70, rfl⟩
abbrev main_call0_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call1_cst : Ref sig .tc := ⟨.hbm, 91, rfl⟩
abbrev main_call1_v0 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_9 : Ref sig .tc := ⟨.hbm, 101, rfl⟩
abbrev main_v61 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call2_cst : Ref sig .tc := ⟨.hbm, 112, rfl⟩
abbrev main_call2_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_11 : Ref sig .tc := ⟨.hbm, 122, rfl⟩
abbrev main_v78 : Ref sig .tc := ⟨.hbm, 123, rfl⟩
abbrev main_v79 : Ref sig .tc := ⟨.hbm, 124, rfl⟩
abbrev main_cst_12 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call3_cst : Ref sig .tc := ⟨.hbm, 133, rfl⟩
abbrev main_call3_v0 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_13 : Ref sig .tc := ⟨.hbm, 143, rfl⟩
abbrev main_v95 : Ref sig .tc := ⟨.hbm, 144, rfl⟩
abbrev main_v96 : Ref sig .tc := ⟨.hbm, 145, rfl⟩
abbrev main_cst_14 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_call4_cst : Ref sig .tc := ⟨.hbm, 154, rfl⟩
abbrev main_call4_v0 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_15 : Ref sig .tc := ⟨.hbm, 164, rfl⟩
abbrev main_v112 : Ref sig .tc := ⟨.hbm, 165, rfl⟩
abbrev main_v113 : Ref sig .tc := ⟨.hbm, 166, rfl⟩
abbrev main_cst_16 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call5_cst : Ref sig .tc := ⟨.hbm, 175, rfl⟩
abbrev main_call5_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_17 : Ref sig .tc := ⟨.hbm, 185, rfl⟩
abbrev main_v129 : Ref sig .tc := ⟨.hbm, 186, rfl⟩
abbrev main_v130 : Ref sig .tc := ⟨.hbm, 187, rfl⟩
abbrev main_cst_18 : Ref sig .tc := ⟨.hbm, 188, rfl⟩
abbrev main_v131 : Ref sig .tc := ⟨.hbm, 189, rfl⟩
abbrev main_v132 : Ref sig .tc := ⟨.hbm, 190, rfl⟩
abbrev main_call6_cst : Ref sig .tc := ⟨.hbm, 191, rfl⟩
abbrev main_call6_v0 : Ref sig .tc := ⟨.hbm, 192, rfl⟩
abbrev main_v133 : Ref sig .tc := ⟨.hbm, 193, rfl⟩
abbrev main_call7_cst : Ref sig .tc := ⟨.hbm, 194, rfl⟩
abbrev main_call7_v0 : Ref sig .tc := ⟨.hbm, 195, rfl⟩
abbrev main_v134 : Ref sig .tc := ⟨.hbm, 196, rfl⟩
abbrev main_v135 : Ref sig .tc := ⟨.hbm, 197, rfl⟩
abbrev main_call8_cst : Ref sig .tc := ⟨.hbm, 198, rfl⟩
abbrev main_call8_v0 : Ref sig .tc := ⟨.hbm, 199, rfl⟩
abbrev main_v136 : Ref sig .tc := ⟨.hbm, 200, rfl⟩
abbrev main_v137 : Ref sig .tc := ⟨.hbm, 201, rfl⟩
abbrev main_call9_cst : Ref sig .tc := ⟨.hbm, 202, rfl⟩
abbrev main_call9_v0 : Ref sig .tc := ⟨.hbm, 203, rfl⟩
abbrev main_v138 : Ref sig .tc := ⟨.hbm, 204, rfl⟩
abbrev main_call10_cst : Ref sig .tc := ⟨.hbm, 205, rfl⟩
abbrev main_call10_v0 : Ref sig .tc := ⟨.hbm, 206, rfl⟩
abbrev main_v139 : Ref sig .tc := ⟨.hbm, 207, rfl⟩
abbrev main_v140 : Ref sig .tc := ⟨.hbm, 208, rfl⟩
abbrev main_call11_cst : Ref sig .tc := ⟨.hbm, 209, rfl⟩
abbrev main_call11_v0 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x12544 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S16x128x784 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S16x128x784 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S16x128x784 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S16x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S16x128x784 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S128x256x28x28_S128x200704 : S128x256x28x28.ShapeCasts S128x200704
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x12544_S128x12544_0_0 : ∀ a, (![0, 0] : Fin 2 → Nat) a + S128x12544.size a ≤ S128x12544.size a
  h_S128x12544 : 0 < S128x12544.numel
  shapeCasts_S128x12544_S128x12544 : S128x12544.ShapeCasts S128x12544
  bitsLt_bf16_f32 : FTy.bits .bf16 < FTy.bits .f32
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  reducesTo_S128x256x28x28_S128x256_d2_3 : S128x256x28x28.ReducesTo [2, 3] S128x256
  bcast_S_S128x256 : S_.BroadcastsInDim S128x256 (![] : Fin 0 → Fin S128x256.rank)
  concatenates_S128x256_S128x256_S128x512_d1 : Shape.Concatenates [S128x256, S128x256] S128x512 1
  transposes_S128x512_S512x128_1_0 : S128x512.Transposes [1, 0] S512x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S256x128_S128x256_1_0 : S256x128.Transposes [1, 0] S128x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  transposes_S64x256_S256x64_1_0 : S64x256.Transposes [1, 0] S256x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  transposes_S256x64_S64x256_1_0 : S256x64.Transposes [1, 0] S64x256
  shapeCasts_S128x256x28x28_S128x256x784 : S128x256x28x28.ShapeCasts S128x256x784
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  inb_S16x128x784_S16x128x784_0_0_0 : ∀ a, (![0, 0, 0] : Fin 3 → Nat) a + S16x128x784.size a ≤ S16x128x784.size a
  h_S16x128x784 : 0 < S16x128x784.numel
  shapeCasts_S16x128x784_S16x128x784 : S16x128x784.ShapeCasts S16x128x784
  broadcasts_S16x128x1_S16x128x784 : S16x128x1.Broadcasts S16x128x784
  shapeCasts_S128x256x784_S128x256x28x28 : S128x256x784.ShapeCasts S128x256x28x28
  dot_S128x12544_S128x12544_S128x128_1_1_0_0_n_n_wf : DotDims.WF S128x12544 S128x12544 S128x128 [1] [1] [0] [0] [] []
  dot_S128x128_S128x256_S128x256_1_0_0_1_n_n_wf : DotDims.WF S128x128 S128x256 S128x256 [1] [0] [0] [1] [] []
  dot_S128x512_S512x128_S128x128_1_0_0_1_n_n_wf : DotDims.WF S128x512 S512x128 S128x128 [1] [0] [0] [1] [] []
  dot_S128x256_S256x64_S128x64_1_0_0_1_n_n_wf : DotDims.WF S128x256 S256x64 S128x64 [1] [0] [0] [1] [] []
  dot_S128x64_S64x256_S128x256_1_0_0_1_n_n_wf : DotDims.WF S128x64 S64x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12544.size a ≤ S128x200704.size a
  hwx0_0 : ∀ i : grid0.Coords, EltTy.bits .f32 = 32 ∨ (Rect.block (s := S128x200704) S128x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x12544.size a ≤ S128x200704.size a
  hwx1_0 : ∀ i : grid1.Coords, EltTy.bits .f32 = 32 ∨ (Rect.block (s := S128x200704) S128x12544.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x128x784.size a ≤ S128x256x784.size a
  hwx2_0 : ∀ i : grid2.Coords, EltTy.bits .f32 = 32 ∨ (Rect.block (s := S128x256x784) S16x128x784.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x128.size a ≤ S128x256.size a
  hwx2_1 : ∀ i : grid2.Coords, EltTy.bits .f32 = 32 ∨ (Rect.block (s := S128x256) S16x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x128x784.size a ≤ S128x256x784.size a
  hwx2_2 : ∀ i : grid2.Coords, EltTy.bits .f32 = 32 ∨ (Rect.block (s := S128x256x784) S16x128x784.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x128x784.size a ≤ S128x256x784.size a
  hwx3_0 : ∀ i : grid3.Coords, EltTy.bits .f32 = 32 ∨ (Rect.block (s := S128x256x784) S16x128x784.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16x128.size a ≤ S128x256.size a
  hwx3_1 : ∀ i : grid3.Coords, EltTy.bits .f32 = 32 ∨ (Rect.block (s := S128x256) S16x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16x128x784.size a ≤ S128x256x784.size a
  hwx3_2 : ∀ i : grid3.Coords, EltTy.bits .f32 = 32 ∨ (Rect.block (s := S128x256x784) S16x128x784.size (cc3_transform_2 i) (hinb3_2 i)).WholeWords (EltTy.packing .f32)

variable [Facts₀]

def dot_S128x12544_S128x12544_S128x128_1_1_0_0_n_n : DotDims S128x12544 S128x12544 S128x128 where
  lhsContracting := [1]
  rhsContracting := [1]
  lhsNonContracting := [0]
  rhsNonContracting := [0]
  lhsBatch := []
  rhsBatch := []
  wf := dot_S128x12544_S128x12544_S128x128_1_1_0_0_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf

abbrev win0_0 : Pipeline.Window sig grid0 :=
  Pipeline.Window.ofSpec (Memref.whole main_v0) S128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S128x12544.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v143) S16x128x784.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v137) S16x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v144) S16x128x784.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v146) S16x128x784.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v142) S16x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v147) S16x128x784.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S128x256x28x28 : Shape := ⟨4, ![128, 256, 28, 28]⟩
abbrev S128x512 : Shape := ⟨2, ![128, 512]⟩
abbrev S128 : Shape := ⟨1, ![128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x200704 : Shape := ⟨2, ![128, 200704]⟩
abbrev S200704x128 : Shape := ⟨2, ![200704, 128]⟩
abbrev S128x128 : Shape := ⟨2, ![128, 128]⟩
abbrev S_ : Shape := ⟨0, ![]⟩
abbrev S128x1 : Shape := ⟨2, ![128, 1]⟩
abbrev S128x256 : Shape := ⟨2, ![128, 256]⟩
abbrev S512x128 : Shape := ⟨2, ![512, 128]⟩
abbrev S1x128 : Shape := ⟨2, ![1, 128]⟩
abbrev S1x256 : Shape := ⟨2, ![1, 256]⟩
abbrev S128x64 : Shape := ⟨2, ![128, 64]⟩
abbrev S1x64 : Shape := ⟨2, ![1, 64]⟩
abbrev S128x256x1x1 : Shape := ⟨4, ![128, 256, 1, 1]⟩

abbrev nBuf : Space → Nat
  | .hbm => 221
  | .vmem => 0
  | .smem => 0
  | _ => 0

abbrev hbmTy0_0 (i : Nat) : BufTy := match i % 128 with
  | 0 => ⟨S128x256x28x28, .f32⟩
  | 1 => ⟨S128x256x28x28, .f32⟩
  | 2 => ⟨S128x512, .f32⟩
  | 3 => ⟨S128, .f32⟩
  | 4 => ⟨S256x128, .f32⟩
  | 5 => ⟨S256, .f32⟩
  | 6 => ⟨S64x256, .f32⟩
  | 7 => ⟨S64, .f32⟩
  | 8 => ⟨S256x64, .f32⟩
  | 9 => ⟨S256, .f32⟩
  | 10 => ⟨S64x256, .f32⟩
  | 11 => ⟨S64, .f32⟩
  | 12 => ⟨S256x64, .f32⟩
  | 13 => ⟨S256, .f32⟩
  | 14 => ⟨S128x512, .f32⟩
  | 15 => ⟨S128, .f32⟩
  | 16 => ⟨S256x128, .f32⟩
  | 17 => ⟨S256, .f32⟩
  | 18 => ⟨S64x256, .f32⟩
  | 19 => ⟨S64, .f32⟩
  | 20 => ⟨S256x64, .f32⟩
  | 21 => ⟨S256, .f32⟩
  | 22 => ⟨S64x256, .f32⟩
  | 23 => ⟨S64, .f32⟩
  | 24 => ⟨S256x64, .f32⟩
  | 25 => ⟨S256, .f32⟩
  | 26 => ⟨S128x200704, .f32⟩
  | 27 => ⟨S200704x128, .f32⟩
  | 28 => ⟨S128x128, .f32⟩
  | 29 => ⟨S128x128, .f32⟩
  | 30 => ⟨S_, .f32⟩
  | 31 => ⟨S128, .f32⟩
  | 32 => ⟨S128x1, .f32⟩
  | 33 => ⟨S128x1, .f32⟩
  | 34 => ⟨S_, .f32⟩
  | 35 => ⟨S128x1, .f32⟩
  | 36 => ⟨S128x1, .f32⟩
  | 37 => ⟨S128x128, .f32⟩
  | 38 => ⟨S128x128, .f32⟩
  | 39 => ⟨S_, .f32⟩
  | 40 => ⟨S128x256, .f32⟩
  | 41 => ⟨S_, .f32⟩
  | 42 => ⟨S128x256, .f32⟩
  | 43 => ⟨S128x256, .f32⟩
  | 44 => ⟨S128x200704, .f32⟩
  | 45 => ⟨S200704x128, .f32⟩
  | 46 => ⟨S128x128, .f32⟩
  | 47 => ⟨S128x128, .f32⟩
  | 48 => ⟨S_, .f32⟩
  | 49 => ⟨S128, .f32⟩
  | 50 => ⟨S128x1, .f32⟩
  | 51 => ⟨S128x1, .f32⟩
  | 52 => ⟨S_, .f32⟩
  | 53 => ⟨S128x1, .f32⟩
  | 54 => ⟨S128x1, .f32⟩
  | 55 => ⟨S128x128, .f32⟩
  | 56 => ⟨S128x128, .f32⟩
  | 57 => ⟨S_, .f32⟩
  | 58 => ⟨S128x256, .f32⟩
  | 59 => ⟨S_, .f32⟩
  | 60 => ⟨S128x256, .f32⟩
  | 61 => ⟨S128x256, .f32⟩
  | 62 => ⟨S128x256, .f32⟩
  | 63 => ⟨S128x256, .f32⟩
  | 64 => ⟨S128x256, .f32⟩
  | 65 => ⟨S128x256, .f32⟩
  | 66 => ⟨S128x512, .f32⟩
  | 67 => ⟨S512x128, .f32⟩
  | 68 => ⟨S128x128, .f32⟩
  | 69 => ⟨S1x128, .f32⟩
  | 70 => ⟨S128x128, .f32⟩
  | 71 => ⟨S128x128, .f32⟩
  | 72 => ⟨S_, .f32⟩
  | 73 => ⟨S128x128, .f32⟩
  | 74 => ⟨S128x128, .f32⟩
  | 75 => ⟨S128x256, .f32⟩
  | 76 => ⟨S128x256, .f32⟩
  | 77 => ⟨S1x256, .f32⟩
  | 78 => ⟨S128x256, .f32⟩
  | 79 => ⟨S128x256, .f32⟩
  | 80 => ⟨S128x256, .f32⟩
  | 81 => ⟨S128x256, .f32⟩
  | 82 => ⟨S_, .f32⟩
  | 83 => ⟨S128x256, .f32⟩
  | 84 => ⟨S128x256, .f32⟩
  | 85 => ⟨S_, .f32⟩
  | 86 => ⟨S128x256, .f32⟩
  | 87 => ⟨S128x256, .f32⟩
  | 88 => ⟨S256x64, .f32⟩
  | 89 => ⟨S128x64, .f32⟩
  | 90 => ⟨S1x64, .f32⟩
  | 91 => ⟨S128x64, .f32⟩
  | 92 => ⟨S128x64, .f32⟩
  | 93 => ⟨S_, .f32⟩
  | 94 => ⟨S128x64, .f32⟩
  | 95 => ⟨S128x64, .f32⟩
  | 96 => ⟨S64x256, .f32⟩
  | 97 => ⟨S128x256, .f32⟩
  | 98 => ⟨S1x256, .f32⟩
  | 99 => ⟨S128x256, .f32⟩
  | 100 => ⟨S128x256, .f32⟩
  | 101 => ⟨S128x256, .f32⟩
  | 102 => ⟨S128x256, .f32⟩
  | 103 => ⟨S_, .f32⟩
  | 104 => ⟨S128x256, .f32⟩
  | 105 => ⟨S128x256, .f32⟩
  | 106 => ⟨S_, .f32⟩
  | 107 => ⟨S128x256, .f32⟩
  | 108 => ⟨S128x256, .f32⟩
  | 109 => ⟨S256x64, .f32⟩
  | 110 => ⟨S128x64, .f32⟩
  | 111 => ⟨S1x64, .f32⟩
  | 112 => ⟨S128x64, .f32⟩
  | 113 => ⟨S128x64, .f32⟩
  | 114 => ⟨S_, .f32⟩
  | 115 => ⟨S128x64, .f32⟩
  | 116 => ⟨S128x64, .f32⟩
  | 117 => ⟨S64x256, .f32⟩
  | 118 => ⟨S128x256, .f32⟩
  | 119 => ⟨S1x256, .f32⟩
  | 120 => ⟨S128x256, .f32⟩
  | 121 => ⟨S128x256, .f32⟩
  | 122 => ⟨S128x256, .f32⟩
  | 123 => ⟨S128x256, .f32⟩
  | 124 => ⟨S_, .f32⟩
  | 125 => ⟨S128x256, .f32⟩
  | 126 => ⟨S128x256, .f32⟩
  | 127 => ⟨S_, .f32⟩
  | _ => ⟨S128x256x28x28, .f32⟩

abbrev hbmTy0_1 (i : Nat) : BufTy := match i % 128 with
  | 0 => ⟨S128x256, .f32⟩
  | 1 => ⟨S128x256, .f32⟩
  | 2 => ⟨S512x128, .f32⟩
  | 3 => ⟨S128x128, .f32⟩
  | 4 => ⟨S1x128, .f32⟩
  | 5 => ⟨S128x128, .f32⟩
  | 6 => ⟨S128x128, .f32⟩
  | 7 => ⟨S_, .f32⟩
  | 8 => ⟨S128x128, .f32⟩
  | 9 => ⟨S128x128, .f32⟩
  | 10 => ⟨S128x256, .f32⟩
  | 11 => ⟨S128x256, .f32⟩
  | 12 => ⟨S1x256, .f32⟩
  | 13 => ⟨S128x256, .f32⟩
  | 14 => ⟨S128x256, .f32⟩
  | 15 => ⟨S128x256, .f32⟩
  | 16 => ⟨S128x256, .f32⟩
  | 17 => ⟨S_, .f32⟩
  | 18 => ⟨S128x256, .f32⟩
  | 19 => ⟨S128x256, .f32⟩
  | 20 => ⟨S_, .f32⟩
  | 21 => ⟨S128x256, .f32⟩
  | 22 => ⟨S128x256, .f32⟩
  | 23 => ⟨S256x64, .f32⟩
  | 24 => ⟨S128x64, .f32⟩
  | 25 => ⟨S1x64, .f32⟩
  | 26 => ⟨S128x64, .f32⟩
  | 27 => ⟨S128x64, .f32⟩
  | 28 => ⟨S_, .f32⟩
  | 29 => ⟨S128x64, .f32⟩
  | 30 => ⟨S128x64, .f32⟩
  | 31 => ⟨S64x256, .f32⟩
  | 32 => ⟨S128x256, .f32⟩
  | 33 => ⟨S1x256, .f32⟩
  | 34 => ⟨S128x256, .f32⟩
  | 35 => ⟨S128x256, .f32⟩
  | 36 => ⟨S128x256, .f32⟩
  | 37 => ⟨S128x256, .f32⟩
  | 38 => ⟨S_, .f32⟩
  | 39 => ⟨S128x256, .f32⟩
  | 40 => ⟨S128x256, .f32⟩
  | 41 => ⟨S_, .f32⟩
  | 42 => ⟨S128x256, .f32⟩
  | 43 => ⟨S128x256, .f32⟩
  | 44 => ⟨S256x64, .f32⟩
  | 45 => ⟨S128x64, .f32⟩
  | 46 => ⟨S1x64, .f32⟩
  | 47 => ⟨S128x64, .f32⟩
  | 48 => ⟨S128x64, .f32⟩
  | 49 => ⟨S_, .f32⟩
  | 50 => ⟨S128x64, .f32⟩
  | 51 => ⟨S128x64, .f32⟩
  | 52 => ⟨S64x256, .f32⟩
  | 53 => ⟨S128x256, .f32⟩
  | 54 => ⟨S1x256, .f32⟩
  | 55 => ⟨S128x256, .f32⟩
  | 56 => ⟨S128x256, .f32⟩
  | 57 => ⟨S128x256, .f32⟩
  | 58 => ⟨S128x256, .f32⟩
  | 59 => ⟨S_, .f32⟩
  | 60 => ⟨S128x256, .f32⟩
  | 61 => ⟨S128x256, .f32⟩
  | 62 => ⟨S_, .f32⟩
  | 63 => ⟨S128x256, .f32⟩
  | 64 => ⟨S128x256, .f32⟩
  | 65 => ⟨S_, .f32⟩
  | 66 => ⟨S128x256, .f32⟩
  | 67 => ⟨S128x256, .f32⟩
  | 68 => ⟨S_, .f32⟩
  | 69 => ⟨S128x256, .f32⟩
  | 70 => ⟨S128x256, .f32⟩
  | 71 => ⟨S128x256, .f32⟩
  | 72 => ⟨S_, .f32⟩
  | 73 => ⟨S128x256, .f32⟩
  | 74 => ⟨S128x256, .f32⟩
  | 75 => ⟨S128x256, .f32⟩
  | 76 => ⟨S128x256x1x1, .f32⟩
  | 77 => ⟨S_, .f32⟩
  | 78 => ⟨S128x256, .f32⟩
  | 79 => ⟨S128x256, .f32⟩
  | 80 => ⟨S_, .f32⟩
  | 81 => ⟨S128x256, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S128x256, .f32⟩
  | 88 => ⟨S128x256x1x1, .f32⟩
  | 89 => ⟨S128x256x28x28, .f32⟩
  | 90 => ⟨S128x256x28x28, .f32⟩
  | 91 => ⟨S128x256x28x28, .f32⟩
  | 92 => ⟨S128x256x28x28, .f32⟩
  | _ => ⟨S128x256x28x28, .f32⟩

abbrev hbmTy (i : Nat) : BufTy := match i / 128 with
  | 0 => hbmTy0_0 i
  | 1 => hbmTy0_1 i
  | _ => ⟨S128x256x28x28, .f32⟩

abbrev bufTy : (tb : Table) → Fin (tcTables nBuf tb) → BufTy
  | .hbm, ⟨i, _⟩ => hbmTy i
  | _, _ => ⟨S128x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call0_cst : Ref sig .tc := ⟨.hbm, 72, rfl⟩
abbrev main_call0_v0 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call1_cst : Ref sig .tc := ⟨.hbm, 93, rfl⟩
abbrev main_call1_v0 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_cst_10 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call2_cst : Ref sig .tc := ⟨.hbm, 114, rfl⟩
abbrev main_call2_v0 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_11 : Ref sig .tc := ⟨.hbm, 124, rfl⟩
abbrev main_v80 : Ref sig .tc := ⟨.hbm, 125, rfl⟩
abbrev main_v81 : Ref sig .tc := ⟨.hbm, 126, rfl⟩
abbrev main_cst_12 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_call3_cst : Ref sig .tc := ⟨.hbm, 135, rfl⟩
abbrev main_call3_v0 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_13 : Ref sig .tc := ⟨.hbm, 145, rfl⟩
abbrev main_v97 : Ref sig .tc := ⟨.hbm, 146, rfl⟩
abbrev main_v98 : Ref sig .tc := ⟨.hbm, 147, rfl⟩
abbrev main_cst_14 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call4_cst : Ref sig .tc := ⟨.hbm, 156, rfl⟩
abbrev main_call4_v0 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_15 : Ref sig .tc := ⟨.hbm, 166, rfl⟩
abbrev main_v114 : Ref sig .tc := ⟨.hbm, 167, rfl⟩
abbrev main_v115 : Ref sig .tc := ⟨.hbm, 168, rfl⟩
abbrev main_cst_16 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_call5_cst : Ref sig .tc := ⟨.hbm, 177, rfl⟩
abbrev main_call5_v0 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_17 : Ref sig .tc := ⟨.hbm, 187, rfl⟩
abbrev main_v131 : Ref sig .tc := ⟨.hbm, 188, rfl⟩
abbrev main_v132 : Ref sig .tc := ⟨.hbm, 189, rfl⟩
abbrev main_cst_18 : Ref sig .tc := ⟨.hbm, 190, rfl⟩
abbrev main_v133 : Ref sig .tc := ⟨.hbm, 191, rfl⟩
abbrev main_v134 : Ref sig .tc := ⟨.hbm, 192, rfl⟩
abbrev main_call6_cst : Ref sig .tc := ⟨.hbm, 193, rfl⟩
abbrev main_call6_v0 : Ref sig .tc := ⟨.hbm, 194, rfl⟩
abbrev main_v135 : Ref sig .tc := ⟨.hbm, 195, rfl⟩
abbrev main_call7_cst : Ref sig .tc := ⟨.hbm, 196, rfl⟩
abbrev main_call7_v0 : Ref sig .tc := ⟨.hbm, 197, rfl⟩
abbrev main_v136 : Ref sig .tc := ⟨.hbm, 198, rfl⟩
abbrev main_v137 : Ref sig .tc := ⟨.hbm, 199, rfl⟩
abbrev main_call8_cst : Ref sig .tc := ⟨.hbm, 200, rfl⟩
abbrev main_call8_v0 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_call9_cst : Ref sig .tc := ⟨.hbm, 205, rfl⟩
abbrev main_call9_v0 : Ref sig .tc := ⟨.hbm, 206, rfl⟩
abbrev main_v141 : Ref sig .tc := ⟨.hbm, 207, rfl⟩
abbrev main_call10_cst : Ref sig .tc := ⟨.hbm, 208, rfl⟩
abbrev main_call10_v0 : Ref sig .tc := ⟨.hbm, 209, rfl⟩
abbrev main_v142 : Ref sig .tc := ⟨.hbm, 210, rfl⟩
abbrev main_v143 : Ref sig .tc := ⟨.hbm, 211, rfl⟩
abbrev main_call11_cst : Ref sig .tc := ⟨.hbm, 212, rfl⟩
abbrev main_call11_v0 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩

abbrev nD : Nat := 1
abbrev τ : Topo := Topo.v7x

variable {F : FTy → Type} [FloatOps F]

class Facts₀ : Prop where
  shapeCasts_S128x256x28x28_S128x200704 : S128x256x28x28.ShapeCasts S128x200704
  transposes_S128x200704_S200704x128_1_0 : S128x200704.Transposes [1, 0] S200704x128
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  reducesTo_S128x256x28x28_S128x256_d2_3 : S128x256x28x28.ReducesTo [2, 3] S128x256
  bcast_S_S128x256 : S_.BroadcastsInDim S128x256 (![] : Fin 0 → Fin S128x256.rank)
  concatenates_S128x256_S128x256_S128x512_d1 : Shape.Concatenates [S128x256, S128x256] S128x512 1
  transposes_S128x512_S512x128_1_0 : S128x512.Transposes [1, 0] S512x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  transposes_S256x128_S128x256_1_0 : S256x128.Transposes [1, 0] S128x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  transposes_S64x256_S256x64_1_0 : S64x256.Transposes [1, 0] S256x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  transposes_S256x64_S64x256_1_0 : S256x64.Transposes [1, 0] S64x256
  bcast_S128x256_S128x256x1x1_0_1 : S128x256.BroadcastsInDim S128x256x1x1 (![0, 1] : Fin 2 → Fin S128x256x1x1.rank)
  bcast_S128x256x1x1_S128x256x28x28_0_1_2_3 : S128x256x1x1.BroadcastsInDim S128x256x28x28 (![0, 1, 2, 3] : Fin 4 → Fin S128x256x28x28.rank)
  dot_S128x200704_S200704x128_S128x128_1_0_0_1_n_n_wf : DotDims.WF S128x200704 S200704x128 S128x128 [1] [0] [0] [1] [] []
  dot_S128x128_S128x256_S128x256_1_0_0_1_n_n_wf : DotDims.WF S128x128 S128x256 S128x256 [1] [0] [0] [1] [] []
  dot_S128x512_S512x128_S128x128_1_0_0_1_n_n_wf : DotDims.WF S128x512 S512x128 S128x128 [1] [0] [0] [1] [] []
  dot_S128x256_S256x64_S128x64_1_0_0_1_n_n_wf : DotDims.WF S128x256 S256x64 S128x64 [1] [0] [0] [1] [] []
  dot_S128x64_S64x256_S128x256_1_0_0_1_n_n_wf : DotDims.WF S128x64 S64x256 S128x256 [1] [0] [0] [1] [] []

variable [Facts₀]

def dot_S128x200704_S200704x128_S128x128_1_0_0_1_n_n : DotDims S128x200704 S200704x128 S128x128 where
  lhsContracting := [1]
  rhsContracting := [0]
  lhsNonContracting := [0]
  rhsNonContracting := [1]
  lhsBatch := []
  rhsBatch := []
  wf := dot_S128x200704_S200704x128_S128x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf

class Facts : Prop extends Facts₀ where

variable [Facts]
-- ==== Proof.RunCondK.lean ====
/-
  The whole program's run, given one segment record per kernel region: every weakly fair execution of @main
  terminates, and every unscoped buffer of every core ends at the last boundary's contents (the launch contents
  carried through each host stretch and changed, at a region, only in the array that region writes). Read at the
  argument arrays this is the frame claim; read at the two result arrays it is what the value claim needs.
-/
import proofs.«105140_j1606317769259_2_alg».proof.Proof.Gen.Kernel.Regions

set_option maxRecDepth 1468

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- For any rest states the launch makes on every core and that end owing nothing, any contents the regions leave
    and any proof data: given, per region, a segment record entered from the thread state before it and left at the
    one after it, every weakly fair execution of @main from memory `m` with zero counters terminates and every final
    memory holds every unscoped buffer at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V26 m outs c) ∗ E 2 c) ⊢ R2.pre c)
    (hpost2 : ∀ c : Dev nD, R2.post c ⊢ iprop(StableHlo.held (c : Thread nD τ) (Pipeline.ucRefs τ sig) (V27 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V28 m outs c) ∗ E 3 c) ⊢ R3.pre c)
    (hpost3 : ∀ c : Dev nD, R3.post c ⊢ iprop(StableHlo.held (c : Thread nD τ) (Pipeline.ucRefs τ sig) (V29 m outs c) ∗ E 4 c)) :
    θ_run defs (onTc (τ := τ) (main (F := F))) ⟨m, fun _ => 0, ρ⟩ (fun r => ∀ c : Dev nD, ∀ b ∈ Pipeline.ucRefs τ sig,
      r.2.mem ((c : Thread nD τ).1, b) = V30 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          StableHlo.seq hostOps2_15,
          StableHlo.seq hostOps2_16,
          StableHlo.seq hostOps2_17,
          StableHlo.seq hostOps2_18,
          StableHlo.seq hostOps2_19,
          StableHlo.seq hostOps2_20,
          StableHlo.seq hostOps2_21,
          StableHlo.seq hostOps2_22,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m outs c))
    (hch := fun c => ⟨.rfl, hpre0 c, (hpost0 c).trans (hpre1 c), hpost1 c, .rfl, .rfl, .rfl, .rfl, .rfl, .rfl, .rfl, .rfl, .rfl, .rfl, .rfl, .rfl, .rfl, .rfl, .rfl, .rfl, .rfl, .rfl, .rfl, .rfl, .rfl, .rfl, hpre2 c, hpost2 c, hpre3 c, hpost3 c, sep_mono .rfl (hE4 c)⟩)
    (hinit := ?_) (QY := fun c s => ∀ b ∈ Pipeline.ucRefs τ sig, s.mem ((c : Thread nD τ).1, b) = V30 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V30 m outs c) s') $$ [Hh HSI]
    · isplitl [Hh] <;> iassumption
    icases Hr with ⟨%h, HSI⟩
    imodintro
    isplitr
    · ipureintro
      exact h
    · iexact HSI

end Cert.Kernel.Run

end
-- ==== Proof.GramRegionK0.lean ====
/- Region 0 of @main: the Gram kernel `cc0__gram_kernel` (pipeline 0), at the region-entry contents `V`.
   The grid is the 16 blocks of the contracted axis. A scratch accumulator `[128,128]` is carried from point to
   point: zeroed at point 0, `acc += x · xᵀ` (in bf16 operands, f32 accumulation) at every point, copied to the
   output block at point 15. Three control cases over the grid coordinate:
     A  point 0        the scratch is zeroed, then accumulated into; the output window is idle;
     B  points 1..14   the scratch is accumulated into; the output window is idle;
     C  point 15       the scratch is accumulated into, then copied to the output block.
   Per case the body's triple (`kernelRun0_κ`), what the case leaves in the scratch and in the output block
   (`sout0_κ_0`, `out0_κ_1`), these point by point (`outsAt0`), the region invariant naming the scratch's
   contents after every point (`PhiS0`), the proof data `dat0` and the body obligation. Generic in the float
   instance. -/
import proofs.«105140_j1606317769259_2_alg».proof.Proof.Gen.Kernel.Launch
import proofs.«105140_j1606317769259_2_alg».proof.Proof.Gen.Kernel.Skeleton
import proofs.«105140_j1606317769259_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.GramRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration is stated at this parameter
variable (V : (c : Dev nD) → (b : Ref sig .tc) → Buf (Elt F) ((c : Thread nD τ).loc b))

/-! ## The windows' blocks -/

/-- Window `w`'s block at point `t`, read off its array as the region finds it (`V`): for window 0 the columns
    `t·12544 … (t+1)·12544 − 1` of the `[128,200704]` input, for window 1 the whole `[128,128]` output. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is fetched at every point, uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (zero the accumulator), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the 16 points. -/
theorem hcond0_0 : ∀ t : Fin cfg0.N, cond0_0 (grid0.coords t) ↔ t.val = 0 :=
  (by decide +kernel : ∀ t : Fin grid0.N, cond0_0 (grid0.coords t) ↔ t.val = 0)

/-- The condition of the body's last `scf.if` (copy the accumulator out), from the grid coordinate. -/
abbrev cond0_1 (i : grid0.Coords) : Prop := k0_cond2 i = 1#1
/-- It holds at the last point only — decided over the 16 points. -/
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

/-- Window 0 is never idle (an input). -/
theorem liveAt0_0 : ∀ t : Fin cfg0.N, cfg0.idle 0 (grid0.coords t) = false := by decide +kernel
/-- At point 0 (case A) the output window is idle: the case stores nothing into it, -/
theorem idleAt0_1_A : ∀ t : Fin cfg0.N, cond0_0 (grid0.coords t) → ¬cond0_1 (grid0.coords t) → cfg0.idle 1 (grid0.coords t) = true := by decide +kernel
/-- and the pipeline does not write its block back there. -/
theorem noFlush0_1_A : ∀ t : Fin cfg0.N, cond0_0 (grid0.coords t) → ¬cond0_1 (grid0.coords t) → (cfg0.win 1).flush t = false := by decide +kernel
/-- The same at points 1..14 (case B). -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- At point 15 (case C) the output window is live: the case stores its whole block. -/
theorem liveAt0_1_C : ∀ t : Fin cfg0.N, ¬cond0_0 (grid0.coords t) → cond0_1 (grid0.coords t) → cfg0.idle 1 (grid0.coords t) = false := by decide +kernel

/-! ## The memrefs the body is called with -/

/-- The staging buffer of the output window, through which its contents are stated. -/
abbrev VO0_1 : View sig .tc .vmem S128x128 .f32 := (Memref.whole cc0_stg1_0 : Memref sig .tc .vmem S128x128 .f32).view
/-- Each window's current staging memref at point `t`, as the pipeline passes it, and its wholeness. -/
abbrev ms0_0 (t : Fin cfg0.N) : Memref sig .tc .vmem S128x12544 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
/-- The scratch accumulator: a whole scoped buffer of the kernel's own, passed beside the windows, -/
abbrev scM0_0 : Memref sig .tc .vmem S128x128 .f32 := Memref.whole cc0_scratch0
/-- and as a view: what it holds is stated through it. -/
abbrev VS0_0 : View sig .tc .vmem S128x128 .f32 := scM0_0.view

/-- The core's scoped buffers listed after the accumulator in the region's scoped rest — staging buffers and scratch
    of the other pallas_calls —, each whole at some contents: the body never touches them. -/
def tail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class's invariant with the accumulator as a memref owned at some contents: what the body obligation hands
    the run at the first point. -/
theorem PhiA0_eq (c : Dev nD) :
    (Pipeline.ΦA spec0 c : sProp 𝕄)
      = iprop(iprop((∃ d, owns (c : Thread nD τ) scM0_0 fullShare d) ∗ tail0 c) ∗ (∃ r, prngReg c r)) := by
  unfold Pipeline.ΦA tail0; rw [scopedRest0_eq]; simp only [scM0_0, owns_whole]; try rfl

/-! ## The body's triple, case by case -/

set_option maxHeartbeats 1000000 in
/-- CASE A (point 0: the first `scf.if` taken, the last not). On whole memrefs — the input's at its contents `x0`,
    the output's at contents `xi1` handed back untouched, the accumulator at anything — the body runs to the
    continuation holding the input's as it was and the accumulator with the case's pieces written (`LS0`, last first:
    the accumulated sum over the zero store). The pieces are the witness the run finds. -/
noncomputable def kernelRun0_A (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE B (points 1..14: neither `scf.if` taken). The accumulator goes in at the contents `xs0` the point before
    left and comes back with the case's one piece written: `xs0` plus the block's Gram product. -/
noncomputable def kernelRun0_B (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE C (point 15: the last `scf.if` taken). As case B, and the output's buffer — at anything before — comes
    back with the copy of the accumulator written (`L1`). -/
noncomputable def kernelRun0_C (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) :
    Σ' (L1 : List (View.Piece (Elt F) S128x128 .f32)), { LS0 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves in the output block and in the accumulator -/

/-- Case A stores nothing into the output block (idle and not written back at point 0): no pieces — a placeholder
    that nothing consults. -/
def out0_A_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) : Vec F S128x128 .f32 :=
  VO0_1.read (Elt F) (VO0_1.writes (Elt F) VO0_1.junk (kernelRun0_A c i arg1 harg1 arg2 harg2 arg3 harg3 hc0 hc1 x0).1)

/-- Case A's pieces for the accumulator cover it (each is a store of the whole `[128,128]`). -/
theorem scover0_A_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) (y : S128x128.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S128x128.size (by sl_kernel_rfl) y

/-- What case A leaves in the accumulator: its pieces read back. -/
def sout0_A_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) : Vec F S128x128 .f32 :=
  VS0_0.read (Elt F) (VS0_0.writes (Elt F) VS0_0.junk (kernelRun0_A c i arg1 harg1 arg2 harg2 arg3 harg3 hc0 hc1 x0).2.1)

/-- Case B stores nothing into the output block either. -/
def out0_B_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) : Vec F S128x128 .f32 :=
  VO0_1.read (Elt F) (VO0_1.writes (Elt F) VO0_1.junk (kernelRun0_B c i arg1 harg1 arg2 harg2 arg3 harg3 hc0 hc1 x0 xs0).1)

/-- Case B's piece for the accumulator covers it. -/
theorem scover0_B_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) (y : S128x128.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S128x128.size (by sl_kernel_rfl) y

/-- What case B leaves in the accumulator. -/
def sout0_B_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) : Vec F S128x128 .f32 :=
  VS0_0.read (Elt F) (VS0_0.writes (Elt F) VS0_0.junk (kernelRun0_B c i arg1 harg1 arg2 harg2 arg3 harg3 hc0 hc1 x0 xs0).2.1)

/-- Case C's piece for the output block covers it (one store of the whole `[128,128]`). -/
theorem cover0_C_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) (y : S128x128.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S128x128.size (by sl_kernel_rfl) y

/-- What case C leaves in the output's staging buffer: the accumulator's final contents. -/
def out0_C_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) : Vec F S128x128 .f32 :=
  VO0_1.read (Elt F) (VO0_1.writes (Elt F) VO0_1.junk (kernelRun0_C c i arg1 harg1 arg2 harg2 arg3 harg3 hc0 hc1 x0 xs0).1)

/-- Case C's piece for the accumulator covers it. -/
theorem scover0_C_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) (y : S128x128.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S128x128.size (by sl_kernel_rfl) y

/-- What case C leaves in the accumulator. -/
def sout0_C_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) : Vec F S128x128 .f32 :=
  VS0_0.read (Elt F) (VS0_0.writes (Elt F) VS0_0.junk (kernelRun0_C c i arg1 harg1 arg2 harg2 arg3 harg3 hc0 hc1 x0 xs0).2.1)

/-! ## What the output block and the accumulator hold after each point -/

/-- THE ACCUMULATION. The output's staging buffer and the accumulator after the body at position `n` (a pair): case A
    at point 0; at a later point case C when it is the last (15) and case B otherwise, run at the point's memrefs and
    input block over what the point before left in the accumulator. -/
def outsAt0 (c : Dev nD) : (n : ℕ) → n < cfg0.N → Vec F S128x128 .f32 × Vec F S128x128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩))
  | n + 1, hn =>
    if h1 : n + 1 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at point 0: case A's contents. -/
theorem outsAt0_A (c : Dev nD) (t : Fin cfg0.N) (h0 : t.val = 0) (h1 : ¬t.val = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- `outsAt0` at a point of case B: that case's contents, over what the point before left. -/
theorem outsAt0_B (c : Dev nD) (t : Fin cfg0.N) (h0 : ¬t.val = 0) (h1 : ¬t.val = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at point 15: case C's contents, over what the point before left. -/
theorem outsAt0_C (c : Dev nD) (t : Fin cfg0.N) (h0 : ¬t.val = 0) (h1 : t.val = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (every scoped buffer that is no staging
    buffer of this call at anything, the generator register at some state); afterwards the same with the accumulator at
    what the point before left in it (`outsAt0`'s second component). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ tail0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ tail0 c) ∗ (∃ r, prngReg c r)) := rfl

/-- Before a point that is not the first: the accumulator at what the point before left. -/
theorem PhiS0_pos (c : Dev nD) (n : ℕ) (h : n ≤ cfg0.N) (hz : ¬n = 0) :
    PhiS0 V c n h = iprop(iprop(owns (c : Thread nD τ) scM0_0 fullShare ((outsAt0 V c (n - 1) (by omega)).2) ∗ tail0 c) ∗ (∃ r, prngReg c r)) := by
  cases n with
  | zero => exact absurd rfl hz
  | succ n => rfl

/-! ## The pipeline's proof data -/

/-- The proof data of pipeline 0 on core `c`: the arrays as the region finds them (`V`); after the body at point `t`
    the input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the closed forms say which case the point is in; the
    invariant hands the body the accumulator at what the point before left (at anything at point 0) and takes it back at
    this point's contents, the case's pieces covering it; the other scoped buffers and the generator register pass
    through; the output's buffer is handed back untouched at the idle points and with the copy written at point 15; the
    core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val = 0
  · have h1 : ¬t.val = 15 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [outsAt0_A V c t h0 h1]
    unfold sout0_A_0; (try dsimp only)
    rw [PhiS0_castSucc V c t, PhiS0_zero V c _ _ h0, PhiA0_eq]
    iintro ⟨⟨⟨HS0, HRt⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 HRt Hg]
    · isplitl [HS0 HRt]
      · isplitl [HS0]
        · unfold owns; iexists _; isplitr
          swap; · iexact HS0
          ipureintro; exact View.read_writes_of_cover _ _ _ _ _ (scover0_A_0 c _ _ _ _ _ _ _ _ _ _)
        iexact HRt
      iexact Hg
    isplitl [Ho]; · iexact Ho
    isplitl [H0]; · iexact H0
    iexists _; iexact H1
  · by_cases h1 : t.val = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS0_castSucc V c t, PhiS0_pos V c _ _ h0]
      iintro ⟨⟨⟨HS0, HRt⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HRt Hg]
      · isplitl [HS0 HRt]
        · isplitl [HS0]
          · unfold owns; iexists _; isplitr
            swap; · iexact HS0
            ipureintro; exact View.read_writes_of_cover _ _ _ _ _ (scover0_C_0 c _ _ _ _ _ _ _ _ _ _ _)
          iexact HRt
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ h0]
      iintro ⟨⟨⟨HS0, HRt⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HRt Hg]
      · isplitl [HS0 HRt]
        · isplitl [HS0]
          · unfold owns; iexists _; isplitr
            swap; · iexact HS0
            ipureintro; exact View.read_writes_of_cover _ _ _ _ _ (scover0_B_0 c _ _ _ _ _ _ _ _ _ _ _)
          iexact HRt
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : ¬t.val = 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HRt⟩, Hg⟩
  isplitl [HS0 HRt]
  · isplitl [HS0]
    · iexists _; iexact HS0
    iexact HRt
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.GramRegion

end
-- ==== Proof.GramRegionK1.lean ====
/- Region 1 of @main: the Gram kernel `cc1__gram_kernel` (pipeline 1), at the region-entry contents `V`.
   The grid is the 16 blocks of the contracted axis. A scratch accumulator `[128,128]` is carried from point to
   point: zeroed at point 0, `acc += x · xᵀ` (in bf16 operands, f32 accumulation) at every point, copied to the
   output block at point 15. Three control cases over the grid coordinate:
     A  point 0        the scratch is zeroed, then accumulated into; the output window is idle;
     B  points 1..14   the scratch is accumulated into; the output window is idle;
     C  point 15       the scratch is accumulated into, then copied to the output block.
   Per case the body's triple (`kernelRun1_κ`), what the case leaves in the scratch and in the output block
   (`sout1_κ_0`, `out1_κ_1`), these point by point (`outsAt1`), the region invariant naming the scratch's
   contents after every point (`PhiS1`), the proof data `dat1` and the body obligation. Generic in the float
   instance. -/
import proofs.«105140_j1606317769259_2_alg».proof.Proof.Gen.Kernel.Launch
import proofs.«105140_j1606317769259_2_alg».proof.Proof.Gen.Kernel.Skeleton
import proofs.«105140_j1606317769259_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.GramRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration is stated at this parameter
variable (V : (c : Dev nD) → (b : Ref sig .tc) → Buf (Elt F) ((c : Thread nD τ).loc b))

/-! ## The windows' blocks -/

/-- Window `w`'s block at point `t`, read off its array as the region finds it (`V`): for window 0 the columns
    `t·12544 … (t+1)·12544 − 1` of the `[128,200704]` input, for window 1 the whole `[128,128]` output. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is fetched at every point, uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (zero the accumulator), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the 16 points. -/
theorem hcond1_0 : ∀ t : Fin cfg1.N, cond1_0 (grid1.coords t) ↔ t.val = 0 :=
  (by decide +kernel : ∀ t : Fin grid1.N, cond1_0 (grid1.coords t) ↔ t.val = 0)

/-- The condition of the body's last `scf.if` (copy the accumulator out), from the grid coordinate. -/
abbrev cond1_1 (i : grid1.Coords) : Prop := k1_cond2 i = 1#1
/-- It holds at the last point only — decided over the 16 points. -/
theorem hcond1_1 : ∀ t : Fin cfg1.N, cond1_1 (grid1.coords t) ↔ t.val = 15 :=
  (by decide +kernel : ∀ t : Fin grid1.N, cond1_1 (grid1.coords t) ↔ t.val = 15)

/-! ## Where the windows are idle -/

/-- Window 0 is never idle (an input). -/
theorem liveAt1_0 : ∀ t : Fin cfg1.N, cfg1.idle 0 (grid1.coords t) = false := by decide +kernel
/-- At point 0 (case A) the output window is idle: the case stores nothing into it, -/
theorem idleAt1_1_A : ∀ t : Fin cfg1.N, cond1_0 (grid1.coords t) → ¬cond1_1 (grid1.coords t) → cfg1.idle 1 (grid1.coords t) = true := by decide +kernel
/-- and the pipeline does not write its block back there. -/
theorem noFlush1_1_A : ∀ t : Fin cfg1.N, cond1_0 (grid1.coords t) → ¬cond1_1 (grid1.coords t) → (cfg1.win 1).flush t = false := by decide +kernel
/-- The same at points 1..14 (case B). -/
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
/-- At point 15 (case C) the output window is live: the case stores its whole block. -/
theorem liveAt1_1_C : ∀ t : Fin cfg1.N, ¬cond1_0 (grid1.coords t) → cond1_1 (grid1.coords t) → cfg1.idle 1 (grid1.coords t) = false := by decide +kernel

/-! ## The memrefs the body is called with -/

/-- The staging buffer of the output window, through which its contents are stated. -/
abbrev VO1_1 : View sig .tc .vmem S128x128 .f32 := (Memref.whole cc1_stg1_0 : Memref sig .tc .vmem S128x128 .f32).view
/-- Each window's current staging memref at point `t`, as the pipeline passes it, and its wholeness. -/
abbrev ms1_0 (t : Fin cfg1.N) : Memref sig .tc .vmem S128x12544 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
/-- The scratch accumulator: a whole scoped buffer of the kernel's own, passed beside the windows, -/
abbrev scM1_0 : Memref sig .tc .vmem S128x128 .f32 := Memref.whole cc1_scratch0
/-- and as a view: what it holds is stated through it. -/
abbrev VS1_0 : View sig .tc .vmem S128x128 .f32 := scM1_0.view

/-- The core's scoped buffers listed after the accumulator in the region's scoped rest — staging buffers and scratch
    of the other pallas_calls —, each whole at some contents: the body never touches them. -/
def tail1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class's invariant with the accumulator as a memref owned at some contents: what the body obligation hands
    the run at the first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ tail1 c) ∗ (∃ r, prngReg c r)) := by
  unfold Pipeline.ΦA tail1; rw [scopedRest1_eq]; simp only [scM1_0, owns_whole]; try rfl

/-! ## The body's triple, case by case -/

set_option maxHeartbeats 1000000 in
/-- CASE A (point 0: the first `scf.if` taken, the last not). On whole memrefs — the input's at its contents `x0`,
    the output's at contents `xi1` handed back untouched, the accumulator at anything — the body runs to the
    continuation holding the input's as it was and the accumulator with the case's pieces written (`LS0`, last first:
    the accumulated sum over the zero store). The pieces are the witness the run finds. -/
noncomputable def kernelRun1_A (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__gram_kernel i arg1 harg1 arg2 harg2 arg3 harg3) K } := by
  refine ⟨[], ?_, fun xi1 E K => ?run⟩
  case run =>
    simp only [cc1__gram_kernel_eq_skeleton]; unfold cc1__gram_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE B (points 1..14: neither `scf.if` taken). The accumulator goes in at the contents `xs0` the point before
    left and comes back with the case's one piece written: `xs0` plus the block's Gram product. -/
noncomputable def kernelRun1_B (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__gram_kernel i arg1 harg1 arg2 harg2 arg3 harg3) K } := by
  refine ⟨[], ?_, fun xi1 E K => ?run⟩
  case run =>
    simp only [cc1__gram_kernel_eq_skeleton]; unfold cc1__gram_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE C (point 15: the last `scf.if` taken). As case B, and the output's buffer — at anything before — comes
    back with the copy of the accumulator written (`L1`). -/
noncomputable def kernelRun1_C (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) :
    Σ' (L1 : List (View.Piece (Elt F) S128x128 .f32)), { LS0 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__gram_kernel i arg1 harg1 arg2 harg2 arg3 harg3) K } := by
  refine ⟨?_, ?_, fun E K => ?run⟩
  case run =>
    simp only [cc1__gram_kernel_eq_skeleton]; unfold cc1__gram_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves in the output block and in the accumulator -/

/-- Case A stores nothing into the output block (idle and not written back at point 0): no pieces — a placeholder
    that nothing consults. -/
def out1_A_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) : Vec F S128x128 .f32 :=
  VO1_1.read (Elt F) (VO1_1.writes (Elt F) VO1_1.junk (kernelRun1_A c i arg1 harg1 arg2 harg2 arg3 harg3 hc0 hc1 x0).1)

/-- Case A's pieces for the accumulator cover it (each is a store of the whole `[128,128]`). -/
theorem scover1_A_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) (y : S128x128.Idx) :
    ∃ pc ∈ (kernelRun1_A c i arg1 harg1 arg2 harg2 arg3 harg3 hc0 hc1 x0).2.1, y ∈ pc.1.set :=
  View.cover_of_tiledL (kernelRun1_A c i arg1 harg1 arg2 harg2 arg3 harg3 hc0 hc1 x0).2.1 S128x128.size (by sl_kernel_rfl) y

/-- What case A leaves in the accumulator: its pieces read back. -/
def sout1_A_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) : Vec F S128x128 .f32 :=
  VS1_0.read (Elt F) (VS1_0.writes (Elt F) VS1_0.junk (kernelRun1_A c i arg1 harg1 arg2 harg2 arg3 harg3 hc0 hc1 x0).2.1)

/-- Case B stores nothing into the output block either. -/
def out1_B_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) : Vec F S128x128 .f32 :=
  VO1_1.read (Elt F) (VO1_1.writes (Elt F) VO1_1.junk (kernelRun1_B c i arg1 harg1 arg2 harg2 arg3 harg3 hc0 hc1 x0 xs0).1)

/-- Case B's piece for the accumulator covers it. -/
theorem scover1_B_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) (y : S128x128.Idx) :
    ∃ pc ∈ (kernelRun1_B c i arg1 harg1 arg2 harg2 arg3 harg3 hc0 hc1 x0 xs0).2.1, y ∈ pc.1.set :=
  View.cover_of_tiledL (kernelRun1_B c i arg1 harg1 arg2 harg2 arg3 harg3 hc0 hc1 x0 xs0).2.1 S128x128.size (by sl_kernel_rfl) y

/-- What case B leaves in the accumulator. -/
def sout1_B_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) : Vec F S128x128 .f32 :=
  VS1_0.read (Elt F) (VS1_0.writes (Elt F) VS1_0.junk (kernelRun1_B c i arg1 harg1 arg2 harg2 arg3 harg3 hc0 hc1 x0 xs0).2.1)

/-- Case C's piece for the output block covers it (one store of the whole `[128,128]`). -/
theorem cover1_C_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) (y : S128x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S128x128.size (by sl_kernel_rfl) y

/-- What case C leaves in the output's staging buffer: the accumulator's final contents. -/
def out1_C_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) : Vec F S128x128 .f32 :=
  VO1_1.read (Elt F) (VO1_1.writes (Elt F) VO1_1.junk (kernelRun1_C c i arg1 harg1 arg2 harg2 arg3 harg3 hc0 hc1 x0 xs0).1)

/-- Case C's piece for the accumulator covers it. -/
theorem scover1_C_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) (y : S128x128.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S128x128.size (by sl_kernel_rfl) y

/-- What case C leaves in the accumulator. -/
def sout1_C_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) : Vec F S128x128 .f32 :=
  VS1_0.read (Elt F) (VS1_0.writes (Elt F) VS1_0.junk (kernelRun1_C c i arg1 harg1 arg2 harg2 arg3 harg3 hc0 hc1 x0 xs0).2.1)

/-! ## What the output block and the accumulator hold after each point -/

/-- THE ACCUMULATION. The output's staging buffer and the accumulator after the body at position `n` (a pair): case A
    at point 0; at a later point case C when it is the last (15) and case B otherwise, run at the point's memrefs and
    input block over what the point before left in the accumulator. -/
def outsAt1 (c : Dev nD) : (n : ℕ) → n < cfg1.N → Vec F S128x128 .f32 × Vec F S128x128 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩))
  | n + 1, hn =>
    if h1 : n + 1 = 15 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2)
    else
      (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2)

/-- `outsAt1` at point 0: case A's contents. -/
theorem outsAt1_A (c : Dev nD) (t : Fin cfg1.N) (h0 : t.val = 0) (h1 : ¬t.val = 15) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact absurd h0 (Nat.succ_ne_zero n)

/-- `outsAt1` at a point of case B: that case's contents, over what the point before left. -/
theorem outsAt1_B (c : Dev nD) (t : Fin cfg1.N) (h0 : ¬t.val = 0) (h1 : ¬t.val = 15) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at point 15: case C's contents, over what the point before left. -/
theorem outsAt1_C (c : Dev nD) (t : Fin cfg1.N) (h0 : ¬t.val = 0) (h1 : t.val = 15) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (every scoped buffer that is no staging
    buffer of this call at anything, the generator register at some state); afterwards the same with the accumulator at
    what the point before left in it (`outsAt1`'s second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ tail1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ tail1 c) ∗ (∃ r, prngReg c r)) := rfl

/-- Before a point that is not the first: the accumulator at what the point before left. -/
theorem PhiS1_pos (c : Dev nD) (n : ℕ) (h : n ≤ cfg1.N) (hz : ¬n = 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ tail1 c) ∗ (∃ r, prngReg c r)) := by
  cases n with
  | zero => exact absurd rfl hz
  | succ n => rfl

/-! ## The pipeline's proof data -/

/-- The proof data of pipeline 1 on core `c`: the arrays as the region finds them (`V`); after the body at point `t`
    the input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point. The input's memref holds its block; the closed forms say which case the point is in; the
    invariant hands the body the accumulator at what the point before left (at anything at point 0) and takes it back at
    this point's contents, the case's pieces covering it; the other scoped buffers and the generator register pass
    through; the output's buffer is handed back untouched at the idle points and with the copy written at point 15; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val = 0
  · have h1 : ¬t.val = 15 := by omega
    rw [show (dat1 V c).leavesExact 0 t = owns (c : Thread nD τ) (ms1_0 t) fullShare ((dat1 V c).after 0 t) from by
      unfold Dat.leavesExact; rw [liveAt1_0 t], after1_0]
    rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
    rw [outsAt1_A V c t h0 h1]
    unfold sout1_A_0; (try dsimp only)
    rw [PhiS1_castSucc V c t, PhiS1_zero V c _ _ h0, PhiA1_eq]
    iintro ⟨⟨⟨HR0, HR1, HR2, HR3, HS0, HRt⟩, Hg⟩, Ho, ⟨%d0, H0⟩, ⟨%d1, H1⟩⟩
    iapply ((kernelRun1_A c (grid1.coords t) _ _ _ _ _ _ ((hcond1_0 t).mpr h0) (fun h => h1 ((hcond1_1 t).mp h)) (iblk1 V c 0 t)).2.2 _ Set.univ _)
    isplitl [H0]; · iexact H0
    isplitl [H1]; · iexact H1
    isplitl [HS0]; · iexact HS0
    iintro ⟨H0, H1, ⟨%es0, HS0⟩⟩
    isplitl [HR0 HR1 HR2 HR3 HS0 HRt Hg]
    · isplitl [HR0 HR1 HR2 HR3 HS0 HRt]
      · isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (scover1_A_0 c _ _ _ _ _ _ _ _ _ _)
        iexact HRt
      iexact Hg
    isplitl [Ho]; · iexact Ho
    isplitl [H0]; · iexact H0
    iexists _; iexact H1
  · by_cases h1 : t.val = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0; (try dsimp only)
      rw [PhiS1_castSucc V c t, PhiS1_pos V c _ _ h0]
      iintro ⟨⟨⟨HR0, HR1, HR2, HR3, HS0, HRt⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HR0 HR1 HR2 HR3 HS0 HRt Hg]
      · isplitl [HR0 HR1 HR2 HR3 HS0 HRt]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_C_0 c _ _ _ _ _ _ _ _ _ _ _)
          iexact HRt
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ h0]
      iintro ⟨⟨⟨HR0, HR1, HR2, HR3, HS0, HRt⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2.2 _ Set.univ _)
      isplitl [H0]; · iexact H0
      isplitl [H1]; · iexact H1
      isplitl [HS0]; · iexact HS0
      iintro ⟨H0, H1, ⟨%es0, HS0⟩⟩
      isplitl [HR0 HR1 HR2 HR3 HS0 HRt Hg]
      · isplitl [HR0 HR1 HR2 HR3 HS0 HRt]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_B_0 c _ _ _ _ _ _ _ _ _ _ _)
          iexact HRt
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : ¬t.val = 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HS0, HRt⟩, Hg⟩
  isplitl [HR0 HR1 HR2 HR3 HS0 HRt]
  · isplitl [HR0]; · iexact HR0
    isplitl [HR1]; · iexact HR1
    isplitl [HR2]; · iexact HR2
    isplitl [HR3]; · iexact HR3
    isplitl [HS0]
    · iexists _; iexact HS0
    iexact HRt
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.GramRegion

end
-- ==== Proof.GateRegionK.lean ====
/- Regions 2 and 3 of @main, the two launches of the gate-multiply kernel: a class-A body (two whole-block loads,
   one pointwise expression, one whole-block store). Per region, at region-entry contents `V` that are a parameter:
   each window's block at a grid point, what the body leaves in the output's staging buffer as a function of the two
   input blocks, the body's triple, the pipeline's proof data and the body obligation. -/
import proofs.«105140_j1606317769259_2_alg».proof.Proof.Gen.Kernel.Launch
import proofs.«105140_j1606317769259_2_alg».proof.Proof.Gen.Kernel.Skeleton
import proofs.«105140_j1606317769259_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.GateRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's two rectangles: each access is of a whole staging buffer, at zero offsets -/

/-- The zero offsets of a rank-2 access are zero on every axis. -/
theorem hz2 : (![0, 0] : Fin 2 → Nat) = fun _ => 0 := funext fun a => by fin_cases a <;> rfl
/-- The zero offsets of a rank-3 access are zero on every axis. -/
theorem hz3 : (![0, 0, 0] : Fin 3 → Nat) = fun _ => 0 := funext fun a => by fin_cases a <;> rfl

/-- The whole [16,128] gate block. -/
abbrev rGate : Rect S16x128 := Rect.unit (s := S16x128) ![0, 0] S16x128.size inb_S16x128_S16x128_0_0
/-- The whole [16,128,784] activation block. -/
abbrev rAct : Rect S16x128x784 := Rect.unit (s := S16x128x784) ![0, 0, 0] S16x128x784.size inb_S16x128x784_S16x128x784_0_0_0

section Regions
variable {F : FTy → Type} [FloatOps F]

local notation "𝕄" => MT nD τ sig Unit (Elt F) ℕ (UR sig nD τ) ℕ

-- the TensorCore's buffer contents when a region is entered: the parameter every declaration is stated at
variable (V : (c : Dev nD) → (b : Ref sig .tc) → Buf (Elt F) ((c : Thread nD τ).loc b))

/-- The one store of the body is of the whole output buffer, so it covers every index of it. -/
theorem cover_act (p0 : Vec F S16x128x784 .f32) (y : S16x128x784.Idx) :
    ∃ pc ∈ ([⟨rAct, p0⟩] : List (View.Piece (Elt F) S16x128x784 .f32)), y ∈ pc.1.set :=
  ⟨_, List.mem_singleton_self _, View.mem_set_unit_zero hz3 inb_S16x128x784_S16x128x784_0_0_0 y⟩

/-! # REGION 2 of @main: custom_call 2, `cc2__gate_mul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's current staging buffer holds its block at every point, fetched there or not, for any proof
    data whose array is `V`'s (`hA`) and whose body leaves the block in place (`hafter`): the window is uncut and
    never idle, and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the gate window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The output's staging buffer after the body, from the activation block `x0` and the gate block `x1`: the one
    store, of the product of the activation block with the gate block repeated along the last axis. -/
def out2_2 (x0 : Vec F S16x128x784 .f32) (x1 : Vec F S16x128 .f32) : Vec F S16x128x784 .f32 :=
  View.canon [⟨rAct, k2_pay1 (View.ld x1 rGate) (View.ld x0 rAct)⟩]

/-! ## The body's triple -/

set_option maxHeartbeats 1000000 in
/-- The kernel body on whole staging memrefs, the inputs' at read contents `x0`, `x1` and the output's at anything,
    runs to the continuation holding the inputs' as they were and the output's at `out2_2` of the inputs'. -/
theorem sound_kernel2 (c : Dev nD) (E : Set ℕ) (i : grid2.Coords) (arg2 : Memref sig .tc .vmem S16x128x784 .f32) (harg2 : arg2.IsWhole) (arg3 : Memref sig .tc .vmem S16x128 .f32) (harg3 : arg3.IsWhole) (arg4 : Memref sig .tc .vmem S16x128x784 .f32) (harg4 : arg4.IsWhole)
    (x0 : Vec F S16x128x784 .f32) (x1 : Vec F S16x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__gate_mul_kernel i arg2 harg2 arg3 harg3 arg4 harg4) K := by
  simp only [cc2__gate_mul_kernel_eq_skeleton]; unfold cc2__gate_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_act _)

/-! ## The pipeline's proof data -/

/-- The proof data of pipeline 2 on core `c`: the arrays as the region finds them (`V`); after the body at point
    `t` each input's buffer at its block and the output's at `out2_2` of the input blocks; the class-A invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The input arrays are never written back: after the region they hold their entry contents. -/
theorem gate_kept2_0 (c : Dev nD) : (dat2 V c).arrAt 0 cfg2.N = V c (Pipeline.arrRef spec2 0) :=
  ((dat2 V c).arrAt_in 0 rfl _).trans (A_eq2 V c 0)
theorem gate_kept2_1 (c : Dev nD) : (dat2 V c).arrAt 1 cfg2.N = V c (Pipeline.arrRef spec2 1) :=
  ((dat2 V c).arrAt_in 1 rfl _).trans (A_eq2 V c 1)

/-! # REGION 3 of @main: custom_call 3, `cc3__gate_mul_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation window's current staging buffer holds its block at every point, fetched there or not, for any proof
    data whose array is `V`'s (`hA`) and whose body leaves the block in place (`hafter`): the window is uncut and
    never idle, and where it is not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for the gate window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The output's staging buffer after the body, from the activation block `x0` and the gate block `x1`: the one
    store, of the product of the activation block with the gate block repeated along the last axis. -/
def out3_2 (x0 : Vec F S16x128x784 .f32) (x1 : Vec F S16x128 .f32) : Vec F S16x128x784 .f32 :=
  View.canon [⟨rAct, k3_pay1 (View.ld x1 rGate) (View.ld x0 rAct)⟩]

/-! ## The body's triple -/

set_option maxHeartbeats 1000000 in
/-- The kernel body on whole staging memrefs, the inputs' at read contents `x0`, `x1` and the output's at anything,
    runs to the continuation holding the inputs' as they were and the output's at `out3_2` of the inputs'. -/
theorem sound_kernel3 (c : Dev nD) (E : Set ℕ) (i : grid3.Coords) (arg2 : Memref sig .tc .vmem S16x128x784 .f32) (harg2 : arg2.IsWhole) (arg3 : Memref sig .tc .vmem S16x128 .f32) (harg3 : arg3.IsWhole) (arg4 : Memref sig .tc .vmem S16x128x784 .f32) (harg4 : arg4.IsWhole)
    (x0 : Vec F S16x128x784 .f32) (x1 : Vec F S16x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__gate_mul_kernel i arg2 harg2 arg3 harg3 arg4 harg4) K := by
  simp only [cc3__gate_mul_kernel_eq_skeleton]; unfold cc3__gate_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_act _)

/-! ## The pipeline's proof data -/

/-- The proof data of pipeline 3 on core `c`: the arrays as the region finds them (`V`); after the body at point
    `t` each input's buffer at its block and the output's at `out3_2` of the input blocks; the class-A invariant
    (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The input arrays are never written back: after the region they hold their entry contents. -/
theorem gate_kept3_0 (c : Dev nD) : (dat3 V c).arrAt 0 cfg3.N = V c (Pipeline.arrRef spec3 0) :=
  ((dat3 V c).arrAt_in 0 rfl _).trans (A_eq3 V c 0)
theorem gate_kept3_1 (c : Dev nD) : (dat3 V c).arrAt 1 cfg3.N = V c (Pipeline.arrRef spec3 1) :=
  ((dat3 V c).arrAt_in 1 rfl _).trans (A_eq3 V c 1)

end Regions

end Cert.Kernel.GateRegion

end
-- ==== Proof.RunK.lean ====
/-
  The four kernel regions as segments of @main, and @main's run.
  Between two items of @main every unscoped buffer of a core is held whole at a valuation: the launch contents, then
  each host stretch applied, and at a region only the region's output array changed — to what the region's pipeline
  leaves there (the fold of its write-backs). A region's proof data are stated at the valuation the region is
  entered from, so the contents are defined stage by stage: each stage reads only the stages before it.
-/
import proofs.«105140_j1606317769259_2_alg».proof.Proof.RunCondK
import proofs.«105140_j1606317769259_2_alg».proof.Proof.GramRegionK0
import proofs.«105140_j1606317769259_2_alg».proof.Proof.GramRegionK1
import proofs.«105140_j1606317769259_2_alg».proof.Proof.GateRegionK
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each region leaves, stage by stage -/

/-- After region 0: its arrays at what its pipeline leaves, entered from the contents after the first host stretch. -/
def W2 (c : Dev nD) : Valuation τ sig (Elt F) :=
  Pipeline.withArrays spec0 c (V1 m c) fun w => (GramRegion.dat0 (fun c b => V1 m c b) c).arrAt w cfg0.N
/-- The regions' contents known so far: region 0's. -/
def outs2 : Outs (F := F) := fun _ r c => W2 m c r
/-- After region 1, entered from the contents region 0 left. -/
def W3 (c : Dev nD) : Valuation τ sig (Elt F) :=
  Pipeline.withArrays spec1 c (V2 m (outs2 m) c) fun w => (GramRegion.dat1 (fun c b => V2 m (outs2 m) c b) c).arrAt w cfg1.N
def outs3 : Outs (F := F) := fun J r c => match J with | 2 => W2 m c r | _ => W3 m c r
/-- After region 2, entered from the contents after the host stretches that follow region 1. -/
def W27 (c : Dev nD) : Valuation τ sig (Elt F) :=
  Pipeline.withArrays spec2 c (V26 m (outs3 m) c) fun w => (GateRegion.dat2 (fun c b => V26 m (outs3 m) c b) c).arrAt w cfg2.N
def outs27 : Outs (F := F) := fun J r c => match J with | 2 => W2 m c r | 3 => W3 m c r | _ => W27 m c r
/-- After region 3. -/
def W29 (c : Dev nD) : Valuation τ sig (Elt F) :=
  Pipeline.withArrays spec3 c (V28 m (outs27 m) c) fun w => (GateRegion.dat3 (fun c b => V28 m (outs27 m) c b) c).arrAt w cfg3.N
/-- What the four regions leave in the arrays they write. -/
def outs : Outs (F := F) := fun J r c => match J with | 2 => W2 m c r | 3 => W3 m c r | 27 => W27 m c r | _ => W29 m c r

/-- The boundary contents do not depend on the stages still to come. -/
theorem V2_outs (c : Dev nD) : V2 m (outs m) c = V2 m (outs2 m) c := rfl
theorem V26_outs (c : Dev nD) : V26 m (outs m) c = V26 m (outs3 m) c := rfl
theorem V28_outs (c : Dev nD) : V28 m (outs m) c = V28 m (outs27 m) c := rfl

/-! ## The proof data and what rides beside the buffers -/

/-- Every pipeline's proof data, each at its region's entry contents. -/
def pdats : (p : Fin 4) → (c : Dev nD) → Dat τ (Elt F) Unit ℕ (UR sig nD τ) ℕ (cfgs p) c
  | ⟨0, _⟩ => fun c => GramRegion.dat0 (fun c b => V1 m c b) c
  | ⟨1, _⟩ => fun c => GramRegion.dat1 (fun c b => V2 m (outs2 m) c b) c
  | ⟨2, _⟩ => fun c => GateRegion.dat2 (fun c b => V26 m (outs3 m) c b) c
  | ⟨3, _⟩ => fun c => GateRegion.dat3 (fun c b => V28 m (outs27 m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

/-! ## A region's exit contents against its entry contents -/

theorem hF0 (c : Dev nD) (w : Fin cfg0.W) : (pdats m 0 c).arrAt w cfg0.N = V2 m (outs m) c (Pipeline.arrRef spec0 w) := by
  match w with
  | ⟨0, _⟩ =>
    refine ((pdats m 0 c).arrAt_in 0 rfl _).trans ?_
    refine (GramRegion.A_eq0 (fun c b => V1 m c b) c 0).trans ?_
    exact (V2_of m (outs m) c _ (by decide)).symm
  | ⟨1, _⟩ =>
    refine Eq.trans ?_ (Function.update_self (Proc.devRef .tc main_v2 : DevRef τ sig) (outs m 2 main_v2 c) (V1 m c)).symm
    exact (Pipeline.withArrays_arr spec0 launch0.win.arr_inj c (V1 m c) (fun w => (GramRegion.dat0 (fun c b => V1 m c b) c).arrAt w cfg0.N) 1).symm
theorem hrest0 (c : Dev nD) : ∀ b, b ∉ Finset.univ.image (Pipeline.arrRef spec0) → V2 m (outs m) c b = V1 m c b :=
  fun b hb => V2_of m (outs m) c b fun h => hb (Finset.mem_image.mpr ⟨1, Finset.mem_univ _, (List.mem_singleton.mp h).symm⟩)

theorem hF1 (c : Dev nD) (w : Fin cfg1.W) : (pdats m 1 c).arrAt w cfg1.N = V3 m (outs m) c (Pipeline.arrRef spec1 w) := by
  match w with
  | ⟨0, _⟩ =>
    refine ((pdats m 1 c).arrAt_in 0 rfl _).trans ?_
    refine (GramRegion.A_eq1 (fun c b => V2 m (outs2 m) c b) c 0).trans ?_
    exact (congrFun (V2_outs m c) _).symm.trans (V3_of m (outs m) c _ (by decide)).symm
  | ⟨1, _⟩ =>
    refine Eq.trans ?_ (Function.update_self (Proc.devRef .tc main_v3 : DevRef τ sig) (outs m 3 main_v3 c) (V2 m (outs m) c)).symm
    exact (Pipeline.withArrays_arr spec1 launch1.win.arr_inj c (V2 m (outs2 m) c) (fun w => (GramRegion.dat1 (fun c b => V2 m (outs2 m) c b) c).arrAt w cfg1.N) 1).symm
theorem hrest1 (c : Dev nD) : ∀ b, b ∉ Finset.univ.image (Pipeline.arrRef spec1) → V3 m (outs m) c b = V2 m (outs m) c b :=
  fun b hb => V3_of m (outs m) c b fun h => hb (Finset.mem_image.mpr ⟨1, Finset.mem_univ _, (List.mem_singleton.mp h).symm⟩)

theorem hF2 (c : Dev nD) (w : Fin cfg2.W) : (pdats m 2 c).arrAt w cfg2.N = V27 m (outs m) c (Pipeline.arrRef spec2 w) := by
  match w with
  | ⟨0, _⟩ =>
    refine ((pdats m 2 c).arrAt_in 0 rfl _).trans ?_
    refine (GateRegion.A_eq2 (fun c b => V26 m (outs3 m) c b) c 0).trans ?_
    exact (congrFun (V26_outs m c) _).symm.trans (V27_of m (outs m) c _ (by decide)).symm
  | ⟨1, _⟩ =>
    refine ((pdats m 2 c).arrAt_in 1 rfl _).trans ?_
    refine (GateRegion.A_eq2 (fun c b => V26 m (outs3 m) c b) c 1).trans ?_
    exact (congrFun (V26_outs m c) _).symm.trans (V27_of m (outs m) c _ (by decide)).symm
  | ⟨2, _⟩ =>
    refine Eq.trans ?_ (Function.update_self (Proc.devRef .tc main_v144 : DevRef τ sig) (outs m 27 main_v144 c) (V26 m (outs m) c)).symm
    exact (Pipeline.withArrays_arr spec2 launch2.win.arr_inj c (V26 m (outs3 m) c) (fun w => (GateRegion.dat2 (fun c b => V26 m (outs3 m) c b) c).arrAt w cfg2.N) 2).symm
theorem hrest2 (c : Dev nD) : ∀ b, b ∉ Finset.univ.image (Pipeline.arrRef spec2) → V27 m (outs m) c b = V26 m (outs m) c b :=
  fun b hb => V27_of m (outs m) c b fun h => hb (Finset.mem_image.mpr ⟨2, Finset.mem_univ _, (List.mem_singleton.mp h).symm⟩)

theorem hF3 (c : Dev nD) (w : Fin cfg3.W) : (pdats m 3 c).arrAt w cfg3.N = V29 m (outs m) c (Pipeline.arrRef spec3 w) := by
  match w with
  | ⟨0, _⟩ =>
    refine ((pdats m 3 c).arrAt_in 0 rfl _).trans ?_
    refine (GateRegion.A_eq3 (fun c b => V28 m (outs27 m) c b) c 0).trans ?_
    exact (congrFun (V28_outs m c) _).symm.trans (V29_of m (outs m) c _ (by decide)).symm
  | ⟨1, _⟩ =>
    refine ((pdats m 3 c).arrAt_in 1 rfl _).trans ?_
    refine (GateRegion.A_eq3 (fun c b => V28 m (outs27 m) c b) c 1).trans ?_
    exact (congrFun (V28_outs m c) _).symm.trans (V29_of m (outs m) c _ (by decide)).symm
  | ⟨2, _⟩ =>
    refine Eq.trans ?_ (Function.update_self (Proc.devRef .tc main_v147 : DevRef τ sig) (outs m 29 main_v147 c) (V28 m (outs m) c)).symm
    exact (Pipeline.withArrays_arr spec3 launch3.win.arr_inj c (V28 m (outs27 m) c) (fun w => (GateRegion.dat3 (fun c b => V28 m (outs27 m) c b) c).arrAt w cfg3.N) 2).symm
theorem hrest3 (c : Dev nD) : ∀ b, b ∉ Finset.univ.image (Pipeline.arrRef spec3) → V29 m (outs m) c b = V28 m (outs m) c b :=
  fun b hb => V29_of m (outs m) c b fun h => hb (Finset.mem_image.mpr ⟨2, Finset.mem_univ _, (List.mem_singleton.mp h).symm⟩)

/-! ## The class invariant in and out -/

theorem phiA_in0 (c : Dev nD) (Pm : sProp 𝕄) :
    iprop((∃ r, prngReg c r) ∗ Pm ∗ Pipeline.scopedRest spec0 c) ⊢ (Pipeline.ΦA spec0 c : sProp 𝕄) := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

theorem phiA_in1 (c : Dev nD) (Pm : sProp 𝕄) :
    iprop((∃ r, prngReg c r) ∗ Pm ∗ Pipeline.scopedRest spec1 c) ⊢ (Pipeline.ΦA spec1 c : sProp 𝕄) := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- Region 0 as a segment: entered with every unscoped buffer at the contents before it, left with them at the contents
    after it; its arrays are split out of the unscoped buffers and put back at what the pipeline leaves; the scratch
    accumulator and the generator register pass through the region's invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (GramRegion.body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (GramRegion.hin0 (fun c b => V1 m c b) c)
  hout c := by
    rw [Pipeline.ownSems0_none]
    exact (GramRegion.hout0 (fun c b => V1 m c b) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held c (V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it; its arrays are split out of the unscoped buffers and put back at what the pipeline leaves; the scratch
    accumulator and the generator register pass through the region's invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (GramRegion.body_obligation1 (fun c b => V2 m (outs2 m) c b) c).loose
  hwaits := Pipeline.hwaits_of_owed_zero _ _ _ _ L lv 1 fun _ _ => rfl
  pre c := iprop(StableHlo.held (c : Thread nD τ) (Pipeline.ucRefs τ sig) (V2 m (outs m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held c (V2 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (GramRegion.hin1 (fun c b => V2 m (outs2 m) c b) c)
  hout c := by
    rw [Pipeline.ownSems0_none]
    exact (GramRegion.hout1 (fun c b => V2 m (outs2 m) c b) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held c (V3 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the contents
    after it; its arrays are split out of the unscoped buffers and put back at what the pipeline leaves; the generator
    register passes through the region's invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (GateRegion.body_obligation2 (fun c b => V26 m (outs3 m) c b) c).loose
  hwaits := Pipeline.hwaits_of_owed_zero _ _ _ _ L lv 2 fun _ _ => rfl
  pre c := iprop(StableHlo.held (c : Thread nD τ) (Pipeline.ucRefs τ sig) (V26 m (outs m) c) ∗ Rr c)
  post c := iprop(StableHlo.held (c : Thread nD τ) (Pipeline.ucRefs τ sig) (V27 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (fun b => V26 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V26 m (outs m) c b) fun _ => rfl
    rw [Pipeline.unscopedBufs_held c (V26 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V26 m (outs m) c b) (fun b => V27 m (outs m) c b) ((pdats m 2 c).arrAt · cfg2.N) (hF2 m c) (hrest2 m c)
    rw [Pipeline.unscopedBufs_held c (V27 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the contents
    after it; its arrays are split out of the unscoped buffers and put back at what the pipeline leaves; the generator
    register passes through the region's invariant. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (GateRegion.body_obligation3 (fun c b => V28 m (outs27 m) c b) c).loose
  hwaits := Pipeline.hwaits_of_owed_zero _ _ _ _ L lv 3 fun _ _ => rfl
  pre c := iprop(StableHlo.held (c : Thread nD τ) (Pipeline.ucRefs τ sig) (V28 m (outs m) c) ∗ Rr c)
  post c := iprop(StableHlo.held (c : Thread nD τ) (Pipeline.ucRefs τ sig) (V29 m (outs m) c) ∗ Rr c)
  X c := iprop(∃ r, prngReg c r)
  Y c := iprop(∃ r, prngReg c r)
  Z c := Pipeline.unscopedRest (Ix := Unit) (Name := ℕ) (U := UR sig nD τ) (Lvl := ℕ) spec3 c (fun b => V28 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V28 m (outs m) c b) fun _ => rfl
    rw [Pipeline.unscopedBufs_held c (V28 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V28 m (outs m) c b) (fun b => V29 m (outs m) c b) ((pdats m 3 c).arrAt · cfg3.N) (hF3 m c) (hrest3 m c)
    rw [Pipeline.unscopedBufs_held c (V29 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option maxHeartbeats 4000000 in
set_option backward.isDefEq.respectTransparency.types false in
/-- Every weakly fair execution of @main from memory `m` with zero counters terminates, nothing faulting, and every
    unscoped buffer of every core ends at the last boundary's contents. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V30 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)

end Cert.Kernel.Run

end
-- ==== Proof.FrameK.lean ====
/-
  The run read at the argument arrays: no host stretch writes an argument and no region changes one, so each ends as
  launched — the frame claim.
-/
import proofs.«105140_j1606317769259_2_alg».proof.Proof.RunK

set_option maxRecDepth 16384

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Every weakly fair execution of @main terminates, nothing faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c (Proc.devRef .tc main_arg0) (Finset.mem_filter.mpr ⟨StableHlo.devRef_mem_tcRefs main_arg0, by decide⟩)).trans (V30_main_arg0 m (outs m) c),
      (h c (Proc.devRef .tc main_arg1) (Finset.mem_filter.mpr ⟨StableHlo.devRef_mem_tcRefs main_arg1, by decide⟩)).trans (V30_main_arg1 m (outs m) c),
      (h c (Proc.devRef .tc main_arg2) (Finset.mem_filter.mpr ⟨StableHlo.devRef_mem_tcRefs main_arg2, by decide⟩)).trans (V30_main_arg2 m (outs m) c),
      (h c (Proc.devRef .tc main_arg3) (Finset.mem_filter.mpr ⟨StableHlo.devRef_mem_tcRefs main_arg3, by decide⟩)).trans (V30_main_arg3 m (outs m) c),
      (h c (Proc.devRef .tc main_arg4) (Finset.mem_filter.mpr ⟨StableHlo.devRef_mem_tcRefs main_arg4, by decide⟩)).trans (V30_main_arg4 m (outs m) c),
      (h c (Proc.devRef .tc main_arg5) (Finset.mem_filter.mpr ⟨StableHlo.devRef_mem_tcRefs main_arg5, by decide⟩)).trans (V30_main_arg5 m (outs m) c),
      (h c (Proc.devRef .tc main_arg6) (Finset.mem_filter.mpr ⟨StableHlo.devRef_mem_tcRefs main_arg6, by decide⟩)).trans (V30_main_arg6 m (outs m) c),
      (h c (Proc.devRef .tc main_arg7) (Finset.mem_filter.mpr ⟨StableHlo.devRef_mem_tcRefs main_arg7, by decide⟩)).trans (V30_main_arg7 m (outs m) c),
      (h c (Proc.devRef .tc main_arg8) (Finset.mem_filter.mpr ⟨StableHlo.devRef_mem_tcRefs main_arg8, by decide⟩)).trans (V30_main_arg8 m (outs m) c),
      (h c (Proc.devRef .tc main_arg9) (Finset.mem_filter.mpr ⟨StableHlo.devRef_mem_tcRefs main_arg9, by decide⟩)).trans (V30_main_arg9 m (outs m) c),
      (h c (Proc.devRef .tc main_arg10) (Finset.mem_filter.mpr ⟨StableHlo.devRef_mem_tcRefs main_arg10, by decide⟩)).trans (V30_main_arg10 m (outs m) c),
      (h c (Proc.devRef .tc main_arg11) (Finset.mem_filter.mpr ⟨StableHlo.devRef_mem_tcRefs main_arg11, by decide⟩)).trans (V30_main_arg11 m (outs m) c),
      (h c (Proc.devRef .tc main_arg12) (Finset.mem_filter.mpr ⟨StableHlo.devRef_mem_tcRefs main_arg12, by decide⟩)).trans (V30_main_arg12 m (outs m) c),
      (h c (Proc.devRef .tc main_arg13) (Finset.mem_filter.mpr ⟨StableHlo.devRef_mem_tcRefs main_arg13, by decide⟩)).trans (V30_main_arg13 m (outs m) c),
      (h c (Proc.devRef .tc main_arg14) (Finset.mem_filter.mpr ⟨StableHlo.devRef_mem_tcRefs main_arg14, by decide⟩)).trans (V30_main_arg14 m (outs m) c),
      (h c (Proc.devRef .tc main_arg15) (Finset.mem_filter.mpr ⟨StableHlo.devRef_mem_tcRefs main_arg15, by decide⟩)).trans (V30_main_arg15 m (outs m) c),
      (h c (Proc.devRef .tc main_arg16) (Finset.mem_filter.mpr ⟨StableHlo.devRef_mem_tcRefs main_arg16, by decide⟩)).trans (V30_main_arg16 m (outs m) c),
      (h c (Proc.devRef .tc main_arg17) (Finset.mem_filter.mpr ⟨StableHlo.devRef_mem_tcRefs main_arg17, by decide⟩)).trans (V30_main_arg17 m (outs m) c),
      (h c (Proc.devRef .tc main_arg18) (Finset.mem_filter.mpr ⟨StableHlo.devRef_mem_tcRefs main_arg18, by decide⟩)).trans (V30_main_arg18 m (outs m) c),
      (h c (Proc.devRef .tc main_arg19) (Finset.mem_filter.mpr ⟨StableHlo.devRef_mem_tcRefs main_arg19, by decide⟩)).trans (V30_main_arg19 m (outs m) c),
      (h c (Proc.devRef .tc main_arg20) (Finset.mem_filter.mpr ⟨StableHlo.devRef_mem_tcRefs main_arg20, by decide⟩)).trans (V30_main_arg20 m (outs m) c),
      (h c (Proc.devRef .tc main_arg21) (Finset.mem_filter.mpr ⟨StableHlo.devRef_mem_tcRefs main_arg21, by decide⟩)).trans (V30_main_arg21 m (outs m) c),
      (h c (Proc.devRef .tc main_arg22) (Finset.mem_filter.mpr ⟨StableHlo.devRef_mem_tcRefs main_arg22, by decide⟩)).trans (V30_main_arg22 m (outs m) c),
      (h c (Proc.devRef .tc main_arg23) (Finset.mem_filter.mpr ⟨StableHlo.devRef_mem_tcRefs main_arg23, by decide⟩)).trans (V30_main_arg23 m (outs m) c),
      (h c (Proc.devRef .tc main_arg24) (Finset.mem_filter.mpr ⟨StableHlo.devRef_mem_tcRefs main_arg24, by decide⟩)).trans (V30_main_arg24 m (outs m) c),
      (h c (Proc.devRef .tc main_arg25) (Finset.mem_filter.mpr ⟨StableHlo.devRef_mem_tcRefs main_arg25, by decide⟩)).trans (V30_main_arg25 m (outs m) c)⟩) (run_all m ρ)

end Cert.Kernel.Run

end
-- ==== Proof.RunCondKI.lean ====
/-
  The whole program's run, given one segment record per kernel region: every weakly fair execution of @main
  terminates, and every unscoped buffer of every core ends at the last boundary's contents (the launch contents
  carried through each host stretch and changed, at a region, only in the array that region writes). Read at the
  argument arrays this is the frame claim; read at the two result arrays it is what the value claim needs.
-/
import proofs.«105140_j1606317769259_2_alg».proof.Proof.Gen.KernelIdeal.Regions

set_option maxRecDepth 1468

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- For any rest states the launch makes on every core and that end owing nothing, any contents the regions leave
    and any proof data: given, per region, a segment record entered from the thread state before it and left at the
    one after it, every weakly fair execution of @main from memory `m` with zero counters terminates and every final
    memory holds every unscoped buffer at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V26 m outs c) ∗ E 2 c) ⊢ R2.pre c)
    (hpost2 : ∀ c : Dev nD, R2.post c ⊢ iprop(StableHlo.held (c : Thread nD τ) (Pipeline.ucRefs τ sig) (V27 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V28 m outs c) ∗ E 3 c) ⊢ R3.pre c)
    (hpost3 : ∀ c : Dev nD, R3.post c ⊢ iprop(StableHlo.held (c : Thread nD τ) (Pipeline.ucRefs τ sig) (V29 m outs c) ∗ E 4 c)) :
    θ_run defs (onTc (τ := τ) (main (F := F))) ⟨m, fun _ => 0, ρ⟩ (fun r => ∀ c : Dev nD, ∀ b ∈ Pipeline.ucRefs τ sig,
      r.2.mem ((c : Thread nD τ).1, b) = V30 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          StableHlo.seq hostOps2_15,
          StableHlo.seq hostOps2_16,
          StableHlo.seq hostOps2_17,
          StableHlo.seq hostOps2_18,
          StableHlo.seq hostOps2_19,
          StableHlo.seq hostOps2_20,
          StableHlo.seq hostOps2_21,
          StableHlo.seq hostOps2_22,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m outs c))
    (hch := fun c => ⟨.rfl, hpre0 c, (hpost0 c).trans (hpre1 c), hpost1 c, .rfl, .rfl, .rfl, .rfl, .rfl, .rfl, .rfl, .rfl, .rfl, .rfl, .rfl, .rfl, .rfl, .rfl, .rfl, .rfl, .rfl, .rfl, .rfl, .rfl, .rfl, .rfl, hpre2 c, hpost2 c, hpre3 c, hpost3 c, sep_mono .rfl (hE4 c)⟩)
    (hinit := ?_) (QY := fun c s => ∀ b ∈ Pipeline.ucRefs τ sig, s.mem ((c : Thread nD τ).1, b) = V30 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V30 m outs c) s') $$ [Hh HSI]
    · isplitl [Hh] <;> iassumption
    icases Hr with ⟨%h, HSI⟩
    imodintro
    isplitr
    · ipureintro
      exact h
    · iexact HSI

end Cert.KernelIdeal.Run

end
-- ==== Proof.GramRegionKI0.lean ====
/- Region 0 of @main: the Gram kernel `cc0__gram_kernel` (pipeline 0), at the region-entry contents `V`.
   The grid is the 16 blocks of the contracted axis. A scratch accumulator `[128,128]` is carried from point to
   point: zeroed at point 0, `acc += x · xᵀ` (in bf16 operands, f32 accumulation) at every point, copied to the
   output block at point 15. Three control cases over the grid coordinate:
     A  point 0        the scratch is zeroed, then accumulated into; the output window is idle;
     B  points 1..14   the scratch is accumulated into; the output window is idle;
     C  point 15       the scratch is accumulated into, then copied to the output block.
   Per case the body's triple (`kernelRun0_κ`), what the case leaves in the scratch and in the output block
   (`sout0_κ_0`, `out0_κ_1`), these point by point (`outsAt0`), the region invariant naming the scratch's
   contents after every point (`PhiS0`), the proof data `dat0` and the body obligation. Generic in the float
   instance. -/
import proofs.«105140_j1606317769259_2_alg».proof.Proof.Gen.KernelIdeal.Launch
import proofs.«105140_j1606317769259_2_alg».proof.Proof.Gen.KernelIdeal.Skeleton
import proofs.«105140_j1606317769259_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.GramRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration is stated at this parameter
variable (V : (c : Dev nD) → (b : Ref sig .tc) → Buf (Elt F) ((c : Thread nD τ).loc b))

/-! ## The windows' blocks -/

/-- Window `w`'s block at point `t`, read off its array as the region finds it (`V`): for window 0 the columns
    `t·12544 … (t+1)·12544 − 1` of the `[128,200704]` input, for window 1 the whole `[128,128]` output. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is fetched at every point, uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (zero the accumulator), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the 16 points. -/
theorem hcond0_0 : ∀ t : Fin cfg0.N, cond0_0 (grid0.coords t) ↔ t.val = 0 :=
  (by decide +kernel : ∀ t : Fin grid0.N, cond0_0 (grid0.coords t) ↔ t.val = 0)

/-- The condition of the body's last `scf.if` (copy the accumulator out), from the grid coordinate. -/
abbrev cond0_1 (i : grid0.Coords) : Prop := k0_cond2 i = 1#1
/-- It holds at the last point only — decided over the 16 points. -/
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

/-- Window 0 is never idle (an input). -/
theorem liveAt0_0 : ∀ t : Fin cfg0.N, cfg0.idle 0 (grid0.coords t) = false := by decide +kernel
/-- At point 0 (case A) the output window is idle: the case stores nothing into it, -/
theorem idleAt0_1_A : ∀ t : Fin cfg0.N, cond0_0 (grid0.coords t) → ¬cond0_1 (grid0.coords t) → cfg0.idle 1 (grid0.coords t) = true := by decide +kernel
/-- and the pipeline does not write its block back there. -/
theorem noFlush0_1_A : ∀ t : Fin cfg0.N, cond0_0 (grid0.coords t) → ¬cond0_1 (grid0.coords t) → (cfg0.win 1).flush t = false := by decide +kernel
/-- The same at points 1..14 (case B). -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- At point 15 (case C) the output window is live: the case stores its whole block. -/
theorem liveAt0_1_C : ∀ t : Fin cfg0.N, ¬cond0_0 (grid0.coords t) → cond0_1 (grid0.coords t) → cfg0.idle 1 (grid0.coords t) = false := by decide +kernel

/-! ## The memrefs the body is called with -/

/-- The staging buffer of the output window, through which its contents are stated. -/
abbrev VO0_1 : View sig .tc .vmem S128x128 .f32 := (Memref.whole cc0_stg1_0 : Memref sig .tc .vmem S128x128 .f32).view
/-- Each window's current staging memref at point `t`, as the pipeline passes it, and its wholeness. -/
abbrev ms0_0 (t : Fin cfg0.N) : Memref sig .tc .vmem S128x12544 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
/-- The scratch accumulator: a whole scoped buffer of the kernel's own, passed beside the windows, -/
abbrev scM0_0 : Memref sig .tc .vmem S128x128 .f32 := Memref.whole cc0_scratch0
/-- and as a view: what it holds is stated through it. -/
abbrev VS0_0 : View sig .tc .vmem S128x128 .f32 := scM0_0.view

/-- The core's scoped buffers listed after the accumulator in the region's scoped rest — staging buffers and scratch
    of the other pallas_calls —, each whole at some contents: the body never touches them. -/
def tail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class's invariant with the accumulator as a memref owned at some contents: what the body obligation hands
    the run at the first point. -/
theorem PhiA0_eq (c : Dev nD) :
    (Pipeline.ΦA spec0 c : sProp 𝕄)
      = iprop(iprop((∃ d, owns (c : Thread nD τ) scM0_0 fullShare d) ∗ tail0 c) ∗ (∃ r, prngReg c r)) := by
  unfold Pipeline.ΦA tail0; rw [scopedRest0_eq]; simp only [scM0_0, owns_whole]; try rfl

/-! ## The body's triple, case by case -/

set_option maxHeartbeats 1000000 in
/-- CASE A (point 0: the first `scf.if` taken, the last not). On whole memrefs — the input's at its contents `x0`,
    the output's at contents `xi1` handed back untouched, the accumulator at anything — the body runs to the
    continuation holding the input's as it was and the accumulator with the case's pieces written (`LS0`, last first:
    the accumulated sum over the zero store). The pieces are the witness the run finds. -/
noncomputable def kernelRun0_A (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE B (points 1..14: neither `scf.if` taken). The accumulator goes in at the contents `xs0` the point before
    left and comes back with the case's one piece written: `xs0` plus the block's Gram product. -/
noncomputable def kernelRun0_B (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE C (point 15: the last `scf.if` taken). As case B, and the output's buffer — at anything before — comes
    back with the copy of the accumulator written (`L1`). -/
noncomputable def kernelRun0_C (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) :
    Σ' (L1 : List (View.Piece (Elt F) S128x128 .f32)), { LS0 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves in the output block and in the accumulator -/

/-- Case A stores nothing into the output block (idle and not written back at point 0): no pieces — a placeholder
    that nothing consults. -/
def out0_A_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) : Vec F S128x128 .f32 :=
  VO0_1.read (Elt F) (VO0_1.writes (Elt F) VO0_1.junk (kernelRun0_A c i arg1 harg1 arg2 harg2 arg3 harg3 hc0 hc1 x0).1)

/-- Case A's pieces for the accumulator cover it (each is a store of the whole `[128,128]`). -/
theorem scover0_A_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) (y : S128x128.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S128x128.size (by sl_kernel_rfl) y

/-- What case A leaves in the accumulator: its pieces read back. -/
def sout0_A_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond0_0 i) (hc1 : ¬cond0_1 i)
    (x0 : Vec F S128x12544 .f32) : Vec F S128x128 .f32 :=
  VS0_0.read (Elt F) (VS0_0.writes (Elt F) VS0_0.junk (kernelRun0_A c i arg1 harg1 arg2 harg2 arg3 harg3 hc0 hc1 x0).2.1)

/-- Case B stores nothing into the output block either. -/
def out0_B_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) : Vec F S128x128 .f32 :=
  VO0_1.read (Elt F) (VO0_1.writes (Elt F) VO0_1.junk (kernelRun0_B c i arg1 harg1 arg2 harg2 arg3 harg3 hc0 hc1 x0 xs0).1)

/-- Case B's piece for the accumulator covers it. -/
theorem scover0_B_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) (y : S128x128.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S128x128.size (by sl_kernel_rfl) y

/-- What case B leaves in the accumulator. -/
def sout0_B_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : ¬cond0_1 i)
    (x0 : Vec F S128x12544 .f32) (xs0 : Vec F S128x128 .f32) : Vec F S128x128 .f32 :=
  VS0_0.read (Elt F) (VS0_0.writes (Elt F) VS0_0.junk (kernelRun0_B c i arg1 harg1 arg2 harg2 arg3 harg3 hc0 hc1 x0 xs0).2.1)

/-- Case C's piece for the output block covers it (one store of the whole `[128,128]`). -/
theorem cover0_C_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) (y : S128x128.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S128x128.size (by sl_kernel_rfl) y

/-- What case C leaves in the output's staging buffer: the accumulator's final contents. -/
def out0_C_1 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) : Vec F S128x128 .f32 :=
  VO0_1.read (Elt F) (VO0_1.writes (Elt F) VO0_1.junk (kernelRun0_C c i arg1 harg1 arg2 harg2 arg3 harg3 hc0 hc1 x0 xs0).1)

/-- Case C's piece for the accumulator covers it. -/
theorem scover0_C_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) (y : S128x128.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S128x128.size (by sl_kernel_rfl) y

/-- What case C leaves in the accumulator. -/
def sout0_C_0 (c : Dev nD) (i : grid0.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond0_0 i) (hc1 : cond0_1 i)
    (x0 : Vec F S128x12544 .f32) (xs0 : Vec F S128x128 .f32) : Vec F S128x128 .f32 :=
  VS0_0.read (Elt F) (VS0_0.writes (Elt F) VS0_0.junk (kernelRun0_C c i arg1 harg1 arg2 harg2 arg3 harg3 hc0 hc1 x0 xs0).2.1)

/-! ## What the output block and the accumulator hold after each point -/

/-- THE ACCUMULATION. The output's staging buffer and the accumulator after the body at position `n` (a pair): case A
    at point 0; at a later point case C when it is the last (15) and case B otherwise, run at the point's memrefs and
    input block over what the point before left in the accumulator. -/
def outsAt0 (c : Dev nD) : (n : ℕ) → n < cfg0.N → Vec F S128x128 .f32 × Vec F S128x128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩))
  | n + 1, hn =>
    if h1 : n + 1 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (outsAt0 c n (Nat.lt_of_succ_lt hn)).2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); omega) ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at point 0: case A's contents. -/
theorem outsAt0_A (c : Dev nD) (t : Fin cfg0.N) (h0 : t.val = 0) (h1 : ¬t.val = 15) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

/-- `outsAt0` at a point of case B: that case's contents, over what the point before left. -/
theorem outsAt0_B (c : Dev nD) (t : Fin cfg0.N) (h0 : ¬t.val = 0) (h1 : ¬t.val = 15) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at point 15: case C's contents, over what the point before left. -/
theorem outsAt0_C (c : Dev nD) (t : Fin cfg0.N) (h0 : ¬t.val = 0) (h1 : t.val = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (every scoped buffer that is no staging
    buffer of this call at anything, the generator register at some state); afterwards the same with the accumulator at
    what the point before left in it (`outsAt0`'s second component). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ tail0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ tail0 c) ∗ (∃ r, prngReg c r)) := rfl

/-- Before a point that is not the first: the accumulator at what the point before left. -/
theorem PhiS0_pos (c : Dev nD) (n : ℕ) (h : n ≤ cfg0.N) (hz : ¬n = 0) :
    PhiS0 V c n h = iprop(iprop(owns (c : Thread nD τ) scM0_0 fullShare ((outsAt0 V c (n - 1) (by omega)).2) ∗ tail0 c) ∗ (∃ r, prngReg c r)) := by
  cases n with
  | zero => exact absurd rfl hz
  | succ n => rfl

/-! ## The pipeline's proof data -/

/-- The proof data of pipeline 0 on core `c`: the arrays as the region finds them (`V`); after the body at point `t`
    the input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the closed forms say which case the point is in; the
    invariant hands the body the accumulator at what the point before left (at anything at point 0) and takes it back at
    this point's contents, the case's pieces covering it; the other scoped buffers and the generator register pass
    through; the output's buffer is handed back untouched at the idle points and with the copy written at point 15; the
    core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val = 0
  · have h1 : ¬t.val = 15 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [outsAt0_A V c t h0 h1]
    unfold sout0_A_0; (try dsimp only)
    rw [PhiS0_castSucc V c t, PhiS0_zero V c _ _ h0, PhiA0_eq]
    iintro ⟨⟨⟨HS0, HRt⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 HRt Hg]
    · isplitl [HS0 HRt]
      · isplitl [HS0]
        · unfold owns; iexists _; isplitr
          swap; · iexact HS0
          ipureintro; exact View.read_writes_of_cover _ _ _ _ _ (scover0_A_0 c _ _ _ _ _ _ _ _ _ _)
        iexact HRt
      iexact Hg
    isplitl [Ho]; · iexact Ho
    isplitl [H0]; · iexact H0
    iexists _; iexact H1
  · by_cases h1 : t.val = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS0_castSucc V c t, PhiS0_pos V c _ _ h0]
      iintro ⟨⟨⟨HS0, HRt⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HRt Hg]
      · isplitl [HS0 HRt]
        · isplitl [HS0]
          · unfold owns; iexists _; isplitr
            swap; · iexact HS0
            ipureintro; exact View.read_writes_of_cover _ _ _ _ _ (scover0_C_0 c _ _ _ _ _ _ _ _ _ _ _)
          iexact HRt
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ h0]
      iintro ⟨⟨⟨HS0, HRt⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HRt Hg]
      · isplitl [HS0 HRt]
        · isplitl [HS0]
          · unfold owns; iexists _; isplitr
            swap; · iexact HS0
            ipureintro; exact View.read_writes_of_cover _ _ _ _ _ (scover0_B_0 c _ _ _ _ _ _ _ _ _ _ _)
          iexact HRt
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : ¬t.val = 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HRt⟩, Hg⟩
  isplitl [HS0 HRt]
  · isplitl [HS0]
    · iexists _; iexact HS0
    iexact HRt
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.GramRegion

end
-- ==== Proof.GramRegionKI1.lean ====
/- Region 1 of @main: the Gram kernel `cc1__gram_kernel` (pipeline 1), at the region-entry contents `V`.
   The grid is the 16 blocks of the contracted axis. A scratch accumulator `[128,128]` is carried from point to
   point: zeroed at point 0, `acc += x · xᵀ` (in bf16 operands, f32 accumulation) at every point, copied to the
   output block at point 15. Three control cases over the grid coordinate:
     A  point 0        the scratch is zeroed, then accumulated into; the output window is idle;
     B  points 1..14   the scratch is accumulated into; the output window is idle;
     C  point 15       the scratch is accumulated into, then copied to the output block.
   Per case the body's triple (`kernelRun1_κ`), what the case leaves in the scratch and in the output block
   (`sout1_κ_0`, `out1_κ_1`), these point by point (`outsAt1`), the region invariant naming the scratch's
   contents after every point (`PhiS1`), the proof data `dat1` and the body obligation. Generic in the float
   instance. -/
import proofs.«105140_j1606317769259_2_alg».proof.Proof.Gen.KernelIdeal.Launch
import proofs.«105140_j1606317769259_2_alg».proof.Proof.Gen.KernelIdeal.Skeleton
import proofs.«105140_j1606317769259_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.GramRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration is stated at this parameter
variable (V : (c : Dev nD) → (b : Ref sig .tc) → Buf (Elt F) ((c : Thread nD τ).loc b))

/-! ## The windows' blocks -/

/-- Window `w`'s block at point `t`, read off its array as the region finds it (`V`): for window 0 the columns
    `t·12544 … (t+1)·12544 − 1` of the `[128,200704]` input, for window 1 the whole `[128,128]` output. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is fetched at every point, uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (zero the accumulator), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the 16 points. -/
theorem hcond1_0 : ∀ t : Fin cfg1.N, cond1_0 (grid1.coords t) ↔ t.val = 0 :=
  (by decide +kernel : ∀ t : Fin grid1.N, cond1_0 (grid1.coords t) ↔ t.val = 0)

/-- The condition of the body's last `scf.if` (copy the accumulator out), from the grid coordinate. -/
abbrev cond1_1 (i : grid1.Coords) : Prop := k1_cond2 i = 1#1
/-- It holds at the last point only — decided over the 16 points. -/
theorem hcond1_1 : ∀ t : Fin cfg1.N, cond1_1 (grid1.coords t) ↔ t.val = 15 :=
  (by decide +kernel : ∀ t : Fin grid1.N, cond1_1 (grid1.coords t) ↔ t.val = 15)

/-! ## Where the windows are idle -/

/-- Window 0 is never idle (an input). -/
theorem liveAt1_0 : ∀ t : Fin cfg1.N, cfg1.idle 0 (grid1.coords t) = false := by decide +kernel
/-- At point 0 (case A) the output window is idle: the case stores nothing into it, -/
theorem idleAt1_1_A : ∀ t : Fin cfg1.N, cond1_0 (grid1.coords t) → ¬cond1_1 (grid1.coords t) → cfg1.idle 1 (grid1.coords t) = true := by decide +kernel
/-- and the pipeline does not write its block back there. -/
theorem noFlush1_1_A : ∀ t : Fin cfg1.N, cond1_0 (grid1.coords t) → ¬cond1_1 (grid1.coords t) → (cfg1.win 1).flush t = false := by decide +kernel
/-- The same at points 1..14 (case B). -/
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
/-- At point 15 (case C) the output window is live: the case stores its whole block. -/
theorem liveAt1_1_C : ∀ t : Fin cfg1.N, ¬cond1_0 (grid1.coords t) → cond1_1 (grid1.coords t) → cfg1.idle 1 (grid1.coords t) = false := by decide +kernel

/-! ## The memrefs the body is called with -/

/-- The staging buffer of the output window, through which its contents are stated. -/
abbrev VO1_1 : View sig .tc .vmem S128x128 .f32 := (Memref.whole cc1_stg1_0 : Memref sig .tc .vmem S128x128 .f32).view
/-- Each window's current staging memref at point `t`, as the pipeline passes it, and its wholeness. -/
abbrev ms1_0 (t : Fin cfg1.N) : Memref sig .tc .vmem S128x12544 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
/-- The scratch accumulator: a whole scoped buffer of the kernel's own, passed beside the windows, -/
abbrev scM1_0 : Memref sig .tc .vmem S128x128 .f32 := Memref.whole cc1_scratch0
/-- and as a view: what it holds is stated through it. -/
abbrev VS1_0 : View sig .tc .vmem S128x128 .f32 := scM1_0.view

/-- The core's scoped buffers listed after the accumulator in the region's scoped rest — staging buffers and scratch
    of the other pallas_calls —, each whole at some contents: the body never touches them. -/
def tail1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- The class's invariant with the accumulator as a memref owned at some contents: what the body obligation hands
    the run at the first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ tail1 c) ∗ (∃ r, prngReg c r)) := by
  unfold Pipeline.ΦA tail1; rw [scopedRest1_eq]; simp only [scM1_0, owns_whole]; try rfl

/-! ## The body's triple, case by case -/

set_option maxHeartbeats 1000000 in
/-- CASE A (point 0: the first `scf.if` taken, the last not). On whole memrefs — the input's at its contents `x0`,
    the output's at contents `xi1` handed back untouched, the accumulator at anything — the body runs to the
    continuation holding the input's as it was and the accumulator with the case's pieces written (`LS0`, last first:
    the accumulated sum over the zero store). The pieces are the witness the run finds. -/
noncomputable def kernelRun1_A (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__gram_kernel i arg1 harg1 arg2 harg2 arg3 harg3) K } := by
  refine ⟨[], ?_, fun xi1 E K => ?run⟩
  case run =>
    simp only [cc1__gram_kernel_eq_skeleton]; unfold cc1__gram_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE B (points 1..14: neither `scf.if` taken). The accumulator goes in at the contents `xs0` the point before
    left and comes back with the case's one piece written: `xs0` plus the block's Gram product. -/
noncomputable def kernelRun1_B (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__gram_kernel i arg1 harg1 arg2 harg2 arg3 harg3) K } := by
  refine ⟨[], ?_, fun xi1 E K => ?run⟩
  case run =>
    simp only [cc1__gram_kernel_eq_skeleton]; unfold cc1__gram_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- CASE C (point 15: the last `scf.if` taken). As case B, and the output's buffer — at anything before — comes
    back with the copy of the accumulator written (`L1`). -/
noncomputable def kernelRun1_C (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) :
    Σ' (L1 : List (View.Piece (Elt F) S128x128 .f32)), { LS0 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__gram_kernel i arg1 harg1 arg2 harg2 arg3 harg3) K } := by
  refine ⟨?_, ?_, fun E K => ?run⟩
  case run =>
    simp only [cc1__gram_kernel_eq_skeleton]; unfold cc1__gram_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves in the output block and in the accumulator -/

/-- Case A stores nothing into the output block (idle and not written back at point 0): no pieces — a placeholder
    that nothing consults. -/
def out1_A_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) : Vec F S128x128 .f32 :=
  VO1_1.read (Elt F) (VO1_1.writes (Elt F) VO1_1.junk (kernelRun1_A c i arg1 harg1 arg2 harg2 arg3 harg3 hc0 hc1 x0).1)

/-- Case A's pieces for the accumulator cover it (each is a store of the whole `[128,128]`). -/
theorem scover1_A_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) (y : S128x128.Idx) :
    ∃ pc ∈ (kernelRun1_A c i arg1 harg1 arg2 harg2 arg3 harg3 hc0 hc1 x0).2.1, y ∈ pc.1.set :=
  View.cover_of_tiledL (kernelRun1_A c i arg1 harg1 arg2 harg2 arg3 harg3 hc0 hc1 x0).2.1 S128x128.size (by sl_kernel_rfl) y

/-- What case A leaves in the accumulator: its pieces read back. -/
def sout1_A_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : cond1_0 i) (hc1 : ¬cond1_1 i)
    (x0 : Vec F S128x12544 .f32) : Vec F S128x128 .f32 :=
  VS1_0.read (Elt F) (VS1_0.writes (Elt F) VS1_0.junk (kernelRun1_A c i arg1 harg1 arg2 harg2 arg3 harg3 hc0 hc1 x0).2.1)

/-- Case B stores nothing into the output block either. -/
def out1_B_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) : Vec F S128x128 .f32 :=
  VO1_1.read (Elt F) (VO1_1.writes (Elt F) VO1_1.junk (kernelRun1_B c i arg1 harg1 arg2 harg2 arg3 harg3 hc0 hc1 x0 xs0).1)

/-- Case B's piece for the accumulator covers it. -/
theorem scover1_B_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) (y : S128x128.Idx) :
    ∃ pc ∈ (kernelRun1_B c i arg1 harg1 arg2 harg2 arg3 harg3 hc0 hc1 x0 xs0).2.1, y ∈ pc.1.set :=
  View.cover_of_tiledL (kernelRun1_B c i arg1 harg1 arg2 harg2 arg3 harg3 hc0 hc1 x0 xs0).2.1 S128x128.size (by sl_kernel_rfl) y

/-- What case B leaves in the accumulator. -/
def sout1_B_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : ¬cond1_1 i)
    (x0 : Vec F S128x12544 .f32) (xs0 : Vec F S128x128 .f32) : Vec F S128x128 .f32 :=
  VS1_0.read (Elt F) (VS1_0.writes (Elt F) VS1_0.junk (kernelRun1_B c i arg1 harg1 arg2 harg2 arg3 harg3 hc0 hc1 x0 xs0).2.1)

/-- Case C's piece for the output block covers it (one store of the whole `[128,128]`). -/
theorem cover1_C_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) (y : S128x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S128x128.size (by sl_kernel_rfl) y

/-- What case C leaves in the output's staging buffer: the accumulator's final contents. -/
def out1_C_1 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) : Vec F S128x128 .f32 :=
  VO1_1.read (Elt F) (VO1_1.writes (Elt F) VO1_1.junk (kernelRun1_C c i arg1 harg1 arg2 harg2 arg3 harg3 hc0 hc1 x0 xs0).1)

/-- Case C's piece for the accumulator covers it. -/
theorem scover1_C_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) (y : S128x128.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S128x128.size (by sl_kernel_rfl) y

/-- What case C leaves in the accumulator. -/
def sout1_C_0 (c : Dev nD) (i : grid1.Coords) (arg1 : Memref sig .tc .vmem S128x12544 .f32) (harg1 : arg1.IsWhole) (arg2 : Memref sig .tc .vmem S128x128 .f32) (harg2 : arg2.IsWhole) (arg3 : Memref sig .tc .vmem S128x128 .f32) (harg3 : arg3.IsWhole) (hc0 : ¬cond1_0 i) (hc1 : cond1_1 i)
    (x0 : Vec F S128x12544 .f32) (xs0 : Vec F S128x128 .f32) : Vec F S128x128 .f32 :=
  VS1_0.read (Elt F) (VS1_0.writes (Elt F) VS1_0.junk (kernelRun1_C c i arg1 harg1 arg2 harg2 arg3 harg3 hc0 hc1 x0 xs0).2.1)

/-! ## What the output block and the accumulator hold after each point -/

/-- THE ACCUMULATION. The output's staging buffer and the accumulator after the body at position `n` (a pair): case A
    at point 0; at a later point case C when it is the last (15) and case B otherwise, run at the point's memrefs and
    input block over what the point before left in the accumulator. -/
def outsAt1 (c : Dev nD) : (n : ℕ) → n < cfg1.N → Vec F S128x128 .f32 × Vec F S128x128 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩))
  | n + 1, hn =>
    if h1 : n + 1 = 15 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (outsAt1 c n (Nat.lt_of_succ_lt hn)).2)
    else
      (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2)

/-- `outsAt1` at point 0: case A's contents. -/
theorem outsAt1_A (c : Dev nD) (t : Fin cfg1.N) (h0 : t.val = 0) (h1 : ¬t.val = 15) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact absurd h0 (Nat.succ_ne_zero n)

/-- `outsAt1` at a point of case B: that case's contents, over what the point before left. -/
theorem outsAt1_B (c : Dev nD) (t : Fin cfg1.N) (h0 : ¬t.val = 0) (h1 : ¬t.val = 15) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at point 15: case C's contents, over what the point before left. -/
theorem outsAt1_C (c : Dev nD) (t : Fin cfg1.N) (h0 : ¬t.val = 0) (h1 : t.val = 15) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (every scoped buffer that is no staging
    buffer of this call at anything, the generator register at some state); afterwards the same with the accumulator at
    what the point before left in it (`outsAt1`'s second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ tail1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ tail1 c) ∗ (∃ r, prngReg c r)) := rfl

/-- Before a point that is not the first: the accumulator at what the point before left. -/
theorem PhiS1_pos (c : Dev nD) (n : ℕ) (h : n ≤ cfg1.N) (hz : ¬n = 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ tail1 c) ∗ (∃ r, prngReg c r)) := by
  cases n with
  | zero => exact absurd rfl hz
  | succ n => rfl

/-! ## The pipeline's proof data -/

/-- The proof data of pipeline 1 on core `c`: the arrays as the region finds them (`V`); after the body at point `t`
    the input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point. The input's memref holds its block; the closed forms say which case the point is in; the
    invariant hands the body the accumulator at what the point before left (at anything at point 0) and takes it back at
    this point's contents, the case's pieces covering it; the other scoped buffers and the generator register pass
    through; the output's buffer is handed back untouched at the idle points and with the copy written at point 15; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val = 0
  · have h1 : ¬t.val = 15 := by omega
    rw [show (dat1 V c).leavesExact 0 t = owns (c : Thread nD τ) (ms1_0 t) fullShare ((dat1 V c).after 0 t) from by
      unfold Dat.leavesExact; rw [liveAt1_0 t], after1_0]
    rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
    rw [outsAt1_A V c t h0 h1]
    unfold sout1_A_0; (try dsimp only)
    rw [PhiS1_castSucc V c t, PhiS1_zero V c _ _ h0, PhiA1_eq]
    iintro ⟨⟨⟨HR0, HR1, HR2, HR3, HS0, HRt⟩, Hg⟩, Ho, ⟨%d0, H0⟩, ⟨%d1, H1⟩⟩
    iapply ((kernelRun1_A c (grid1.coords t) _ _ _ _ _ _ ((hcond1_0 t).mpr h0) (fun h => h1 ((hcond1_1 t).mp h)) (iblk1 V c 0 t)).2.2 _ Set.univ _)
    isplitl [H0]; · iexact H0
    isplitl [H1]; · iexact H1
    isplitl [HS0]; · iexact HS0
    iintro ⟨H0, H1, ⟨%es0, HS0⟩⟩
    isplitl [HR0 HR1 HR2 HR3 HS0 HRt Hg]
    · isplitl [HR0 HR1 HR2 HR3 HS0 HRt]
      · isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (scover1_A_0 c _ _ _ _ _ _ _ _ _ _)
        iexact HRt
      iexact Hg
    isplitl [Ho]; · iexact Ho
    isplitl [H0]; · iexact H0
    iexists _; iexact H1
  · by_cases h1 : t.val = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0; (try dsimp only)
      rw [PhiS1_castSucc V c t, PhiS1_pos V c _ _ h0]
      iintro ⟨⟨⟨HR0, HR1, HR2, HR3, HS0, HRt⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HR0 HR1 HR2 HR3 HS0 HRt Hg]
      · isplitl [HR0 HR1 HR2 HR3 HS0 HRt]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_C_0 c _ _ _ _ _ _ _ _ _ _ _)
          iexact HRt
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ h0]
      iintro ⟨⟨⟨HR0, HR1, HR2, HR3, HS0, HRt⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2.2 _ Set.univ _)
      isplitl [H0]; · iexact H0
      isplitl [H1]; · iexact H1
      isplitl [HS0]; · iexact HS0
      iintro ⟨H0, H1, ⟨%es0, HS0⟩⟩
      isplitl [HR0 HR1 HR2 HR3 HS0 HRt Hg]
      · isplitl [HR0 HR1 HR2 HR3 HS0 HRt]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (scover1_B_0 c _ _ _ _ _ _ _ _ _ _ _)
          iexact HRt
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : ¬t.val = 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HS0, HRt⟩, Hg⟩
  isplitl [HR0 HR1 HR2 HR3 HS0 HRt]
  · isplitl [HR0]; · iexact HR0
    isplitl [HR1]; · iexact HR1
    isplitl [HR2]; · iexact HR2
    isplitl [HR3]; · iexact HR3
    isplitl [HS0]
    · iexists _; iexact HS0
    iexact HRt
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.GramRegion

end
-- ==== Proof.GateRegionKI.lean ====
/- Regions 2 and 3 of @main, the two launches of the gate-multiply kernel: a class-A body (two whole-block loads,
   one pointwise expression, one whole-block store). Per region, at region-entry contents `V` that are a parameter:
   each window's block at a grid point, what the body leaves in the output's staging buffer as a function of the two
   input blocks, the body's triple, the pipeline's proof data and the body obligation. -/
import proofs.«105140_j1606317769259_2_alg».proof.Proof.Gen.KernelIdeal.Launch
import proofs.«105140_j1606317769259_2_alg».proof.Proof.Gen.KernelIdeal.Skeleton
import proofs.«105140_j1606317769259_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.GateRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's two rectangles: each access is of a whole staging buffer, at zero offsets -/

/-- The zero offsets of a rank-2 access are zero on every axis. -/
theorem hz2 : (![0, 0] : Fin 2 → Nat) = fun _ => 0 := funext fun a => by fin_cases a <;> rfl
/-- The zero offsets of a rank-3 access are zero on every axis. -/
theorem hz3 : (![0, 0, 0] : Fin 3 → Nat) = fun _ => 0 := funext fun a => by fin_cases a <;> rfl

/-- The whole [16,128] gate block. -/
abbrev rGate : Rect S16x128 := Rect.unit (s := S16x128) ![0, 0] S16x128.size inb_S16x128_S16x128_0_0
/-- The whole [16,128,784] activation block. -/
abbrev rAct : Rect S16x128x784 := Rect.unit (s := S16x128x784) ![0, 0, 0] S16x128x784.size inb_S16x128x784_S16x128x784_0_0_0

section Regions
variable {F : FTy → Type} [FloatOps F]

local notation "𝕄" => MT nD τ sig Unit (Elt F) ℕ (UR sig nD τ) ℕ

-- the TensorCore's buffer contents when a region is entered: the parameter every declaration is stated at
variable (V : (c : Dev nD) → (b : Ref sig .tc) → Buf (Elt F) ((c : Thread nD τ).loc b))

/-- The one store of the body is of the whole output buffer, so it covers every index of it. -/
theorem cover_act (p0 : Vec F S16x128x784 .f32) (y : S16x128x784.Idx) :
    ∃ pc ∈ ([⟨rAct, p0⟩] : List (View.Piece (Elt F) S16x128x784 .f32)), y ∈ pc.1.set :=
  ⟨_, List.mem_singleton_self _, View.mem_set_unit_zero hz3 inb_S16x128x784_S16x128x784_0_0_0 y⟩

/-! # REGION 2 of @main: custom_call 2, `cc2__gate_mul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's current staging buffer holds its block at every point, fetched there or not, for any proof
    data whose array is `V`'s (`hA`) and whose body leaves the block in place (`hafter`): the window is uncut and
    never idle, and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the gate window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The output's staging buffer after the body, from the activation block `x0` and the gate block `x1`: the one
    store, of the product of the activation block with the gate block repeated along the last axis. -/
def out2_2 (x0 : Vec F S16x128x784 .f32) (x1 : Vec F S16x128 .f32) : Vec F S16x128x784 .f32 :=
  View.canon [⟨rAct, k2_pay1 (View.ld x1 rGate) (View.ld x0 rAct)⟩]

/-! ## The body's triple -/

set_option maxHeartbeats 1000000 in
/-- The kernel body on whole staging memrefs, the inputs' at read contents `x0`, `x1` and the output's at anything,
    runs to the continuation holding the inputs' as they were and the output's at `out2_2` of the inputs'. -/
theorem sound_kernel2 (c : Dev nD) (E : Set ℕ) (i : grid2.Coords) (arg2 : Memref sig .tc .vmem S16x128x784 .f32) (harg2 : arg2.IsWhole) (arg3 : Memref sig .tc .vmem S16x128 .f32) (harg3 : arg3.IsWhole) (arg4 : Memref sig .tc .vmem S16x128x784 .f32) (harg4 : arg4.IsWhole)
    (x0 : Vec F S16x128x784 .f32) (x1 : Vec F S16x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__gate_mul_kernel i arg2 harg2 arg3 harg3 arg4 harg4) K := by
  simp only [cc2__gate_mul_kernel_eq_skeleton]; unfold cc2__gate_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_act _)

/-! ## The pipeline's proof data -/

/-- The proof data of pipeline 2 on core `c`: the arrays as the region finds them (`V`); after the body at point
    `t` each input's buffer at its block and the output's at `out2_2` of the input blocks; the class-A invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The input arrays are never written back: after the region they hold their entry contents. -/
theorem gate_kept2_0 (c : Dev nD) : (dat2 V c).arrAt 0 cfg2.N = V c (Pipeline.arrRef spec2 0) :=
  ((dat2 V c).arrAt_in 0 rfl _).trans (A_eq2 V c 0)
theorem gate_kept2_1 (c : Dev nD) : (dat2 V c).arrAt 1 cfg2.N = V c (Pipeline.arrRef spec2 1) :=
  ((dat2 V c).arrAt_in 1 rfl _).trans (A_eq2 V c 1)

/-! # REGION 3 of @main: custom_call 3, `cc3__gate_mul_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation window's current staging buffer holds its block at every point, fetched there or not, for any proof
    data whose array is `V`'s (`hA`) and whose body leaves the block in place (`hafter`): the window is uncut and
    never idle, and where it is not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for the gate window. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The output's staging buffer after the body, from the activation block `x0` and the gate block `x1`: the one
    store, of the product of the activation block with the gate block repeated along the last axis. -/
def out3_2 (x0 : Vec F S16x128x784 .f32) (x1 : Vec F S16x128 .f32) : Vec F S16x128x784 .f32 :=
  View.canon [⟨rAct, k3_pay1 (View.ld x1 rGate) (View.ld x0 rAct)⟩]

/-! ## The body's triple -/

set_option maxHeartbeats 1000000 in
/-- The kernel body on whole staging memrefs, the inputs' at read contents `x0`, `x1` and the output's at anything,
    runs to the continuation holding the inputs' as they were and the output's at `out3_2` of the inputs'. -/
theorem sound_kernel3 (c : Dev nD) (E : Set ℕ) (i : grid3.Coords) (arg2 : Memref sig .tc .vmem S16x128x784 .f32) (harg2 : arg2.IsWhole) (arg3 : Memref sig .tc .vmem S16x128 .f32) (harg3 : arg3.IsWhole) (arg4 : Memref sig .tc .vmem S16x128x784 .f32) (harg4 : arg4.IsWhole)
    (x0 : Vec F S16x128x784 .f32) (x1 : Vec F S16x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__gate_mul_kernel i arg2 harg2 arg3 harg3 arg4 harg4) K := by
  simp only [cc3__gate_mul_kernel_eq_skeleton]; unfold cc3__gate_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_act _)

/-! ## The pipeline's proof data -/

/-- The proof data of pipeline 3 on core `c`: the arrays as the region finds them (`V`); after the body at point
    `t` each input's buffer at its block and the output's at `out3_2` of the input blocks; the class-A invariant
    (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The input arrays are never written back: after the region they hold their entry contents. -/
theorem gate_kept3_0 (c : Dev nD) : (dat3 V c).arrAt 0 cfg3.N = V c (Pipeline.arrRef spec3 0) :=
  ((dat3 V c).arrAt_in 0 rfl _).trans (A_eq3 V c 0)
theorem gate_kept3_1 (c : Dev nD) : (dat3 V c).arrAt 1 cfg3.N = V c (Pipeline.arrRef spec3 1) :=
  ((dat3 V c).arrAt_in 1 rfl _).trans (A_eq3 V c 1)

end Regions

/-! # The value of the output array after a region, at the ideal instance -/

section Value

-- the TensorCore's buffer contents when a region is entered, at the ideal instance
variable (V : (c : Dev nD) → (b : Ref sig .tc) → Buf (Elt Ideal) ((c : Thread nD τ).loc b))

/-- The activations times the gate repeated along the last axis: entry `(a, b, k)` is `x (a, b, k) · g (a, b)`. -/
def gateMul (x : S128x256x784.Idx → Elt Ideal .f32) (g : S128x256.Idx → Elt Ideal .f32) : S128x256x784.Idx → Elt Ideal .f32 :=
  fun j => x j * g (ix2 (j 0) (j 1))

/-- `gateMul` at an index given by its coordinates. -/
theorem gateMul_ix3 (x : S128x256x784.Idx → Elt Ideal .f32) (g : S128x256.Idx → Elt Ideal .f32) (a : Fin 128) (b : Fin 256) (k : Fin 784) :
    gateMul x g (ix3 a b k) = x (ix3 a b k) * g (ix2 a b) := rfl

/-- A product of an activation entry and a gate entry is `gateMul` at an index `i2` when the activation is read at `i2` and the gate at
    `i2`'s leading two coordinates. -/
theorem gateMul_of_eq (X : S128x256x784.Idx → Elt Ideal .f32) (G : S128x256.Idx → Elt Ideal .f32)
    (i0 i2 : S128x256x784.Idx) (p : S128x256.Idx) (h0 : i0 = i2) (h1 : p = ix2 (i2 0) (i2 1)) :
    X i0 * G p = gateMul X G i2 := by subst h0 h1; rfl

/-- An `[a, b]` array cast to `[a, b, 1]` reads, at `(i, j, u)`, the operand at `(i, j)`: the two indices have the same
    row-major position. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, k)`, the operand at `(i, j, 0)`. -/
theorem broadcastTo_ab1_abn_apply {α : Type} {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Region 2: `main_v144` ends at `gateMul` of `main_v143` and `main_v137` as the region finds them -/

/-- The body's payload at an index given by its coordinates: the activation there times the gate at the leading two. -/
theorem pay2_apply (g : Vec Ideal S16x128 .f32) (x : Vec Ideal S16x128x784 .f32) (a : Fin 16) (b : Fin 128) (k : Fin 784) :
    k2_pay1 g x (ix3 a b k) = x (ix3 a b k) * g (ix2 a b) := by
  unfold k2_pay1
  show (shapeCast S16x128x784 x shapeCasts_S16x128x784_S16x128x784) (ix3 a b k)
      * (broadcastTo S16x128x784 (shapeCast S16x128x1 (shapeCast S16x128 g shapeCasts_S16x128_S16x128) shapeCasts_S16x128_S16x128x1)
          broadcasts_S16x128x1_S16x128x784) (ix3 a b k) = _
  rw [shapeCast_self, shapeCast_self]
  exact congrArg (x (ix3 a b k) * ·) ((broadcastTo_ab1_abn_apply _ _ a b k).trans (shapeCast_ab_ab1_apply _ _ a b 0))

/-- The same at any index `j` of the block, the gate read at an index `p` with `j`'s leading two coordinates. -/
theorem pay2_at (g : Vec Ideal S16x128 .f32) (x : Vec Ideal S16x128x784 .f32) (j : S16x128x784.Idx) (p : S16x128.Idx)
    (h0 : (p 0).val = (j 0).val) (h1 : (p 1).val = (j 1).val) : k2_pay1 g x j = x j * g p := by
  obtain ⟨a, b, k, rfl⟩ : ∃ (a : Fin 16) (b : Fin 128) (k : Fin 784), j = ix3 a b k := ⟨j 0, j 1, j 2, eq_ix3 j⟩
  obtain rfl : p = ix2 a b := by
    funext d
    match d with
    | ⟨0, _⟩ => exact Fin.ext h0
    | ⟨1, _⟩ => exact Fin.ext h1
  exact pay2_apply g x a b k

/-- The printed index maps, decided over the grid: both input windows move with the output window, whose block index
    is (the point's first coordinate, its second, 0). -/
theorem idx_facts2 : ∀ t : Fin cfg2.N, win2_0.index t (0 : Fin 3) = win2_2.index t (0 : Fin 3)
    ∧ win2_0.index t (1 : Fin 3) = win2_2.index t (1 : Fin 3)
    ∧ win2_0.index t (2 : Fin 3) = win2_2.index t (2 : Fin 3)
    ∧ win2_1.index t (0 : Fin 2) = win2_2.index t (0 : Fin 3)
    ∧ win2_1.index t (1 : Fin 2) = win2_2.index t (1 : Fin 3) :=
  (by decide +kernel : ∀ t : Fin grid2.N, _)

/-- Every block of the output array is some point's. -/
theorem idx_onto2 : ∀ (q0 : Fin 8) (q1 : Fin 2), ∃ t : Fin cfg2.N, win2_2.index t = ![q0.val, q1.val, 0] :=
  (by decide +kernel : ∀ (q0 : Fin 8) (q1 : Fin 2), ∃ t : Fin grid2.N, win2_2.index t = ![q0.val, q1.val, 0])

/-- What point `t` writes back is block `t` of `gateMul` of the two input arrays as the region finds them. -/
theorem flushed2_eq (c : Dev nD) (t : Fin cfg2.N) :
    (dat2 (F := Ideal) V c).flushed 2 t = ((cfg2.win 2).blk t).view.read (Elt Ideal) (gateMul (V c main_v143) (V c main_v137)) := by
  show (cfg2.win 2).cut (grid2.coords t) ((dat2 V c).after 2 t) = _
  rw [after2_2]
  unfold out2_2
  rw [View.canon_unit_zero hz3]
  simp only [View.ld_unit_zero (S := S16x128x784) hz3, View.ld_unit_zero (S := S16x128) hz2]
  obtain ⟨e0, e1, e2, e3, e4⟩ := idx_facts2 t
  funext j
  have hj0 : (j 0).val < 16 := (j 0).isLt
  have hj1 : (j 1).val < 128 := (j 1).isLt
  have hj2 : (j 2).val < 784 := (j 2).isLt
  have h0 : ((cfg2.win 0).blk t).view.emb j = ((cfg2.win 2).blk t).view.emb j := by
    funext a; apply Fin.ext
    match a with
    | ⟨0, _⟩ => show win2_0.index t (0 : Fin 3) * 16 + 1 * (j 0).val = win2_2.index t (0 : Fin 3) * 16 + 1 * (j 0).val; omega
    | ⟨1, _⟩ => show win2_0.index t (1 : Fin 3) * 128 + 1 * (j 1).val = win2_2.index t (1 : Fin 3) * 128 + 1 * (j 1).val; omega
    | ⟨2, _⟩ => show win2_0.index t (2 : Fin 3) * 784 + 1 * (j 2).val = win2_2.index t (2 : Fin 3) * 784 + 1 * (j 2).val; omega
  have h1 : ((cfg2.win 1).blk t).view.emb (ix2 (n0 := 16) (n1 := 128) ⟨(j 0).val, hj0⟩ ⟨(j 1).val, hj1⟩)
      = ix2 ((((cfg2.win 2).blk t).view.emb j) 0) ((((cfg2.win 2).blk t).view.emb j) 1) := by
    funext a; apply Fin.ext
    match a with
    | ⟨0, _⟩ => show win2_1.index t (0 : Fin 2) * 16 + 1 * (j 0).val = win2_2.index t (0 : Fin 3) * 16 + 1 * (j 0).val; omega
    | ⟨1, _⟩ => show win2_1.index t (1 : Fin 2) * 128 + 1 * (j 1).val = win2_2.index t (1 : Fin 3) * 128 + 1 * (j 1).val; omega
  exact (pay2_at (iblk2 V c 1 t) (iblk2 V c 0 t) j (ix2 (n0 := 16) (n1 := 128) ⟨(j 0).val, hj0⟩ ⟨(j 1).val, hj1⟩) rfl rfl).trans
    (gateMul_of_eq (V c main_v143) (V c main_v137) (((cfg2.win 0).blk t).view.emb j) (((cfg2.win 2).blk t).view.emb j)
      (((cfg2.win 1).blk t).view.emb (ix2 (n0 := 16) (n1 := 128) ⟨(j 0).val, hj0⟩ ⟨(j 1).val, hj1⟩)) h0 h1)

/-- An index of the output array is in point `t`'s block iff each coordinate is in the block's range on its axis. -/
theorem mem_blk2 (t : Fin cfg2.N) (i : S128x256x784.Idx) :
    i ∈ ((cfg2.win 2).blk t).view.set ↔ ∀ a : Fin 3, win2_2.index t a * S16x128x784.size a ≤ (i a).val ∧ (i a).val < win2_2.index t a * S16x128x784.size a + S16x128x784.size a := by
  show i ∈ ((View.whole main_v144).slice (win2_2.rect t)).set ↔ _
  rw [View.set_slice_whole, Rect.mem_set_unit]
  exact Iff.rfl

/-- Every index of the output array is in the block of the point whose coordinates are (row / 16, column / 128). -/
theorem cover2 (i : S128x256x784.Idx) : ∃ t : Fin cfg2.N, (cfg2.win 2).flush t = true ∧ i ∈ ((cfg2.win 2).blk t).view.set := by
  have hi0 : (i 0).val < 128 := (i 0).isLt
  have hi1 : (i 1).val < 256 := (i 1).isLt
  have hi2 : (i 2).val < 784 := (i 2).isLt
  obtain ⟨t, ht⟩ := idx_onto2 ⟨(i 0).val / 16, by omega⟩ ⟨(i 1).val / 128, by omega⟩
  have q0 : win2_2.index t (0 : Fin 3) = (i 0).val / 16 := congrFun ht 0
  have q1 : win2_2.index t (1 : Fin 3) = (i 1).val / 128 := congrFun ht 1
  have q2 : win2_2.index t (2 : Fin 3) = 0 := congrFun ht 2
  refine ⟨t, flush2_2 t, ?_⟩
  rw [mem_blk2]
  intro a
  match a with
  | ⟨0, _⟩ => show win2_2.index t (0 : Fin 3) * 16 ≤ (i 0).val ∧ (i 0).val < win2_2.index t (0 : Fin 3) * 16 + 16; omega
  | ⟨1, _⟩ => show win2_2.index t (1 : Fin 3) * 128 ≤ (i 1).val ∧ (i 1).val < win2_2.index t (1 : Fin 3) * 128 + 128; omega
  | ⟨2, _⟩ => show win2_2.index t (2 : Fin 3) * 784 ≤ (i 2).val ∧ (i 2).val < win2_2.index t (2 : Fin 3) * 784 + 784; omega

/-- THE OUTPUT ARRAY after region 2: the activations times the gate repeated along the last axis, both as the region
    finds them. -/
theorem gate_final2 (c : Dev nD) :
    (dat2 (F := Ideal) V c).arrAt 2 cfg2.N = gateMul (V c main_v143) (V c main_v137) :=
  (dat2 V c).arrAt_eq_of_cover 2 (gateMul (V c main_v143) (V c main_v137)) (fun t _ => flushed2_eq V c t) cover2

/-! ## Region 3: `main_v147` ends at `gateMul` of `main_v146` and `main_v142` as the region finds them -/

/-- The body's payload at an index given by its coordinates: the activation there times the gate at the leading two. -/
theorem pay3_apply (g : Vec Ideal S16x128 .f32) (x : Vec Ideal S16x128x784 .f32) (a : Fin 16) (b : Fin 128) (k : Fin 784) :
    k3_pay1 g x (ix3 a b k) = x (ix3 a b k) * g (ix2 a b) := by
  unfold k3_pay1
  show (shapeCast S16x128x784 x shapeCasts_S16x128x784_S16x128x784) (ix3 a b k)
      * (broadcastTo S16x128x784 (shapeCast S16x128x1 (shapeCast S16x128 g shapeCasts_S16x128_S16x128) shapeCasts_S16x128_S16x128x1)
          broadcasts_S16x128x1_S16x128x784) (ix3 a b k) = _
  rw [shapeCast_self, shapeCast_self]
  exact congrArg (x (ix3 a b k) * ·) ((broadcastTo_ab1_abn_apply _ _ a b k).trans (shapeCast_ab_ab1_apply _ _ a b 0))

/-- The same at any index `j` of the block, the gate read at an index `p` with `j`'s leading two coordinates. -/
theorem pay3_at (g : Vec Ideal S16x128 .f32) (x : Vec Ideal S16x128x784 .f32) (j : S16x128x784.Idx) (p : S16x128.Idx)
    (h0 : (p 0).val = (j 0).val) (h1 : (p 1).val = (j 1).val) : k3_pay1 g x j = x j * g p := by
  obtain ⟨a, b, k, rfl⟩ : ∃ (a : Fin 16) (b : Fin 128) (k : Fin 784), j = ix3 a b k := ⟨j 0, j 1, j 2, eq_ix3 j⟩
  obtain rfl : p = ix2 a b := by
    funext d
    match d with
    | ⟨0, _⟩ => exact Fin.ext h0
    | ⟨1, _⟩ => exact Fin.ext h1
  exact pay3_apply g x a b k

/-- The printed index maps, decided over the grid: both input windows move with the output window, whose block index
    is (the point's first coordinate, its second, 0). -/
theorem idx_facts3 : ∀ t : Fin cfg3.N, win3_0.index t (0 : Fin 3) = win3_2.index t (0 : Fin 3)
    ∧ win3_0.index t (1 : Fin 3) = win3_2.index t (1 : Fin 3)
    ∧ win3_0.index t (2 : Fin 3) = win3_2.index t (2 : Fin 3)
    ∧ win3_1.index t (0 : Fin 2) = win3_2.index t (0 : Fin 3)
    ∧ win3_1.index t (1 : Fin 2) = win3_2.index t (1 : Fin 3) :=
  (by decide +kernel : ∀ t : Fin grid3.N, _)

/-- Every block of the output array is some point's. -/
theorem idx_onto3 : ∀ (q0 : Fin 8) (q1 : Fin 2), ∃ t : Fin cfg3.N, win3_2.index t = ![q0.val, q1.val, 0] :=
  (by decide +kernel : ∀ (q0 : Fin 8) (q1 : Fin 2), ∃ t : Fin grid3.N, win3_2.index t = ![q0.val, q1.val, 0])

/-- What point `t` writes back is block `t` of `gateMul` of the two input arrays as the region finds them. -/
theorem flushed3_eq (c : Dev nD) (t : Fin cfg3.N) :
    (dat3 (F := Ideal) V c).flushed 2 t = ((cfg3.win 2).blk t).view.read (Elt Ideal) (gateMul (V c main_v146) (V c main_v142)) := by
  show (cfg3.win 2).cut (grid3.coords t) ((dat3 V c).after 2 t) = _
  rw [after3_2]
  unfold out3_2
  rw [View.canon_unit_zero hz3]
  simp only [View.ld_unit_zero (S := S16x128x784) hz3, View.ld_unit_zero (S := S16x128) hz2]
  obtain ⟨e0, e1, e2, e3, e4⟩ := idx_facts3 t
  funext j
  have hj0 : (j 0).val < 16 := (j 0).isLt
  have hj1 : (j 1).val < 128 := (j 1).isLt
  have hj2 : (j 2).val < 784 := (j 2).isLt
  have h0 : ((cfg3.win 0).blk t).view.emb j = ((cfg3.win 2).blk t).view.emb j := by
    funext a; apply Fin.ext
    match a with
    | ⟨0, _⟩ => show win3_0.index t (0 : Fin 3) * 16 + 1 * (j 0).val = win3_2.index t (0 : Fin 3) * 16 + 1 * (j 0).val; omega
    | ⟨1, _⟩ => show win3_0.index t (1 : Fin 3) * 128 + 1 * (j 1).val = win3_2.index t (1 : Fin 3) * 128 + 1 * (j 1).val; omega
    | ⟨2, _⟩ => show win3_0.index t (2 : Fin 3) * 784 + 1 * (j 2).val = win3_2.index t (2 : Fin 3) * 784 + 1 * (j 2).val; omega
  have h1 : ((cfg3.win 1).blk t).view.emb (ix2 (n0 := 16) (n1 := 128) ⟨(j 0).val, hj0⟩ ⟨(j 1).val, hj1⟩)
      = ix2 ((((cfg3.win 2).blk t).view.emb j) 0) ((((cfg3.win 2).blk t).view.emb j) 1) := by
    funext a; apply Fin.ext
    match a with
    | ⟨0, _⟩ => show win3_1.index t (0 : Fin 2) * 16 + 1 * (j 0).val = win3_2.index t (0 : Fin 3) * 16 + 1 * (j 0).val; omega
    | ⟨1, _⟩ => show win3_1.index t (1 : Fin 2) * 128 + 1 * (j 1).val = win3_2.index t (1 : Fin 3) * 128 + 1 * (j 1).val; omega
  exact (pay3_at (iblk3 V c 1 t) (iblk3 V c 0 t) j (ix2 (n0 := 16) (n1 := 128) ⟨(j 0).val, hj0⟩ ⟨(j 1).val, hj1⟩) rfl rfl).trans
    (gateMul_of_eq (V c main_v146) (V c main_v142) (((cfg3.win 0).blk t).view.emb j) (((cfg3.win 2).blk t).view.emb j)
      (((cfg3.win 1).blk t).view.emb (ix2 (n0 := 16) (n1 := 128) ⟨(j 0).val, hj0⟩ ⟨(j 1).val, hj1⟩)) h0 h1)

/-- An index of the output array is in point `t`'s block iff each coordinate is in the block's range on its axis. -/
theorem mem_blk3 (t : Fin cfg3.N) (i : S128x256x784.Idx) :
    i ∈ ((cfg3.win 2).blk t).view.set ↔ ∀ a : Fin 3, win3_2.index t a * S16x128x784.size a ≤ (i a).val ∧ (i a).val < win3_2.index t a * S16x128x784.size a + S16x128x784.size a := by
  show i ∈ ((View.whole main_v147).slice (win3_2.rect t)).set ↔ _
  rw [View.set_slice_whole, Rect.mem_set_unit]
  exact Iff.rfl

/-- Every index of the output array is in the block of the point whose coordinates are (row / 16, column / 128). -/
theorem cover3 (i : S128x256x784.Idx) : ∃ t : Fin cfg3.N, (cfg3.win 2).flush t = true ∧ i ∈ ((cfg3.win 2).blk t).view.set := by
  have hi0 : (i 0).val < 128 := (i 0).isLt
  have hi1 : (i 1).val < 256 := (i 1).isLt
  have hi2 : (i 2).val < 784 := (i 2).isLt
  obtain ⟨t, ht⟩ := idx_onto3 ⟨(i 0).val / 16, by omega⟩ ⟨(i 1).val / 128, by omega⟩
  have q0 : win3_2.index t (0 : Fin 3) = (i 0).val / 16 := congrFun ht 0
  have q1 : win3_2.index t (1 : Fin 3) = (i 1).val / 128 := congrFun ht 1
  have q2 : win3_2.index t (2 : Fin 3) = 0 := congrFun ht 2
  refine ⟨t, flush3_2 t, ?_⟩
  rw [mem_blk3]
  intro a
  match a with
  | ⟨0, _⟩ => show win3_2.index t (0 : Fin 3) * 16 ≤ (i 0).val ∧ (i 0).val < win3_2.index t (0 : Fin 3) * 16 + 16; omega
  | ⟨1, _⟩ => show win3_2.index t (1 : Fin 3) * 128 ≤ (i 1).val ∧ (i 1).val < win3_2.index t (1 : Fin 3) * 128 + 128; omega
  | ⟨2, _⟩ => show win3_2.index t (2 : Fin 3) * 784 ≤ (i 2).val ∧ (i 2).val < win3_2.index t (2 : Fin 3) * 784 + 784; omega

/-- THE OUTPUT ARRAY after region 3: the activations times the gate repeated along the last axis, both as the region
    finds them. -/
theorem gate_final3 (c : Dev nD) :
    (dat3 (F := Ideal) V c).arrAt 2 cfg3.N = gateMul (V c main_v146) (V c main_v142) :=
  (dat3 V c).arrAt_eq_of_cover 2 (gateMul (V c main_v146) (V c main_v142)) (fun t _ => flushed3_eq V c t) cover3

end Value

end Cert.KernelIdeal.GateRegion

end
-- ==== Proof.RunKI.lean ====
/-
  The four kernel regions as segments of @main, and @main's run.
  Between two items of @main every unscoped buffer of a core is held whole at a valuation: the launch contents, then
  each host stretch applied, and at a region only the region's output array changed — to what the region's pipeline
  leaves there (the fold of its write-backs). A region's proof data are stated at the valuation the region is
  entered from, so the contents are defined stage by stage: each stage reads only the stages before it.
-/
import proofs.«105140_j1606317769259_2_alg».proof.Proof.RunCondKI
import proofs.«105140_j1606317769259_2_alg».proof.Proof.GramRegionKI0
import proofs.«105140_j1606317769259_2_alg».proof.Proof.GramRegionKI1
import proofs.«105140_j1606317769259_2_alg».proof.Proof.GateRegionKI
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What each region leaves, stage by stage -/

/-- After region 0: its arrays at what its pipeline leaves, entered from the contents after the first host stretch. -/
def W2 (c : Dev nD) : Valuation τ sig (Elt F) :=
  Pipeline.withArrays spec0 c (V1 m c) fun w => (GramRegion.dat0 (fun c b => V1 m c b) c).arrAt w cfg0.N
/-- The regions' contents known so far: region 0's. -/
def outs2 : Outs (F := F) := fun _ r c => W2 m c r
/-- After region 1, entered from the contents region 0 left. -/
def W3 (c : Dev nD) : Valuation τ sig (Elt F) :=
  Pipeline.withArrays spec1 c (V2 m (outs2 m) c) fun w => (GramRegion.dat1 (fun c b => V2 m (outs2 m) c b) c).arrAt w cfg1.N
def outs3 : Outs (F := F) := fun J r c => match J with | 2 => W2 m c r | _ => W3 m c r
/-- After region 2, entered from the contents after the host stretches that follow region 1. -/
def W27 (c : Dev nD) : Valuation τ sig (Elt F) :=
  Pipeline.withArrays spec2 c (V26 m (outs3 m) c) fun w => (GateRegion.dat2 (fun c b => V26 m (outs3 m) c b) c).arrAt w cfg2.N
def outs27 : Outs (F := F) := fun J r c => match J with | 2 => W2 m c r | 3 => W3 m c r | _ => W27 m c r
/-- After region 3. -/
def W29 (c : Dev nD) : Valuation τ sig (Elt F) :=
  Pipeline.withArrays spec3 c (V28 m (outs27 m) c) fun w => (GateRegion.dat3 (fun c b => V28 m (outs27 m) c b) c).arrAt w cfg3.N
/-- What the four regions leave in the arrays they write. -/
def outs : Outs (F := F) := fun J r c => match J with | 2 => W2 m c r | 3 => W3 m c r | 27 => W27 m c r | _ => W29 m c r

/-- The boundary contents do not depend on the stages still to come. -/
theorem V2_outs (c : Dev nD) : V2 m (outs m) c = V2 m (outs2 m) c := rfl
theorem V26_outs (c : Dev nD) : V26 m (outs m) c = V26 m (outs3 m) c := rfl
theorem V28_outs (c : Dev nD) : V28 m (outs m) c = V28 m (outs27 m) c := rfl

/-! ## The proof data and what rides beside the buffers -/

/-- Every pipeline's proof data, each at its region's entry contents. -/
def pdats : (p : Fin 4) → (c : Dev nD) → Dat τ (Elt F) Unit ℕ (UR sig nD τ) ℕ (cfgs p) c
  | ⟨0, _⟩ => fun c => GramRegion.dat0 (fun c b => V1 m c b) c
  | ⟨1, _⟩ => fun c => GramRegion.dat1 (fun c b => V2 m (outs2 m) c b) c
  | ⟨2, _⟩ => fun c => GateRegion.dat2 (fun c b => V26 m (outs3 m) c b) c
  | ⟨3, _⟩ => fun c => GateRegion.dat3 (fun c b => V28 m (outs27 m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

/-! ## A region's exit contents against its entry contents -/

theorem hF0 (c : Dev nD) (w : Fin cfg0.W) : (pdats m 0 c).arrAt w cfg0.N = V2 m (outs m) c (Pipeline.arrRef spec0 w) := by
  match w with
  | ⟨0, _⟩ =>
    refine ((pdats m 0 c).arrAt_in 0 rfl _).trans ?_
    refine (GramRegion.A_eq0 (fun c b => V1 m c b) c 0).trans ?_
    exact (V2_of m (outs m) c _ (by decide)).symm
  | ⟨1, _⟩ =>
    refine Eq.trans ?_ (Function.update_self (Proc.devRef .tc main_v2 : DevRef τ sig) (outs m 2 main_v2 c) (V1 m c)).symm
    exact (Pipeline.withArrays_arr spec0 launch0.win.arr_inj c (V1 m c) (fun w => (GramRegion.dat0 (fun c b => V1 m c b) c).arrAt w cfg0.N) 1).symm
theorem hrest0 (c : Dev nD) : ∀ b, b ∉ Finset.univ.image (Pipeline.arrRef spec0) → V2 m (outs m) c b = V1 m c b :=
  fun b hb => V2_of m (outs m) c b fun h => hb (Finset.mem_image.mpr ⟨1, Finset.mem_univ _, (List.mem_singleton.mp h).symm⟩)

theorem hF1 (c : Dev nD) (w : Fin cfg1.W) : (pdats m 1 c).arrAt w cfg1.N = V3 m (outs m) c (Pipeline.arrRef spec1 w) := by
  match w with
  | ⟨0, _⟩ =>
    refine ((pdats m 1 c).arrAt_in 0 rfl _).trans ?_
    refine (GramRegion.A_eq1 (fun c b => V2 m (outs2 m) c b) c 0).trans ?_
    exact (congrFun (V2_outs m c) _).symm.trans (V3_of m (outs m) c _ (by decide)).symm
  | ⟨1, _⟩ =>
    refine Eq.trans ?_ (Function.update_self (Proc.devRef .tc main_v3 : DevRef τ sig) (outs m 3 main_v3 c) (V2 m (outs m) c)).symm
    exact (Pipeline.withArrays_arr spec1 launch1.win.arr_inj c (V2 m (outs2 m) c) (fun w => (GramRegion.dat1 (fun c b => V2 m (outs2 m) c b) c).arrAt w cfg1.N) 1).symm
theorem hrest1 (c : Dev nD) : ∀ b, b ∉ Finset.univ.image (Pipeline.arrRef spec1) → V3 m (outs m) c b = V2 m (outs m) c b :=
  fun b hb => V3_of m (outs m) c b fun h => hb (Finset.mem_image.mpr ⟨1, Finset.mem_univ _, (List.mem_singleton.mp h).symm⟩)

theorem hF2 (c : Dev nD) (w : Fin cfg2.W) : (pdats m 2 c).arrAt w cfg2.N = V27 m (outs m) c (Pipeline.arrRef spec2 w) := by
  match w with
  | ⟨0, _⟩ =>
    refine ((pdats m 2 c).arrAt_in 0 rfl _).trans ?_
    refine (GateRegion.A_eq2 (fun c b => V26 m (outs3 m) c b) c 0).trans ?_
    exact (congrFun (V26_outs m c) _).symm.trans (V27_of m (outs m) c _ (by decide)).symm
  | ⟨1, _⟩ =>
    refine ((pdats m 2 c).arrAt_in 1 rfl _).trans ?_
    refine (GateRegion.A_eq2 (fun c b => V26 m (outs3 m) c b) c 1).trans ?_
    exact (congrFun (V26_outs m c) _).symm.trans (V27_of m (outs m) c _ (by decide)).symm
  | ⟨2, _⟩ =>
    refine Eq.trans ?_ (Function.update_self (Proc.devRef .tc main_v144 : DevRef τ sig) (outs m 27 main_v144 c) (V26 m (outs m) c)).symm
    exact (Pipeline.withArrays_arr spec2 launch2.win.arr_inj c (V26 m (outs3 m) c) (fun w => (GateRegion.dat2 (fun c b => V26 m (outs3 m) c b) c).arrAt w cfg2.N) 2).symm
theorem hrest2 (c : Dev nD) : ∀ b, b ∉ Finset.univ.image (Pipeline.arrRef spec2) → V27 m (outs m) c b = V26 m (outs m) c b :=
  fun b hb => V27_of m (outs m) c b fun h => hb (Finset.mem_image.mpr ⟨2, Finset.mem_univ _, (List.mem_singleton.mp h).symm⟩)

theorem hF3 (c : Dev nD) (w : Fin cfg3.W) : (pdats m 3 c).arrAt w cfg3.N = V29 m (outs m) c (Pipeline.arrRef spec3 w) := by
  match w with
  | ⟨0, _⟩ =>
    refine ((pdats m 3 c).arrAt_in 0 rfl _).trans ?_
    refine (GateRegion.A_eq3 (fun c b => V28 m (outs27 m) c b) c 0).trans ?_
    exact (congrFun (V28_outs m c) _).symm.trans (V29_of m (outs m) c _ (by decide)).symm
  | ⟨1, _⟩ =>
    refine ((pdats m 3 c).arrAt_in 1 rfl _).trans ?_
    refine (GateRegion.A_eq3 (fun c b => V28 m (outs27 m) c b) c 1).trans ?_
    exact (congrFun (V28_outs m c) _).symm.trans (V29_of m (outs m) c _ (by decide)).symm
  | ⟨2, _⟩ =>
    refine Eq.trans ?_ (Function.update_self (Proc.devRef .tc main_v147 : DevRef τ sig) (outs m 29 main_v147 c) (V28 m (outs m) c)).symm
    exact (Pipeline.withArrays_arr spec3 launch3.win.arr_inj c (V28 m (outs27 m) c) (fun w => (GateRegion.dat3 (fun c b => V28 m (outs27 m) c b) c).arrAt w cfg3.N) 2).symm
theorem hrest3 (c : Dev nD) : ∀ b, b ∉ Finset.univ.image (Pipeline.arrRef spec3) → V29 m (outs m) c b = V28 m (outs m) c b :=
  fun b hb => V29_of m (outs m) c b fun h => hb (Finset.mem_image.mpr ⟨2, Finset.mem_univ _, (List.mem_singleton.mp h).symm⟩)

/-! ## The class invariant in and out -/

theorem phiA_in0 (c : Dev nD) (Pm : sProp 𝕄) :
    iprop((∃ r, prngReg c r) ∗ Pm ∗ Pipeline.scopedRest spec0 c) ⊢ (Pipeline.ΦA spec0 c : sProp 𝕄) := by
  unfold Pipeline.ΦA
  iintro ⟨Hp, -, Hr⟩
  isplitl [Hr]; · iexact Hr
  iexact Hp
theorem phiA_out0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

theorem phiA_in1 (c : Dev nD) (Pm : sProp 𝕄) :
    iprop((∃ r, prngReg c r) ∗ Pm ∗ Pipeline.scopedRest spec1 c) ⊢ (Pipeline.ΦA spec1 c : sProp 𝕄) := by
  unfold Pipeline.ΦA
  iintro ⟨Hp, -, Hr⟩
  isplitl [Hr]; · iexact Hr
  iexact Hp
theorem phiA_out1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- Region 0 as a segment: entered with every unscoped buffer at the contents before it, left with them at the contents
    after it; its arrays are split out of the unscoped buffers and put back at what the pipeline leaves; the scratch
    accumulator and the generator register pass through the region's invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (GramRegion.body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (GramRegion.hin0 (fun c b => V1 m c b) c)
  hout c := by
    rw [Pipeline.ownSems0_none]
    exact (GramRegion.hout0 (fun c b => V1 m c b) c).trans (phiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held c (V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it; its arrays are split out of the unscoped buffers and put back at what the pipeline leaves; the scratch
    accumulator and the generator register pass through the region's invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (GramRegion.body_obligation1 (fun c b => V2 m (outs2 m) c b) c).loose
  hwaits := Pipeline.hwaits_of_owed_zero _ _ _ _ L lv 1 fun _ _ => rfl
  pre c := iprop(StableHlo.held (c : Thread nD τ) (Pipeline.ucRefs τ sig) (V2 m (outs m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held c (V2 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (GramRegion.hin1 (fun c b => V2 m (outs2 m) c b) c)
  hout c := by
    rw [Pipeline.ownSems0_none]
    exact (GramRegion.hout1 (fun c b => V2 m (outs2 m) c b) c).trans (phiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held c (V3 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the contents
    after it; its arrays are split out of the unscoped buffers and put back at what the pipeline leaves; the generator
    register passes through the region's invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (GateRegion.body_obligation2 (fun c b => V26 m (outs3 m) c b) c).loose
  hwaits := Pipeline.hwaits_of_owed_zero _ _ _ _ L lv 2 fun _ _ => rfl
  pre c := iprop(StableHlo.held (c : Thread nD τ) (Pipeline.ucRefs τ sig) (V26 m (outs m) c) ∗ Rr c)
  post c := iprop(StableHlo.held (c : Thread nD τ) (Pipeline.ucRefs τ sig) (V27 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (fun b => V26 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V26 m (outs m) c b) fun _ => rfl
    rw [Pipeline.unscopedBufs_held c (V26 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V26 m (outs m) c b) (fun b => V27 m (outs m) c b) ((pdats m 2 c).arrAt · cfg2.N) (hF2 m c) (hrest2 m c)
    rw [Pipeline.unscopedBufs_held c (V27 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the contents
    after it; its arrays are split out of the unscoped buffers and put back at what the pipeline leaves; the generator
    register passes through the region's invariant. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (GateRegion.body_obligation3 (fun c b => V28 m (outs27 m) c b) c).loose
  hwaits := Pipeline.hwaits_of_owed_zero _ _ _ _ L lv 3 fun _ _ => rfl
  pre c := iprop(StableHlo.held (c : Thread nD τ) (Pipeline.ucRefs τ sig) (V28 m (outs m) c) ∗ Rr c)
  post c := iprop(StableHlo.held (c : Thread nD τ) (Pipeline.ucRefs τ sig) (V29 m (outs m) c) ∗ Rr c)
  X c := iprop(∃ r, prngReg c r)
  Y c := iprop(∃ r, prngReg c r)
  Z c := Pipeline.unscopedRest (Ix := Unit) (Name := ℕ) (U := UR sig nD τ) (Lvl := ℕ) spec3 c (fun b => V28 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V28 m (outs m) c b) fun _ => rfl
    rw [Pipeline.unscopedBufs_held c (V28 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V28 m (outs m) c b) (fun b => V29 m (outs m) c b) ((pdats m 3 c).arrAt · cfg3.N) (hF3 m c) (hrest3 m c)
    rw [Pipeline.unscopedBufs_held c (V29 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option maxHeartbeats 4000000 in
set_option backward.isDefEq.respectTransparency.types false in
/-- Every weakly fair execution of @main from memory `m` with zero counters terminates, nothing faulting, and every
    unscoped buffer of every core ends at the last boundary's contents. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V30 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)

end Cert.KernelIdeal.Run

end
-- ==== Proof.FrameKI.lean ====
/-
  The run read at the argument arrays: no host stretch writes an argument and no region changes one, so each ends as
  launched — the frame claim. Read also at the two result arrays, for the value claim.
-/
import proofs.«105140_j1606317769259_2_alg».proof.Proof.RunKI

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Every weakly fair execution of @main terminates, nothing faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c (Proc.devRef .tc main_arg0) (Finset.mem_filter.mpr ⟨StableHlo.devRef_mem_tcRefs main_arg0, by decide⟩)).trans (V30_main_arg0 m (outs m) c),
      (h c (Proc.devRef .tc main_arg1) (Finset.mem_filter.mpr ⟨StableHlo.devRef_mem_tcRefs main_arg1, by decide⟩)).trans (V30_main_arg1 m (outs m) c),
      (h c (Proc.devRef .tc main_arg2) (Finset.mem_filter.mpr ⟨StableHlo.devRef_mem_tcRefs main_arg2, by decide⟩)).trans (V30_main_arg2 m (outs m) c),
      (h c (Proc.devRef .tc main_arg3) (Finset.mem_filter.mpr ⟨StableHlo.devRef_mem_tcRefs main_arg3, by decide⟩)).trans (V30_main_arg3 m (outs m) c),
      (h c (Proc.devRef .tc main_arg4) (Finset.mem_filter.mpr ⟨StableHlo.devRef_mem_tcRefs main_arg4, by decide⟩)).trans (V30_main_arg4 m (outs m) c),
      (h c (Proc.devRef .tc main_arg5) (Finset.mem_filter.mpr ⟨StableHlo.devRef_mem_tcRefs main_arg5, by decide⟩)).trans (V30_main_arg5 m (outs m) c),
      (h c (Proc.devRef .tc main_arg6) (Finset.mem_filter.mpr ⟨StableHlo.devRef_mem_tcRefs main_arg6, by decide⟩)).trans (V30_main_arg6 m (outs m) c),
      (h c (Proc.devRef .tc main_arg7) (Finset.mem_filter.mpr ⟨StableHlo.devRef_mem_tcRefs main_arg7, by decide⟩)).trans (V30_main_arg7 m (outs m) c),
      (h c (Proc.devRef .tc main_arg8) (Finset.mem_filter.mpr ⟨StableHlo.devRef_mem_tcRefs main_arg8, by decide⟩)).trans (V30_main_arg8 m (outs m) c),
      (h c (Proc.devRef .tc main_arg9) (Finset.mem_filter.mpr ⟨StableHlo.devRef_mem_tcRefs main_arg9, by decide⟩)).trans (V30_main_arg9 m (outs m) c),
      (h c (Proc.devRef .tc main_arg10) (Finset.mem_filter.mpr ⟨StableHlo.devRef_mem_tcRefs main_arg10, by decide⟩)).trans (V30_main_arg10 m (outs m) c),
      (h c (Proc.devRef .tc main_arg11) (Finset.mem_filter.mpr ⟨StableHlo.devRef_mem_tcRefs main_arg11, by decide⟩)).trans (V30_main_arg11 m (outs m) c),
      (h c (Proc.devRef .tc main_arg12) (Finset.mem_filter.mpr ⟨StableHlo.devRef_mem_tcRefs main_arg12, by decide⟩)).trans (V30_main_arg12 m (outs m) c),
      (h c (Proc.devRef .tc main_arg13) (Finset.mem_filter.mpr ⟨StableHlo.devRef_mem_tcRefs main_arg13, by decide⟩)).trans (V30_main_arg13 m (outs m) c),
      (h c (Proc.devRef .tc main_arg14) (Finset.mem_filter.mpr ⟨StableHlo.devRef_mem_tcRefs main_arg14, by decide⟩)).trans (V30_main_arg14 m (outs m) c),
      (h c (Proc.devRef .tc main_arg15) (Finset.mem_filter.mpr ⟨StableHlo.devRef_mem_tcRefs main_arg15, by decide⟩)).trans (V30_main_arg15 m (outs m) c),
      (h c (Proc.devRef .tc main_arg16) (Finset.mem_filter.mpr ⟨StableHlo.devRef_mem_tcRefs main_arg16, by decide⟩)).trans (V30_main_arg16 m (outs m) c),
      (h c (Proc.devRef .tc main_arg17) (Finset.mem_filter.mpr ⟨StableHlo.devRef_mem_tcRefs main_arg17, by decide⟩)).trans (V30_main_arg17 m (outs m) c),
      (h c (Proc.devRef .tc main_arg18) (Finset.mem_filter.mpr ⟨StableHlo.devRef_mem_tcRefs main_arg18, by decide⟩)).trans (V30_main_arg18 m (outs m) c),
      (h c (Proc.devRef .tc main_arg19) (Finset.mem_filter.mpr ⟨StableHlo.devRef_mem_tcRefs main_arg19, by decide⟩)).trans (V30_main_arg19 m (outs m) c),
      (h c (Proc.devRef .tc main_arg20) (Finset.mem_filter.mpr ⟨StableHlo.devRef_mem_tcRefs main_arg20, by decide⟩)).trans (V30_main_arg20 m (outs m) c),
      (h c (Proc.devRef .tc main_arg21) (Finset.mem_filter.mpr ⟨StableHlo.devRef_mem_tcRefs main_arg21, by decide⟩)).trans (V30_main_arg21 m (outs m) c),
      (h c (Proc.devRef .tc main_arg22) (Finset.mem_filter.mpr ⟨StableHlo.devRef_mem_tcRefs main_arg22, by decide⟩)).trans (V30_main_arg22 m (outs m) c),
      (h c (Proc.devRef .tc main_arg23) (Finset.mem_filter.mpr ⟨StableHlo.devRef_mem_tcRefs main_arg23, by decide⟩)).trans (V30_main_arg23 m (outs m) c),
      (h c (Proc.devRef .tc main_arg24) (Finset.mem_filter.mpr ⟨StableHlo.devRef_mem_tcRefs main_arg24, by decide⟩)).trans (V30_main_arg24 m (outs m) c),
      (h c (Proc.devRef .tc main_arg25) (Finset.mem_filter.mpr ⟨StableHlo.devRef_mem_tcRefs main_arg25, by decide⟩)).trans (V30_main_arg25 m (outs m) c)⟩) (run_all m ρ)

/-- The run read at the two result arrays and at the arguments: each result ends at the last boundary's contents of its
    buffer, each argument as launched. -/
theorem run_results (ρ : Dev nD → PrngReg) :
    θ_run defs (onTc (τ := τ) (main (F := F))) ⟨m, fun _ => 0, ρ⟩ (fun r => ∀ c : Dev nD,
      r.2.mem ((c.tc : Thread nD τ).loc main_v145) = V30 m (outs m) c main_v145
      ∧ r.2.mem ((c.tc : Thread nD τ).loc main_v148) = V30 m (outs m) c main_v148
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c (Proc.devRef .tc main_v145) (Finset.mem_filter.mpr ⟨StableHlo.devRef_mem_tcRefs main_v145, by decide⟩),
      h c (Proc.devRef .tc main_v148) (Finset.mem_filter.mpr ⟨StableHlo.devRef_mem_tcRefs main_v148, by decide⟩),
      (h c (Proc.devRef .tc main_arg0) (Finset.mem_filter.mpr ⟨StableHlo.devRef_mem_tcRefs main_arg0, by decide⟩)).trans (V30_main_arg0 m (outs m) c),
      (h c (Proc.devRef .tc main_arg1) (Finset.mem_filter.mpr ⟨StableHlo.devRef_mem_tcRefs main_arg1, by decide⟩)).trans (V30_main_arg1 m (outs m) c),
      (h c (Proc.devRef .tc main_arg2) (Finset.mem_filter.mpr ⟨StableHlo.devRef_mem_tcRefs main_arg2, by decide⟩)).trans (V30_main_arg2 m (outs m) c),
      (h c (Proc.devRef .tc main_arg3) (Finset.mem_filter.mpr ⟨StableHlo.devRef_mem_tcRefs main_arg3, by decide⟩)).trans (V30_main_arg3 m (outs m) c),
      (h c (Proc.devRef .tc main_arg4) (Finset.mem_filter.mpr ⟨StableHlo.devRef_mem_tcRefs main_arg4, by decide⟩)).trans (V30_main_arg4 m (outs m) c),
      (h c (Proc.devRef .tc main_arg5) (Finset.mem_filter.mpr ⟨StableHlo.devRef_mem_tcRefs main_arg5, by decide⟩)).trans (V30_main_arg5 m (outs m) c),
      (h c (Proc.devRef .tc main_arg6) (Finset.mem_filter.mpr ⟨StableHlo.devRef_mem_tcRefs main_arg6, by decide⟩)).trans (V30_main_arg6 m (outs m) c),
      (h c (Proc.devRef .tc main_arg7) (Finset.mem_filter.mpr ⟨StableHlo.devRef_mem_tcRefs main_arg7, by decide⟩)).trans (V30_main_arg7 m (outs m) c),
      (h c (Proc.devRef .tc main_arg8) (Finset.mem_filter.mpr ⟨StableHlo.devRef_mem_tcRefs main_arg8, by decide⟩)).trans (V30_main_arg8 m (outs m) c),
      (h c (Proc.devRef .tc main_arg9) (Finset.mem_filter.mpr ⟨StableHlo.devRef_mem_tcRefs main_arg9, by decide⟩)).trans (V30_main_arg9 m (outs m) c),
      (h c (Proc.devRef .tc main_arg10) (Finset.mem_filter.mpr ⟨StableHlo.devRef_mem_tcRefs main_arg10, by decide⟩)).trans (V30_main_arg10 m (outs m) c),
      (h c (Proc.devRef .tc main_arg11) (Finset.mem_filter.mpr ⟨StableHlo.devRef_mem_tcRefs main_arg11, by decide⟩)).trans (V30_main_arg11 m (outs m) c),
      (h c (Proc.devRef .tc main_arg12) (Finset.mem_filter.mpr ⟨StableHlo.devRef_mem_tcRefs main_arg12, by decide⟩)).trans (V30_main_arg12 m (outs m) c),
      (h c (Proc.devRef .tc main_arg13) (Finset.mem_filter.mpr ⟨StableHlo.devRef_mem_tcRefs main_arg13, by decide⟩)).trans (V30_main_arg13 m (outs m) c),
      (h c (Proc.devRef .tc main_arg14) (Finset.mem_filter.mpr ⟨StableHlo.devRef_mem_tcRefs main_arg14, by decide⟩)).trans (V30_main_arg14 m (outs m) c),
      (h c (Proc.devRef .tc main_arg15) (Finset.mem_filter.mpr ⟨StableHlo.devRef_mem_tcRefs main_arg15, by decide⟩)).trans (V30_main_arg15 m (outs m) c),
      (h c (Proc.devRef .tc main_arg16) (Finset.mem_filter.mpr ⟨StableHlo.devRef_mem_tcRefs main_arg16, by decide⟩)).trans (V30_main_arg16 m (outs m) c),
      (h c (Proc.devRef .tc main_arg17) (Finset.mem_filter.mpr ⟨StableHlo.devRef_mem_tcRefs main_arg17, by decide⟩)).trans (V30_main_arg17 m (outs m) c),
      (h c (Proc.devRef .tc main_arg18) (Finset.mem_filter.mpr ⟨StableHlo.devRef_mem_tcRefs main_arg18, by decide⟩)).trans (V30_main_arg18 m (outs m) c),
      (h c (Proc.devRef .tc main_arg19) (Finset.mem_filter.mpr ⟨StableHlo.devRef_mem_tcRefs main_arg19, by decide⟩)).trans (V30_main_arg19 m (outs m) c),
      (h c (Proc.devRef .tc main_arg20) (Finset.mem_filter.mpr ⟨StableHlo.devRef_mem_tcRefs main_arg20, by decide⟩)).trans (V30_main_arg20 m (outs m) c),
      (h c (Proc.devRef .tc main_arg21) (Finset.mem_filter.mpr ⟨StableHlo.devRef_mem_tcRefs main_arg21, by decide⟩)).trans (V30_main_arg21 m (outs m) c),
      (h c (Proc.devRef .tc main_arg22) (Finset.mem_filter.mpr ⟨StableHlo.devRef_mem_tcRefs main_arg22, by decide⟩)).trans (V30_main_arg22 m (outs m) c),
      (h c (Proc.devRef .tc main_arg23) (Finset.mem_filter.mpr ⟨StableHlo.devRef_mem_tcRefs main_arg23, by decide⟩)).trans (V30_main_arg23 m (outs m) c),
      (h c (Proc.devRef .tc main_arg24) (Finset.mem_filter.mpr ⟨StableHlo.devRef_mem_tcRefs main_arg24, by decide⟩)).trans (V30_main_arg24 m (outs m) c),
      (h c (Proc.devRef .tc main_arg25) (Finset.mem_filter.mpr ⟨StableHlo.devRef_mem_tcRefs main_arg25, by decide⟩)).trans (V30_main_arg25 m (outs m) c)⟩) (run_all m ρ)

end Cert.KernelIdeal.Run

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.GlueKI.lean ====
/-
  The host computation between the two Gram matrices and the two gates, as two functions of whole arrays.

  With `gs`, `gt` the Gram matrices of the two inputs: each is normalised row by row (divided by the larger of its
  row's Euclidean norm and a small constant), multiplied into the spatial mean of its input (`zs`, `zt`); the sum, the
  product and the concatenation of the two products each go through two two-layer perceptrons (an affine layer, a
  maximum with zero, an affine layer, the logistic function written out as 1 / (1 + exp (−·))); a gate is the sum of
  the three perceptrons' outputs of its side, each first maximised with zero. `gateS` is the first input's gate and
  `gateT` the second's.
-/
import proofs.«105140_j1606317769259_2_alg».proof.Proof.Gen.KernelIdeal

set_option maxRecDepth 8192

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]

/-- The first input's gate, from the two Gram matrices, the two inputs and the first side's weights and biases. -/
def gateS (gs gt : (⟨S128x128, .f32⟩ : BufTy).Contents (Elt F)) (x0 : (⟨S128x256x28x28, .f32⟩ : BufTy).Contents (Elt F)) (x1 : (⟨S128x256x28x28, .f32⟩ : BufTy).Contents (Elt F)) (x2 : (⟨S128x512, .f32⟩ : BufTy).Contents (Elt F)) (x3 : (⟨S128, .f32⟩ : BufTy).Contents (Elt F)) (x4 : (⟨S256x128, .f32⟩ : BufTy).Contents (Elt F)) (x5 : (⟨S256, .f32⟩ : BufTy).Contents (Elt F)) (x6 : (⟨S64x256, .f32⟩ : BufTy).Contents (Elt F)) (x7 : (⟨S64, .f32⟩ : BufTy).Contents (Elt F)) (x8 : (⟨S256x64, .f32⟩ : BufTy).Contents (Elt F)) (x9 : (⟨S256, .f32⟩ : BufTy).Contents (Elt F)) (x10 : (⟨S64x256, .f32⟩ : BufTy).Contents (Elt F)) (x11 : (⟨S64, .f32⟩ : BufTy).Contents (Elt F)) (x12 : (⟨S256x64, .f32⟩ : BufTy).Contents (Elt F)) (x13 : (⟨S256, .f32⟩ : BufTy).Contents (Elt F)) :
    (⟨S128x256, .f32⟩ : BufTy).Contents (Elt F) :=
  addf (addf (maximumf (Host.divf (broadcastInDim S128x256 ![] bcast_S_S128x256 (constant S_ .f32 0x3F800000#32)) (addf (broadcastInDim S128x256 ![] bcast_S_S128x256 (constant S_ .f32 0x3F800000#32)) (Host.exp (Host.negf (addf (Host.dotGeneral dot_S128x128_S128x256_S128x256_1_0_0_1_n_n none (maximumf (addf (Host.dotGeneral dot_S128x512_S512x128_S128x128_1_0_0_1_n_n none (concatenate S128x512 1 [⟨S128x256, (Host.dotGeneral dot_S128x128_S128x256_S128x256_1_0_0_1_n_n none (Host.divf gs (broadcastInDim S128x128 ![0, 1] bcast_S128x1_S128x128_0_1 (maximumf (Host.sqrt (broadcastInDim S128x1 ![0] bcast_S128_S128x1_0 (Host.reduceAdd (mulf gs gs) (constant S_ .f32 0x00000000#32) reducesTo_S128x128_S128_d1 h_S_))) (broadcastInDim S128x1 ![] bcast_S_S128x1 (constant S_ .f32 0x2B8CBCCC#32))))) (Host.divf (Host.reduceAdd x0 (constant S_ .f32 0x00000000#32) reducesTo_S128x256x28x28_S128x256_d2_3 h_S_) (broadcastInDim S128x256 ![] bcast_S_S128x256 (constant S_ .f32 0x44440000#32))))⟩, ⟨S128x256, (Host.dotGeneral dot_S128x128_S128x256_S128x256_1_0_0_1_n_n none (Host.divf gt (broadcastInDim S128x128 ![0, 1] bcast_S128x1_S128x128_0_1 (maximumf (Host.sqrt (broadcastInDim S128x1 ![0] bcast_S128_S128x1_0 (Host.reduceAdd (mulf gt gt) (constant S_ .f32 0x00000000#32) reducesTo_S128x128_S128_d1 h_S_))) (broadcastInDim S128x1 ![] bcast_S_S128x1 (constant S_ .f32 0x2B8CBCCC#32))))) (Host.divf (Host.reduceAdd x1 (constant S_ .f32 0x00000000#32) reducesTo_S128x256x28x28_S128x256_d2_3 h_S_) (broadcastInDim S128x256 ![] bcast_S_S128x256 (constant S_ .f32 0x44440000#32))))⟩] concatenates_S128x256_S128x256_S128x512_d1) (transpose S512x128 [1, 0] x2 transposes_S128x512_S512x128_1_0)) (broadcastInDim S128x128 ![0, 1] bcast_S1x128_S128x128_0_1 (broadcastInDim S1x128 ![1] bcast_S128_S1x128_1 x3))) (broadcastInDim S128x128 ![] bcast_S_S128x128 (constant S_ .f32 0x00000000#32))) (transpose S128x256 [1, 0] x4 transposes_S256x128_S128x256_1_0)) (broadcastInDim S128x256 ![0, 1] bcast_S1x256_S128x256_0_1 (broadcastInDim S1x256 ![1] bcast_S256_S1x256_1 x5))))))) (broadcastInDim S128x256 ![] bcast_S_S128x256 (constant S_ .f32 0x00000000#32))) (maximumf (Host.divf (broadcastInDim S128x256 ![] bcast_S_S128x256 (constant S_ .f32 0x3F800000#32)) (addf (broadcastInDim S128x256 ![] bcast_S_S128x256 (constant S_ .f32 0x3F800000#32)) (Host.exp (Host.negf (addf (Host.dotGeneral dot_S128x64_S64x256_S128x256_1_0_0_1_n_n none (maximumf (addf (Host.dotGeneral dot_S128x256_S256x64_S128x64_1_0_0_1_n_n none (addf (Host.dotGeneral dot_S128x128_S128x256_S128x256_1_0_0_1_n_n none (Host.divf gs (broadcastInDim S128x128 ![0, 1] bcast_S128x1_S128x128_0_1 (maximumf (Host.sqrt (broadcastInDim S128x1 ![0] bcast_S128_S128x1_0 (Host.reduceAdd (mulf gs gs) (constant S_ .f32 0x00000000#32) reducesTo_S128x128_S128_d1 h_S_))) (broadcastInDim S128x1 ![] bcast_S_S128x1 (constant S_ .f32 0x2B8CBCCC#32))))) (Host.divf (Host.reduceAdd x0 (constant S_ .f32 0x00000000#32) reducesTo_S128x256x28x28_S128x256_d2_3 h_S_) (broadcastInDim S128x256 ![] bcast_S_S128x256 (constant S_ .f32 0x44440000#32)))) (Host.dotGeneral dot_S128x128_S128x256_S128x256_1_0_0_1_n_n none (Host.divf gt (broadcastInDim S128x128 ![0, 1] bcast_S128x1_S128x128_0_1 (maximumf (Host.sqrt (broadcastInDim S128x1 ![0] bcast_S128_S128x1_0 (Host.reduceAdd (mulf gt gt) (constant S_ .f32 0x00000000#32) reducesTo_S128x128_S128_d1 h_S_))) (broadcastInDim S128x1 ![] bcast_S_S128x1 (constant S_ .f32 0x2B8CBCCC#32))))) (Host.divf (Host.reduceAdd x1 (constant S_ .f32 0x00000000#32) reducesTo_S128x256x28x28_S128x256_d2_3 h_S_) (broadcastInDim S128x256 ![] bcast_S_S128x256 (constant S_ .f32 0x44440000#32))))) (transpose S256x64 [1, 0] x6 transposes_S64x256_S256x64_1_0)) (broadcastInDim S128x64 ![0, 1] bcast_S1x64_S128x64_0_1 (broadcastInDim S1x64 ![1] bcast_S64_S1x64_1 x7))) (broadcastInDim S128x64 ![] bcast_S_S128x64 (constant S_ .f32 0x00000000#32))) (transpose S64x256 [1, 0] x8 transposes_S256x64_S64x256_1_0)) (broadcastInDim S128x256 ![0, 1] bcast_S1x256_S128x256_0_1 (broadcastInDim S1x256 ![1] bcast_S256_S1x256_1 x9))))))) (broadcastInDim S128x256 ![] bcast_S_S128x256 (constant S_ .f32 0x00000000#32)))) (maximumf (Host.divf (broadcastInDim S128x256 ![] bcast_S_S128x256 (constant S_ .f32 0x3F800000#32)) (addf (broadcastInDim S128x256 ![] bcast_S_S128x256 (constant S_ .f32 0x3F800000#32)) (Host.exp (Host.negf (addf (Host.dotGeneral dot_S128x64_S64x256_S128x256_1_0_0_1_n_n none (maximumf (addf (Host.dotGeneral dot_S128x256_S256x64_S128x64_1_0_0_1_n_n none (mulf (Host.dotGeneral dot_S128x128_S128x256_S128x256_1_0_0_1_n_n none (Host.divf gs (broadcastInDim S128x128 ![0, 1] bcast_S128x1_S128x128_0_1 (maximumf (Host.sqrt (broadcastInDim S128x1 ![0] bcast_S128_S128x1_0 (Host.reduceAdd (mulf gs gs) (constant S_ .f32 0x00000000#32) reducesTo_S128x128_S128_d1 h_S_))) (broadcastInDim S128x1 ![] bcast_S_S128x1 (constant S_ .f32 0x2B8CBCCC#32))))) (Host.divf (Host.reduceAdd x0 (constant S_ .f32 0x00000000#32) reducesTo_S128x256x28x28_S128x256_d2_3 h_S_) (broadcastInDim S128x256 ![] bcast_S_S128x256 (constant S_ .f32 0x44440000#32)))) (Host.dotGeneral dot_S128x128_S128x256_S128x256_1_0_0_1_n_n none (Host.divf gt (broadcastInDim S128x128 ![0, 1] bcast_S128x1_S128x128_0_1 (maximumf (Host.sqrt (broadcastInDim S128x1 ![0] bcast_S128_S128x1_0 (Host.reduceAdd (mulf gt gt) (constant S_ .f32 0x00000000#32) reducesTo_S128x128_S128_d1 h_S_))) (broadcastInDim S128x1 ![] bcast_S_S128x1 (constant S_ .f32 0x2B8CBCCC#32))))) (Host.divf (Host.reduceAdd x1 (constant S_ .f32 0x00000000#32) reducesTo_S128x256x28x28_S128x256_d2_3 h_S_) (broadcastInDim S128x256 ![] bcast_S_S128x256 (constant S_ .f32 0x44440000#32))))) (transpose S256x64 [1, 0] x10 transposes_S64x256_S256x64_1_0)) (broadcastInDim S128x64 ![0, 1] bcast_S1x64_S128x64_0_1 (broadcastInDim S1x64 ![1] bcast_S64_S1x64_1 x11))) (broadcastInDim S128x64 ![] bcast_S_S128x64 (constant S_ .f32 0x00000000#32))) (transpose S64x256 [1, 0] x12 transposes_S256x64_S64x256_1_0)) (broadcastInDim S128x256 ![0, 1] bcast_S1x256_S128x256_0_1 (broadcastInDim S1x256 ![1] bcast_S256_S1x256_1 x13))))))) (broadcastInDim S128x256 ![] bcast_S_S128x256 (constant S_ .f32 0x00000000#32)))

/-- The second input's gate, from the two Gram matrices, the two inputs and the second side's weights and biases. -/
def gateT (gs gt : (⟨S128x128, .f32⟩ : BufTy).Contents (Elt F)) (x0 : (⟨S128x256x28x28, .f32⟩ : BufTy).Contents (Elt F)) (x1 : (⟨S128x256x28x28, .f32⟩ : BufTy).Contents (Elt F)) (x14 : (⟨S128x512, .f32⟩ : BufTy).Contents (Elt F)) (x15 : (⟨S128, .f32⟩ : BufTy).Contents (Elt F)) (x16 : (⟨S256x128, .f32⟩ : BufTy).Contents (Elt F)) (x17 : (⟨S256, .f32⟩ : BufTy).Contents (Elt F)) (x18 : (⟨S64x256, .f32⟩ : BufTy).Contents (Elt F)) (x19 : (⟨S64, .f32⟩ : BufTy).Contents (Elt F)) (x20 : (⟨S256x64, .f32⟩ : BufTy).Contents (Elt F)) (x21 : (⟨S256, .f32⟩ : BufTy).Contents (Elt F)) (x22 : (⟨S64x256, .f32⟩ : BufTy).Contents (Elt F)) (x23 : (⟨S64, .f32⟩ : BufTy).Contents (Elt F)) (x24 : (⟨S256x64, .f32⟩ : BufTy).Contents (Elt F)) (x25 : (⟨S256, .f32⟩ : BufTy).Contents (Elt F)) :
    (⟨S128x256, .f32⟩ : BufTy).Contents (Elt F) :=
  addf (addf (maximumf (Host.divf (broadcastInDim S128x256 ![] bcast_S_S128x256 (constant S_ .f32 0x3F800000#32)) (addf (broadcastInDim S128x256 ![] bcast_S_S128x256 (constant S_ .f32 0x3F800000#32)) (Host.exp (Host.negf (addf (Host.dotGeneral dot_S128x128_S128x256_S128x256_1_0_0_1_n_n none (maximumf (addf (Host.dotGeneral dot_S128x512_S512x128_S128x128_1_0_0_1_n_n none (concatenate S128x512 1 [⟨S128x256, (Host.dotGeneral dot_S128x128_S128x256_S128x256_1_0_0_1_n_n none (Host.divf gs (broadcastInDim S128x128 ![0, 1] bcast_S128x1_S128x128_0_1 (maximumf (Host.sqrt (broadcastInDim S128x1 ![0] bcast_S128_S128x1_0 (Host.reduceAdd (mulf gs gs) (constant S_ .f32 0x00000000#32) reducesTo_S128x128_S128_d1 h_S_))) (broadcastInDim S128x1 ![] bcast_S_S128x1 (constant S_ .f32 0x2B8CBCCC#32))))) (Host.divf (Host.reduceAdd x0 (constant S_ .f32 0x00000000#32) reducesTo_S128x256x28x28_S128x256_d2_3 h_S_) (broadcastInDim S128x256 ![] bcast_S_S128x256 (constant S_ .f32 0x44440000#32))))⟩, ⟨S128x256, (Host.dotGeneral dot_S128x128_S128x256_S128x256_1_0_0_1_n_n none (Host.divf gt (broadcastInDim S128x128 ![0, 1] bcast_S128x1_S128x128_0_1 (maximumf (Host.sqrt (broadcastInDim S128x1 ![0] bcast_S128_S128x1_0 (Host.reduceAdd (mulf gt gt) (constant S_ .f32 0x00000000#32) reducesTo_S128x128_S128_d1 h_S_))) (broadcastInDim S128x1 ![] bcast_S_S128x1 (constant S_ .f32 0x2B8CBCCC#32))))) (Host.divf (Host.reduceAdd x1 (constant S_ .f32 0x00000000#32) reducesTo_S128x256x28x28_S128x256_d2_3 h_S_) (broadcastInDim S128x256 ![] bcast_S_S128x256 (constant S_ .f32 0x44440000#32))))⟩] concatenates_S128x256_S128x256_S128x512_d1) (transpose S512x128 [1, 0] x14 transposes_S128x512_S512x128_1_0)) (broadcastInDim S128x128 ![0, 1] bcast_S1x128_S128x128_0_1 (broadcastInDim S1x128 ![1] bcast_S128_S1x128_1 x15))) (broadcastInDim S128x128 ![] bcast_S_S128x128 (constant S_ .f32 0x00000000#32))) (transpose S128x256 [1, 0] x16 transposes_S256x128_S128x256_1_0)) (broadcastInDim S128x256 ![0, 1] bcast_S1x256_S128x256_0_1 (broadcastInDim S1x256 ![1] bcast_S256_S1x256_1 x17))))))) (broadcastInDim S128x256 ![] bcast_S_S128x256 (constant S_ .f32 0x00000000#32))) (maximumf (Host.divf (broadcastInDim S128x256 ![] bcast_S_S128x256 (constant S_ .f32 0x3F800000#32)) (addf (broadcastInDim S128x256 ![] bcast_S_S128x256 (constant S_ .f32 0x3F800000#32)) (Host.exp (Host.negf (addf (Host.dotGeneral dot_S128x64_S64x256_S128x256_1_0_0_1_n_n none (maximumf (addf (Host.dotGeneral dot_S128x256_S256x64_S128x64_1_0_0_1_n_n none (addf (Host.dotGeneral dot_S128x128_S128x256_S128x256_1_0_0_1_n_n none (Host.divf gs (broadcastInDim S128x128 ![0, 1] bcast_S128x1_S128x128_0_1 (maximumf (Host.sqrt (broadcastInDim S128x1 ![0] bcast_S128_S128x1_0 (Host.reduceAdd (mulf gs gs) (constant S_ .f32 0x00000000#32) reducesTo_S128x128_S128_d1 h_S_))) (broadcastInDim S128x1 ![] bcast_S_S128x1 (constant S_ .f32 0x2B8CBCCC#32))))) (Host.divf (Host.reduceAdd x0 (constant S_ .f32 0x00000000#32) reducesTo_S128x256x28x28_S128x256_d2_3 h_S_) (broadcastInDim S128x256 ![] bcast_S_S128x256 (constant S_ .f32 0x44440000#32)))) (Host.dotGeneral dot_S128x128_S128x256_S128x256_1_0_0_1_n_n none (Host.divf gt (broadcastInDim S128x128 ![0, 1] bcast_S128x1_S128x128_0_1 (maximumf (Host.sqrt (broadcastInDim S128x1 ![0] bcast_S128_S128x1_0 (Host.reduceAdd (mulf gt gt) (constant S_ .f32 0x00000000#32) reducesTo_S128x128_S128_d1 h_S_))) (broadcastInDim S128x1 ![] bcast_S_S128x1 (constant S_ .f32 0x2B8CBCCC#32))))) (Host.divf (Host.reduceAdd x1 (constant S_ .f32 0x00000000#32) reducesTo_S128x256x28x28_S128x256_d2_3 h_S_) (broadcastInDim S128x256 ![] bcast_S_S128x256 (constant S_ .f32 0x44440000#32))))) (transpose S256x64 [1, 0] x18 transposes_S64x256_S256x64_1_0)) (broadcastInDim S128x64 ![0, 1] bcast_S1x64_S128x64_0_1 (broadcastInDim S1x64 ![1] bcast_S64_S1x64_1 x19))) (broadcastInDim S128x64 ![] bcast_S_S128x64 (constant S_ .f32 0x00000000#32))) (transpose S64x256 [1, 0] x20 transposes_S256x64_S64x256_1_0)) (broadcastInDim S128x256 ![0, 1] bcast_S1x256_S128x256_0_1 (broadcastInDim S1x256 ![1] bcast_S256_S1x256_1 x21))))))) (broadcastInDim S128x256 ![] bcast_S_S128x256 (constant S_ .f32 0x00000000#32)))) (maximumf (Host.divf (broadcastInDim S128x256 ![] bcast_S_S128x256 (constant S_ .f32 0x3F800000#32)) (addf (broadcastInDim S128x256 ![] bcast_S_S128x256 (constant S_ .f32 0x3F800000#32)) (Host.exp (Host.negf (addf (Host.dotGeneral dot_S128x64_S64x256_S128x256_1_0_0_1_n_n none (maximumf (addf (Host.dotGeneral dot_S128x256_S256x64_S128x64_1_0_0_1_n_n none (mulf (Host.dotGeneral dot_S128x128_S128x256_S128x256_1_0_0_1_n_n none (Host.divf gs (broadcastInDim S128x128 ![0, 1] bcast_S128x1_S128x128_0_1 (maximumf (Host.sqrt (broadcastInDim S128x1 ![0] bcast_S128_S128x1_0 (Host.reduceAdd (mulf gs gs) (constant S_ .f32 0x00000000#32) reducesTo_S128x128_S128_d1 h_S_))) (broadcastInDim S128x1 ![] bcast_S_S128x1 (constant S_ .f32 0x2B8CBCCC#32))))) (Host.divf (Host.reduceAdd x0 (constant S_ .f32 0x00000000#32) reducesTo_S128x256x28x28_S128x256_d2_3 h_S_) (broadcastInDim S128x256 ![] bcast_S_S128x256 (constant S_ .f32 0x44440000#32)))) (Host.dotGeneral dot_S128x128_S128x256_S128x256_1_0_0_1_n_n none (Host.divf gt (broadcastInDim S128x128 ![0, 1] bcast_S128x1_S128x128_0_1 (maximumf (Host.sqrt (broadcastInDim S128x1 ![0] bcast_S128_S128x1_0 (Host.reduceAdd (mulf gt gt) (constant S_ .f32 0x00000000#32) reducesTo_S128x128_S128_d1 h_S_))) (broadcastInDim S128x1 ![] bcast_S_S128x1 (constant S_ .f32 0x2B8CBCCC#32))))) (Host.divf (Host.reduceAdd x1 (constant S_ .f32 0x00000000#32) reducesTo_S128x256x28x28_S128x256_d2_3 h_S_) (broadcastInDim S128x256 ![] bcast_S_S128x256 (constant S_ .f32 0x44440000#32))))) (transpose S256x64 [1, 0] x22 transposes_S64x256_S256x64_1_0)) (broadcastInDim S128x64 ![0, 1] bcast_S1x64_S128x64_0_1 (broadcastInDim S1x64 ![1] bcast_S64_S1x64_1 x23))) (broadcastInDim S128x64 ![] bcast_S_S128x64 (constant S_ .f32 0x00000000#32))) (transpose S64x256 [1, 0] x24 transposes_S256x64_S64x256_1_0)) (broadcastInDim S128x256 ![0, 1] bcast_S1x256_S128x256_0_1 (broadcastInDim S1x256 ![1] bcast_S256_S1x256_1 x25))))))) (broadcastInDim S128x256 ![] bcast_S_S128x256 (constant S_ .f32 0x00000000#32)))

end Cert.KernelIdeal.Glue

end
-- ==== Proof.ChainKI.lean ====
/-
  The host stretches between the second Gram kernel and the first gate-multiply kernel, read back in one piece.

  Run in a row from any contents `W` of the buffers, they leave in the buffer the first gate-multiply kernel takes as its
  gate the function `Glue.gateS` of the two Gram matrices, the two inputs and the first side's weights as `W` has them,
  in the buffer the second takes the function `Glue.gateT`, and in the buffer the first takes as its input the first
  input array re-laid as [128, 256, 784].
-/
import proofs.«105140_j1606317769259_2_alg».proof.Proof.Gen.KernelIdeal.Regions
import proofs.«105140_j1606317769259_2_alg».proof.Proof.LibAfterAppend
import proofs.«105140_j1606317769259_2_alg».proof.Proof.GlueKI
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo

variable {F : FTy → Type} [FloatOps F]

/-- Every host stretch between region 1 and region 2, in a row. -/
abbrev mid : List (HloOp τ sig (Elt F)) := hostOps2 ++ hostOps2_1 ++ hostOps2_2 ++ hostOps2_3 ++ hostOps2_4 ++ hostOps2_5 ++ hostOps2_6 ++ hostOps2_7 ++ hostOps2_8 ++ hostOps2_9 ++ hostOps2_10 ++ hostOps2_11 ++ hostOps2_12 ++ hostOps2_13 ++ hostOps2_14 ++ hostOps2_15 ++ hostOps2_16 ++ hostOps2_17 ++ hostOps2_18 ++ hostOps2_19 ++ hostOps2_20 ++ hostOps2_21 ++ hostOps2_22

/-- The contents before region 2 are the contents after region 1 with those stretches applied in a row. -/
theorem V26_mid (m : (ℓ : Loc nD τ sig) → Buf (Elt F) ℓ) (outs : Outs (F := F)) (c : Dev nD) :
    V26 m outs c = StableHlo.after (mid (F := F)) (V3 m outs c) := by
  simp only [mid, AfterAppend.after_append]

set_option maxHeartbeats 40000000 in
/-- The first gate. -/
theorem mid_gateS (W : Valuation τ sig (Elt F)) :
    StableHlo.after (mid (F := F)) W (Proc.devRef .tc main_v137)
      = Glue.gateS (W (Proc.devRef .tc main_v2)) (W (Proc.devRef .tc main_v3)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  simp only [mid, hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20, hostOps2_21, hostOps2_22, List.cons_append, List.nil_append]
  after_results_simp <;> rfl

set_option maxHeartbeats 40000000 in
/-- The second gate. -/
theorem mid_gateT (W : Valuation τ sig (Elt F)) :
    StableHlo.after (mid (F := F)) W (Proc.devRef .tc main_v142)
      = Glue.gateT (W (Proc.devRef .tc main_v2)) (W (Proc.devRef .tc main_v3)) (W (Proc.devRef .tc main_arg0)) (W (Proc.devRef .tc main_arg1)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) := by
  simp only [mid, hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20, hostOps2_21, hostOps2_22, List.cons_append, List.nil_append]
  after_results_simp <;> rfl

set_option maxHeartbeats 40000000 in
/-- The first input re-laid as [128, 256, 784]. -/
theorem mid_x3 (W : Valuation τ sig (Elt F)) :
    StableHlo.after (mid (F := F)) W (Proc.devRef .tc main_v143)
      = shapeCast _ (W (Proc.devRef .tc main_arg0)) shapeCasts_S128x256x28x28_S128x256x784 := by
  simp only [mid, hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20, hostOps2_21, hostOps2_22, List.cons_append, List.nil_append]
  after_results_simp <;> rfl

end Cert.KernelIdeal.Chain

end
-- ==== Proof.GramValueKI0.lean ====
/- The VALUE of region 0 of @main (the Gram kernel `cc0__gram_kernel`), read off its frame data at the region-entry
   contents `V`. Each control case's pieces read back as ONE accumulation step `acc + x · xᵀ` over the point's block of
   the input (`sout0_κ_eq`, generic in the float instance); so the accumulator after point `n` is the step applied
   `n + 1` times to the zero block (`scratch_zero0`, `scratch_succ0`), and the output array — written back once, at
   point 15, its block the whole array — ends holding the accumulator's final contents (`final_out0`). At the ideal
   instance a step adds, at entry `(r, s)`, the sum over the block's 12544 columns of `x(r,k) · x(s,k)` (bf16
   truncation is the identity there, the matmul into the zero splat is the plain sum: `pay2_apply0`), the blocks are
   consecutive column ranges of the `[128, 200704]` input (`iblk0_apply`), and sums over the extended reals
   re-associate: the output holds the Gram matrix over the whole contracted axis (`gram_final0`). -/
import proofs.«105140_j1606317769259_2_alg».proof.Proof.GramRegionKI0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.GramRegion

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## What each case's pieces read back as: the accumulation step -/

section Pieces

variable {F : FTy → Type} [FloatOps F]

/-- The zero offsets of a whole-buffer access, as the constant function. -/
theorem hz2_0 : (![0, 0] : Fin 2 → Nat) = fun _ => 0 := funext fun a => by fin_cases a <;> rfl

/-- CASE B leaves in the accumulator the step's payload over what it held: `xs + x · xᵀ`. -/
theorem sout0_B_eq (c : Dev nD) (i : grid0.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : ¬cond0_0 i) (hc1 : ¬cond0_1 i) (x : Vec F S128x12544 .f32) (xs : Vec F S128x128 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  rw [View.canon_unit_zero hz2_0]
  simp only [View.readAt_eq_ld, h1.read_unread, h3.read_unread, View.ld_unit_zero (S := S128x12544) hz2_0, View.ld_unit_zero (S := S128x128) hz2_0]

/-- CASE C leaves the same in the accumulator, -/
theorem sout0_C_eq (c : Dev nD) (i : grid0.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : ¬cond0_0 i) (hc1 : cond0_1 i) (x : Vec F S128x12544 .f32) (xs : Vec F S128x128 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz2_0]
  simp only [View.readAt_eq_ld, h1.read_unread, h3.read_unread, View.ld_unit_zero (S := S128x12544) hz2_0, View.ld_unit_zero (S := S128x128) hz2_0]

/-- and copies it to the output block. -/
theorem out0_C_eq (c : Dev nD) (i : grid0.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : ¬cond0_0 i) (hc1 : cond0_1 i) (x : Vec F S128x12544 .f32) (xs : Vec F S128x128 .f32) :
    out0_C_1 c i a1 h1 a2 h2 a3 h3 hc0 hc1 x xs = k0_pay2 x xs := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz2_0, View.readCov_unit_zero (S := S128x128) _ hz2_0]
  simp only [View.readAt_eq_ld, h1.read_unread, h3.read_unread, View.ld_unit_zero (S := S128x12544) hz2_0, View.ld_unit_zero (S := S128x128) hz2_0]

/-- CASE A leaves the step's payload over the zero block. -/
theorem sout0_A_eq (c : Dev nD) (i : grid0.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : cond0_0 i) (hc1 : ¬cond0_1 i) (x : Vec F S128x12544 .f32) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S128x128) hz2_0, View.readCov_unit_zero (S := S128x128) _ hz2_0]
  simp only [View.readAt_eq_ld, h1.read_unread, View.ld_unit_zero (S := S128x12544) hz2_0]

end Pieces

/-! ## The accumulator point by point, and the output array (any float instance) -/

section Fold

variable {F : FTy → Type} [FloatOps F]
variable (V : (c : Dev nD) → (b : Ref sig .tc) → Buf (Elt F) ((c : Thread nD τ).loc b))

/-- After point 0 the accumulator holds one step over the zero block. -/
theorem scratch_zero0 (c : Dev nD) (hn : 0 < cfg0.N) :
    (outsAt0 V c 0 hn).2 = k0_pay2 (iblk0 V c 0 ⟨0, hn⟩) (k0_pay1 (F := F)) := by
  rw [show outsAt0 V c 0 hn = _ from outsAt0_A V c ⟨0, hn⟩ rfl (by show ¬(0 : ℕ) = 15; decide)]
  exact sout0_A_eq (F := F) c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr rfl) (fun h => absurd ((hcond0_1 ⟨0, hn⟩).mp h) (by show ¬(0 : ℕ) = 15; decide)) (iblk0 V c 0 ⟨0, hn⟩)

/-- After a later point it holds one step over what the point before left — at point 15 as at points 1..14. -/
theorem scratch_succ0 (c : Dev nD) (n : ℕ) (hn : n + 1 < cfg0.N) :
    (outsAt0 V c (n + 1) hn).2 = k0_pay2 (iblk0 V c 0 ⟨n + 1, hn⟩) (outsAt0 V c n (Nat.lt_of_succ_lt hn)).2 := by
  by_cases h1 : n + 1 = 15
  · rw [show outsAt0 V c (n + 1) hn = _ from outsAt0_C V c ⟨n + 1, hn⟩ (Nat.succ_ne_zero n) h1]
    exact sout0_C_eq (F := F) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (outsAt0 V c n (Nat.lt_of_succ_lt hn)).2
  · rw [show outsAt0 V c (n + 1) hn = _ from outsAt0_B V c ⟨n + 1, hn⟩ (Nat.succ_ne_zero n) h1]
    exact sout0_B_eq (F := F) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (outsAt0 V c n (Nat.lt_of_succ_lt hn)).2

/-- 15 is a point of the grid. -/
theorem h15_0 : 15 < cfg0.N := by rw [show cfg0.N = 16 from N_0]; decide

/-- What point 15 copies to the output block: the accumulator's contents after it. -/
theorem out_last0 (c : Dev nD) : (outsAt0 V c 15 h15_0).1 = (outsAt0 V c 15 h15_0).2 := by
  rw [show outsAt0 V c 15 h15_0 = _ from outsAt0_C V c ⟨15, h15_0⟩ (by decide) rfl]
  dsimp only
  rw [out0_C_eq, sout0_C_eq]

/-- The output array's final contents: what point 15 leaves in the output block (the block is the whole array). -/
abbrev result0 (c : Dev nD) : Buf (Elt F) ((c : Thread nD τ).loc main_v2) := (outsAt0 V c 15 h15_0).1

/-- The one write-back, at point 15, writes it: the block at index (0, 0) of the `[128,128]` array is the array. -/
theorem flushed_eq0 (c : Dev nD) (t : Fin cfg0.N) (hf : (cfg0.win 1).flush t = true) :
    (dat0 V c).flushed 1 t = ((cfg0.win 1).blk t).view.read (Elt F) (result0 V c) := by
  have hN : t.val < 16 := lt_of_lt_of_eq t.isLt (show cfg0.N = 16 from N_0)
  have h3 : t.val = 15 := by have := (flush0_1 t).mp hf; omega
  obtain rfl : t = t0_15 := Fin.ext h3
  show (cfg0.win 1).cut (grid0.coords t0_15) ((dat0 V c).after 1 t0_15) = _
  rw [after0_1]
  have hz' : (fun a => win0_1.index t0_15 a * main_v2.ty.shape.size a) = fun _ => 0 := funext fun a => by fin_cases a <;> decide
  exact (Memref.read_access_unit_zero (Elt F) main_v2 hz' (fun a => by rw [congrFun hz' a]; simp) (result0 V c)).symm

/-- So the output array ends holding the accumulator's final contents: point 15's block covers it. -/
theorem final_out0 (c : Dev nD) : (dat0 V c).arrAt 1 cfg0.N = result0 V c :=
  (dat0 V c).arrAt_eq_of_cover 1 (result0 V c) (flushed_eq0 V c) fun i =>
    ⟨t0_15, (flush0_1 t0_15).mpr rfl, by
      show i ∈ ((View.whole main_v2).slice (win0_1.rect t0_15)).set
      rw [View.set_slice_whole, Rect.mem_set_unit]
      intro a
      have h0 : (i 0 : Nat) < 128 := (i 0).isLt
      have h1 : (i 1 : Nat) < 128 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 128 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 128 from by decide +kernel]; omega⟩

/-- The input array is as the region found it. -/
theorem gram_kept0_0 (c : Dev nD) : (dat0 V c).arrAt 0 cfg0.N = V c (Pipeline.arrRef spec0 0) :=
  ((dat0 V c).arrAt_in 0 rfl _).trans (A_eq0 V c 0)

/-- The block index of the input window at point `t`: row block 0, column block `t`. -/
theorem hindex0 : ∀ t : Fin cfg0.N, win0_0.index t 0 = 0 ∧ win0_0.index t 1 = t.val :=
  (by decide +kernel : ∀ t : Fin grid0.N, win0_0.index t 0 = 0 ∧ win0_0.index t 1 = t.val)

end Fold

/-! ## At the ideal instance: sums over the extended reals -/

section AtIdeal

variable (V : (c : Dev nD) → (b : Ref sig .tc) → Buf (Elt Ideal) ((c : Thread nD τ).loc b))

local notation "𝔻" => dot_S128x12544_S128x12544_S128x128_1_1_0_0_n_n

/-- The input array `[128, 200704]` as the region finds it. -/
abbrev inp0 (c : Dev nD) : FVec Ideal S128x200704 .f32 := V c main_v0

/-- A sum over `a · b` indices is the sum over `a` blocks of `b` consecutive indices. -/
theorem sum_blocks0 {M : Type} [AddCommMonoid M] (a b : ℕ) (f : Fin (a * b) → M) :
    ∑ k, f k = ∑ i : Fin a, ∑ j : Fin b, f ⟨b * i.val + j.val, by
      have hi := i.isLt; have hj := j.isLt
      calc b * i.val + j.val < b * i.val + b := by omega
        _ = b * (i.val + 1) := by ring
        _ ≤ b * a := Nat.mul_le_mul_left b hi
        _ = a * b := Nat.mul_comm b a⟩ := by
  rw [← Equiv.sum_comp finProdFinEquiv f, Fintype.sum_prod_type]
  refine Finset.sum_congr rfl fun i _ => Finset.sum_congr rfl fun j _ => congrArg f (Fin.ext ?_)
  simp only [finProdFinEquiv_apply_val]; omega

/-- The zero block reads `0` everywhere. -/
theorem pay1_apply0 (r s : Fin 128) : k0_pay1 (F := Ideal) (ix2 r s) = 0 := by
  unfold k0_pay1
  simp only [shapeCast_self]
  show Ideal.ofBits .f32 0x00000000#32 = 0
  exact Ideal.ofBits_zero_f32

/-- ONE STEP at entry `(r, s)`: the accumulator's entry plus the sum over the block's columns of `x(r,k) · x(s,k)`. -/
theorem pay2_apply0 (x : Vec Ideal S128x12544 .f32) (acc : Vec Ideal S128x128 .f32) (r s : Fin 128) :
    k0_pay2 (F := Ideal) x acc (ix2 r s) = acc (ix2 r s) + ∑ k : Fin 12544, x (ix2 r k) * x (ix2 s k) := by
  unfold k0_pay2
  simp only [shapeCast_self]
  refine (addf_apply _ _ _).trans (congrArg (acc (ix2 r s) + ·) ?_)
  refine (Ideal.matmul_constant_zero_apply 𝔻 none _ _ (ix2 r s)).trans ?_
  rw [← Equiv.sum_comp (contrEquiv1 𝔻 12544 rfl rfl).symm]
  refine Finset.sum_congr rfl fun k _ => ?_
  have c2 := contrEquiv1_symm_val 𝔻 12544 rfl rfl k
  have l2 : DotDims.lhsIdx 𝔻 (ix2 r s) ((contrEquiv1 𝔻 12544 rfl rfl).symm k) = ix2 r k := by
    funext ax; apply Fin.ext
    match ax with
    | ⟨0, _⟩ => simp [DotDims.lhsIdx, dot_S128x12544_S128x12544_S128x128_1_1_0_0_n_n]; rfl
    | ⟨1, _⟩ => simp [DotDims.lhsIdx, dot_S128x12544_S128x12544_S128x128_1_1_0_0_n_n]; exact c2
  have r2 : DotDims.rhsIdx 𝔻 (ix2 r s) ((contrEquiv1 𝔻 12544 rfl rfl).symm k) = ix2 s k := by
    funext ax; apply Fin.ext
    match ax with
    | ⟨0, _⟩ => simp [DotDims.rhsIdx, dot_S128x12544_S128x12544_S128x128_1_1_0_0_n_n]; rfl
    | ⟨1, _⟩ => simp [DotDims.rhsIdx, dot_S128x12544_S128x12544_S128x128_1_1_0_0_n_n]; exact c2
  show x (DotDims.lhsIdx 𝔻 (ix2 r s) ((contrEquiv1 𝔻 12544 rfl rfl).symm k)) * x (DotDims.rhsIdx 𝔻 (ix2 r s) ((contrEquiv1 𝔻 12544 rfl rfl).symm k)) = _
  rw [l2, r2]

/-- The input block at point `t`, typed as a vector of ideal values. -/
abbrev blk0 (c : Dev nD) (t : Fin cfg0.N) : FVec Ideal S128x12544 .f32 := iblk0 V c 0 t

/-- The output array after the region, typed as a vector of ideal values. -/
abbrev outArr0 (c : Dev nD) : FVec Ideal S128x128 .f32 := (dat0 (F := Ideal) V c).arrAt 1 cfg0.N

/-- Entry `(r, j)` of the input block at point `t` is entry `(r, 12544 t + j)` of the input array. -/
theorem iblk0_apply (c : Dev nD) (t : Fin cfg0.N) (ht : t.val < 16) (r : Fin 128) (j : Fin 12544) :
    blk0 V c t (ix2 r j) = inp0 V c (ix2 r ⟨12544 * t.val + j.val, by omega⟩) := by
  have hi := hindex0 t
  unfold blk0 iblk0
  rw [View.read_apply]
  show V c main_v0 _ = V c main_v0 _
  congr 1
  funext a
  apply Fin.ext
  match a with
  | ⟨0, _⟩ => show win0_0.index t 0 * 128 + 1 * r.val = r.val; rw [hi.1]; omega
  | ⟨1, _⟩ => show win0_0.index t 1 * 12544 + 1 * j.val = 12544 * t.val + j.val; rw [hi.2]; omega

/-- The Gram product of column block `n` at entry `(r, s)` (zero past the grid). -/
def blockSum0 (c : Dev nD) (n : ℕ) (r s : Fin 128) : Ideal .f32 :=
  if h : n < 16 then ∑ j : Fin 12544, inp0 V c (ix2 r ⟨12544 * n + j.val, by omega⟩) * inp0 V c (ix2 s ⟨12544 * n + j.val, by omega⟩) else 0

/-- A step's sum at point `n` is that block's Gram product. -/
theorem blockSum_eq0 (c : Dev nD) (n : ℕ) (hn : n < cfg0.N) (r s : Fin 128) :
    ∑ k : Fin 12544, blk0 V c ⟨n, hn⟩ (ix2 r k) * blk0 V c ⟨n, hn⟩ (ix2 s k)
      = blockSum0 V c n r s := by
  have hN : n < 16 := lt_of_lt_of_eq hn (show cfg0.N = 16 from N_0)
  unfold blockSum0
  rw [dif_pos hN]
  exact Finset.sum_congr rfl fun k _ => by rw [iblk0_apply V c ⟨n, hn⟩ hN r k, iblk0_apply V c ⟨n, hn⟩ hN s k]

/-- THE INVARIANT: after point `n` the accumulator's entry `(r, s)` is the sum of the first `n + 1` blocks' Gram products —
    by induction on the point. -/
theorem scratch_eq0 (c : Dev nD) : ∀ (n : ℕ) (hn : n < cfg0.N) (r s : Fin 128),
    (outsAt0 V c n hn).2 (ix2 r s) = ∑ i ∈ Finset.range (n + 1), blockSum0 V c i r s
  | 0, hn, r, s => by
    rw [scratch_zero0 V c hn, pay2_apply0, pay1_apply0, zero_add, Finset.sum_range_one, blockSum_eq0 V c 0 hn r s]
  | n + 1, hn, r, s => by
    rw [scratch_succ0 V c n hn, pay2_apply0, scratch_eq0 c n (Nat.lt_of_succ_lt hn) r s, Finset.sum_range_succ _ (n + 1),
      blockSum_eq0 V c (n + 1) hn r s]

/-- The sixteen blocks' Gram products are the Gram product over the whole contracted axis. -/
theorem blocks_total0 (c : Dev nD) (r s : Fin 128) :
    ∑ i ∈ Finset.range 16, blockSum0 V c i r s = ∑ k : Fin 200704, inp0 V c (ix2 r k) * inp0 V c (ix2 s k) := by
  rw [Finset.sum_range (fun i => blockSum0 V c i r s)]
  rw [← Fin.sum_congr' (fun k : Fin 200704 => inp0 V c (ix2 r k) * inp0 V c (ix2 s k)) (show 16 * 12544 = 200704 from rfl),
    sum_blocks0 16 12544]
  refine Finset.sum_congr rfl fun i _ => ?_
  unfold blockSum0
  rw [dif_pos i.isLt]
  rfl

/-- THE VALUE, entry by entry: the output array ends holding, at `(r, s)`, the sum over the whole contracted axis of the
    products of the input's entries `(r, k)` and `(s, k)`, as the region found the input. -/
theorem gram_final0_apply (c : Dev nD) (r s : Fin 128) :
    outArr0 V c (ix2 r s)
      = ∑ k : Fin 200704, inp0 V c (ix2 r k) * inp0 V c (ix2 s k) := by
  show (dat0 (F := Ideal) V c).arrAt 1 cfg0.N (ix2 r s) = _
  rw [final_out0 V c]
  show (outsAt0 V c 15 h15_0).1 (ix2 r s) = _
  rw [out_last0 V c, scratch_eq0 V c 15 h15_0 r s]
  exact blocks_total0 V c r s

/-- The same as one function of the index. -/
theorem gram_final0 (c : Dev nD) :
    outArr0 V c
      = fun j => ∑ k : Fin 200704, inp0 V c (ix2 (j 0) k) * inp0 V c (ix2 (j 1) k) := by
  funext j
  obtain ⟨r, s, rfl⟩ : ∃ (r s : Fin 128), j = ix2 r s := ⟨j 0, j 1, eq_ix2 j⟩
  exact gram_final0_apply V c r s

end AtIdeal

end Cert.KernelIdeal.GramRegion

end
-- ==== Proof.GramValueKI1.lean ====
/- The VALUE of region 1 of @main (the Gram kernel `cc1__gram_kernel`), read off its frame data at the region-entry
   contents `V`. Each control case's pieces read back as ONE accumulation step `acc + x · xᵀ` over the point's block of
   the input (`sout1_κ_eq`, generic in the float instance); so the accumulator after point `n` is the step applied
   `n + 1` times to the zero block (`scratch_zero1`, `scratch_succ1`), and the output array — written back once, at
   point 15, its block the whole array — ends holding the accumulator's final contents (`final_out1`). At the ideal
   instance a step adds, at entry `(r, s)`, the sum over the block's 12544 columns of `x(r,k) · x(s,k)` (bf16
   truncation is the identity there, the matmul into the zero splat is the plain sum: `pay2_apply1`), the blocks are
   consecutive column ranges of the `[128, 200704]` input (`iblk1_apply`), and sums over the extended reals
   re-associate: the output holds the Gram matrix over the whole contracted axis (`gram_final1`). -/
import proofs.«105140_j1606317769259_2_alg».proof.Proof.GramRegionKI1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.GramRegion

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## What each case's pieces read back as: the accumulation step -/

section Pieces

variable {F : FTy → Type} [FloatOps F]

/-- The zero offsets of a whole-buffer access, as the constant function. -/
theorem hz2_1 : (![0, 0] : Fin 2 → Nat) = fun _ => 0 := funext fun a => by fin_cases a <;> rfl

/-- CASE B leaves in the accumulator the step's payload over what it held: `xs + x · xᵀ`. -/
theorem sout1_B_eq (c : Dev nD) (i : grid1.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : ¬cond1_0 i) (hc1 : ¬cond1_1 i) (x : Vec F S128x12544 .f32) (xs : Vec F S128x128 .f32) :
    sout1_B_0 c i a1 h1 a2 h2 a3 h3 hc0 hc1 x xs = k1_pay2 x xs := by
  unfold sout1_B_0
  rw [View.read_writes_eq_canon _ _ _ (scover1_B_0 c i a1 h1 a2 h2 a3 h3 hc0 hc1 x xs)]
  unfold kernelRun1_B
  dsimp only
  rw [View.canon_unit_zero hz2_1]
  simp only [View.readAt_eq_ld, h1.read_unread, h3.read_unread, View.ld_unit_zero (S := S128x12544) hz2_1, View.ld_unit_zero (S := S128x128) hz2_1]

/-- CASE C leaves the same in the accumulator, -/
theorem sout1_C_eq (c : Dev nD) (i : grid1.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : ¬cond1_0 i) (hc1 : cond1_1 i) (x : Vec F S128x12544 .f32) (xs : Vec F S128x128 .f32) :
    sout1_C_0 c i a1 h1 a2 h2 a3 h3 hc0 hc1 x xs = k1_pay2 x xs := by
  unfold sout1_C_0
  rw [View.read_writes_eq_canon _ _ _ (scover1_C_0 c i a1 h1 a2 h2 a3 h3 hc0 hc1 x xs)]
  unfold kernelRun1_C
  dsimp only
  sl_unfold_words
  rw [View.canon_unit_zero hz2_1]
  simp only [View.readAt_eq_ld, h1.read_unread, h3.read_unread, View.ld_unit_zero (S := S128x12544) hz2_1, View.ld_unit_zero (S := S128x128) hz2_1]

/-- and copies it to the output block. -/
theorem out1_C_eq (c : Dev nD) (i : grid1.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : ¬cond1_0 i) (hc1 : cond1_1 i) (x : Vec F S128x12544 .f32) (xs : Vec F S128x128 .f32) :
    out1_C_1 c i a1 h1 a2 h2 a3 h3 hc0 hc1 x xs = k1_pay2 x xs := by
  unfold out1_C_1
  rw [View.read_writes_eq_canon _ _ _ (cover1_C_1 c i a1 h1 a2 h2 a3 h3 hc0 hc1 x xs)]
  unfold kernelRun1_C
  dsimp only
  sl_unfold_words
  rw [View.canon_unit_zero hz2_1, View.readCov_unit_zero (S := S128x128) _ hz2_1]
  simp only [View.readAt_eq_ld, h1.read_unread, h3.read_unread, View.ld_unit_zero (S := S128x12544) hz2_1, View.ld_unit_zero (S := S128x128) hz2_1]

/-- CASE A leaves the step's payload over the zero block. -/
theorem sout1_A_eq (c : Dev nD) (i : grid1.Coords) (a1 : Memref sig .tc .vmem S128x12544 .f32) (h1 : a1.IsWhole)
    (a2 : Memref sig .tc .vmem S128x128 .f32) (h2 : a2.IsWhole) (a3 : Memref sig .tc .vmem S128x128 .f32) (h3 : a3.IsWhole)
    (hc0 : cond1_0 i) (hc1 : ¬cond1_1 i) (x : Vec F S128x12544 .f32) :
    sout1_A_0 c i a1 h1 a2 h2 a3 h3 hc0 hc1 x = k1_pay2 x (k1_pay1 (F := F)) := by
  unfold sout1_A_0
  rw [View.read_writes_eq_canon _ _ _ (scover1_A_0 c i a1 h1 a2 h2 a3 h3 hc0 hc1 x)]
  unfold kernelRun1_A
  dsimp only
  sl_unfold_words
  rw [View.canon_cons_unit_zero (S := S128x128) hz2_1, View.readCov_unit_zero (S := S128x128) _ hz2_1]
  simp only [View.readAt_eq_ld, h1.read_unread, View.ld_unit_zero (S := S128x12544) hz2_1]

end Pieces

/-! ## The accumulator point by point, and the output array (any float instance) -/

section Fold

variable {F : FTy → Type} [FloatOps F]
variable (V : (c : Dev nD) → (b : Ref sig .tc) → Buf (Elt F) ((c : Thread nD τ).loc b))

/-- After point 0 the accumulator holds one step over the zero block. -/
theorem scratch_zero1 (c : Dev nD) (hn : 0 < cfg1.N) :
    (outsAt1 V c 0 hn).2 = k1_pay2 (iblk1 V c 0 ⟨0, hn⟩) (k1_pay1 (F := F)) := by
  rw [show outsAt1 V c 0 hn = _ from outsAt1_A V c ⟨0, hn⟩ rfl (by show ¬(0 : ℕ) = 15; decide)]
  exact sout1_A_eq (F := F) c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => absurd ((hcond1_1 ⟨0, hn⟩).mp h) (by show ¬(0 : ℕ) = 15; decide)) (iblk1 V c 0 ⟨0, hn⟩)

/-- After a later point it holds one step over what the point before left — at point 15 as at points 1..14. -/
theorem scratch_succ1 (c : Dev nD) (n : ℕ) (hn : n + 1 < cfg1.N) :
    (outsAt1 V c (n + 1) hn).2 = k1_pay2 (iblk1 V c 0 ⟨n + 1, hn⟩) (outsAt1 V c n (Nat.lt_of_succ_lt hn)).2 := by
  by_cases h1 : n + 1 = 15
  · rw [show outsAt1 V c (n + 1) hn = _ from outsAt1_C V c ⟨n + 1, hn⟩ (Nat.succ_ne_zero n) h1]
    exact sout1_C_eq (F := F) c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (outsAt1 V c n (Nat.lt_of_succ_lt hn)).2
  · rw [show outsAt1 V c (n + 1) hn = _ from outsAt1_B V c ⟨n + 1, hn⟩ (Nat.succ_ne_zero n) h1]
    exact sout1_B_eq (F := F) c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (outsAt1 V c n (Nat.lt_of_succ_lt hn)).2

/-- 15 is a point of the grid. -/
theorem h15_1 : 15 < cfg1.N := by rw [show cfg1.N = 16 from N_1]; decide

/-- What point 15 copies to the output block: the accumulator's contents after it. -/
theorem out_last1 (c : Dev nD) : (outsAt1 V c 15 h15_1).1 = (outsAt1 V c 15 h15_1).2 := by
  rw [show outsAt1 V c 15 h15_1 = _ from outsAt1_C V c ⟨15, h15_1⟩ (by decide) rfl]
  dsimp only
  rw [out1_C_eq, sout1_C_eq]

/-- The output array's final contents: what point 15 leaves in the output block (the block is the whole array). -/
abbrev result1 (c : Dev nD) : Buf (Elt F) ((c : Thread nD τ).loc main_v3) := (outsAt1 V c 15 h15_1).1

/-- The one write-back, at point 15, writes it: the block at index (0, 0) of the `[128,128]` array is the array. -/
theorem flushed_eq1 (c : Dev nD) (t : Fin cfg1.N) (hf : (cfg1.win 1).flush t = true) :
    (dat1 V c).flushed 1 t = ((cfg1.win 1).blk t).view.read (Elt F) (result1 V c) := by
  have hN : t.val < 16 := lt_of_lt_of_eq t.isLt (show cfg1.N = 16 from N_1)
  have h3 : t.val = 15 := by have := (flush1_1 t).mp hf; omega
  obtain rfl : t = t1_15 := Fin.ext h3
  show (cfg1.win 1).cut (grid1.coords t1_15) ((dat1 V c).after 1 t1_15) = _
  rw [after1_1]
  have hz' : (fun a => win1_1.index t1_15 a * main_v3.ty.shape.size a) = fun _ => 0 := funext fun a => by fin_cases a <;> decide
  exact (Memref.read_access_unit_zero (Elt F) main_v3 hz' (fun a => by rw [congrFun hz' a]; simp) (result1 V c)).symm

/-- So the output array ends holding the accumulator's final contents: point 15's block covers it. -/
theorem final_out1 (c : Dev nD) : (dat1 V c).arrAt 1 cfg1.N = result1 V c :=
  (dat1 V c).arrAt_eq_of_cover 1 (result1 V c) (flushed_eq1 V c) fun i =>
    ⟨t1_15, (flush1_1 t1_15).mpr rfl, by
      show i ∈ ((View.whole main_v3).slice (win1_1.rect t1_15)).set
      rw [View.set_slice_whole, Rect.mem_set_unit]
      intro a
      have h0 : (i 0 : Nat) < 128 := (i 0).isLt
      have h1 : (i 1 : Nat) < 128 := (i 1).isLt
      match a with
      | ⟨0, _⟩ => show win1_1.index t1_15 0 * win1_1.size 0 ≤ (i 0 : Nat) ∧ (i 0 : Nat) < win1_1.index t1_15 0 * win1_1.size 0 + win1_1.xsize (grid1.coords t1_15) 0
                  rw [show win1_1.index t1_15 0 * win1_1.size 0 = 0 from by decide +kernel, show win1_1.xsize (grid1.coords t1_15) 0 = 128 from by decide +kernel]; omega
      | ⟨1, _⟩ => show win1_1.index t1_15 1 * win1_1.size 1 ≤ (i 1 : Nat) ∧ (i 1 : Nat) < win1_1.index t1_15 1 * win1_1.size 1 + win1_1.xsize (grid1.coords t1_15) 1
                  rw [show win1_1.index t1_15 1 * win1_1.size 1 = 0 from by decide +kernel, show win1_1.xsize (grid1.coords t1_15) 1 = 128 from by decide +kernel]; omega⟩

/-- The input array is as the region found it. -/
theorem gram_kept1_0 (c : Dev nD) : (dat1 V c).arrAt 0 cfg1.N = V c (Pipeline.arrRef spec1 0) :=
  ((dat1 V c).arrAt_in 0 rfl _).trans (A_eq1 V c 0)

/-- The block index of the input window at point `t`: row block 0, column block `t`. -/
theorem hindex1 : ∀ t : Fin cfg1.N, win1_0.index t 0 = 0 ∧ win1_0.index t 1 = t.val :=
  (by decide +kernel : ∀ t : Fin grid1.N, win1_0.index t 0 = 0 ∧ win1_0.index t 1 = t.val)

end Fold

/-! ## At the ideal instance: sums over the extended reals -/

section AtIdeal

variable (V : (c : Dev nD) → (b : Ref sig .tc) → Buf (Elt Ideal) ((c : Thread nD τ).loc b))

local notation "𝔻" => dot_S128x12544_S128x12544_S128x128_1_1_0_0_n_n

/-- The input array `[128, 200704]` as the region finds it. -/
abbrev inp1 (c : Dev nD) : FVec Ideal S128x200704 .f32 := V c main_v1

/-- A sum over `a · b` indices is the sum over `a` blocks of `b` consecutive indices. -/
theorem sum_blocks1 {M : Type} [AddCommMonoid M] (a b : ℕ) (f : Fin (a * b) → M) :
    ∑ k, f k = ∑ i : Fin a, ∑ j : Fin b, f ⟨b * i.val + j.val, by
      have hi := i.isLt; have hj := j.isLt
      calc b * i.val + j.val < b * i.val + b := by omega
        _ = b * (i.val + 1) := by ring
        _ ≤ b * a := Nat.mul_le_mul_left b hi
        _ = a * b := Nat.mul_comm b a⟩ := by
  rw [← Equiv.sum_comp finProdFinEquiv f, Fintype.sum_prod_type]
  refine Finset.sum_congr rfl fun i _ => Finset.sum_congr rfl fun j _ => congrArg f (Fin.ext ?_)
  simp only [finProdFinEquiv_apply_val]; omega

/-- The zero block reads `0` everywhere. -/
theorem pay1_apply1 (r s : Fin 128) : k1_pay1 (F := Ideal) (ix2 r s) = 0 := by
  unfold k1_pay1
  simp only [shapeCast_self]
  show Ideal.ofBits .f32 0x00000000#32 = 0
  exact Ideal.ofBits_zero_f32

/-- ONE STEP at entry `(r, s)`: the accumulator's entry plus the sum over the block's columns of `x(r,k) · x(s,k)`. -/
theorem pay2_apply1 (x : Vec Ideal S128x12544 .f32) (acc : Vec Ideal S128x128 .f32) (r s : Fin 128) :
    k1_pay2 (F := Ideal) x acc (ix2 r s) = acc (ix2 r s) + ∑ k : Fin 12544, x (ix2 r k) * x (ix2 s k) := by
  unfold k1_pay2
  simp only [shapeCast_self]
  refine (addf_apply _ _ _).trans (congrArg (acc (ix2 r s) + ·) ?_)
  refine (Ideal.matmul_constant_zero_apply 𝔻 none _ _ (ix2 r s)).trans ?_
  rw [← Equiv.sum_comp (contrEquiv1 𝔻 12544 rfl rfl).symm]
  refine Finset.sum_congr rfl fun k _ => ?_
  have c2 := contrEquiv1_symm_val 𝔻 12544 rfl rfl k
  have l2 : DotDims.lhsIdx 𝔻 (ix2 r s) ((contrEquiv1 𝔻 12544 rfl rfl).symm k) = ix2 r k := by
    funext ax; apply Fin.ext
    match ax with
    | ⟨0, _⟩ => simp [DotDims.lhsIdx, dot_S128x12544_S128x12544_S128x128_1_1_0_0_n_n]; rfl
    | ⟨1, _⟩ => simp [DotDims.lhsIdx, dot_S128x12544_S128x12544_S128x128_1_1_0_0_n_n]; exact c2
  have r2 : DotDims.rhsIdx 𝔻 (ix2 r s) ((contrEquiv1 𝔻 12544 rfl rfl).symm k) = ix2 s k := by
    funext ax; apply Fin.ext
    match ax with
    | ⟨0, _⟩ => simp [DotDims.rhsIdx, dot_S128x12544_S128x12544_S128x128_1_1_0_0_n_n]; rfl
    | ⟨1, _⟩ => simp [DotDims.rhsIdx, dot_S128x12544_S128x12544_S128x128_1_1_0_0_n_n]; exact c2
  show x (DotDims.lhsIdx 𝔻 (ix2 r s) ((contrEquiv1 𝔻 12544 rfl rfl).symm k)) * x (DotDims.rhsIdx 𝔻 (ix2 r s) ((contrEquiv1 𝔻 12544 rfl rfl).symm k)) = _
  rw [l2, r2]

/-- The input block at point `t`, typed as a vector of ideal values. -/
abbrev blk1 (c : Dev nD) (t : Fin cfg1.N) : FVec Ideal S128x12544 .f32 := iblk1 V c 0 t

/-- The output array after the region, typed as a vector of ideal values. -/
abbrev outArr1 (c : Dev nD) : FVec Ideal S128x128 .f32 := (dat1 (F := Ideal) V c).arrAt 1 cfg1.N

/-- Entry `(r, j)` of the input block at point `t` is entry `(r, 12544 t + j)` of the input array. -/
theorem iblk1_apply (c : Dev nD) (t : Fin cfg1.N) (ht : t.val < 16) (r : Fin 128) (j : Fin 12544) :
    blk1 V c t (ix2 r j) = inp1 V c (ix2 r ⟨12544 * t.val + j.val, by omega⟩) := by
  have hi := hindex1 t
  unfold blk1 iblk1
  rw [View.read_apply]
  show V c main_v1 _ = V c main_v1 _
  congr 1
  funext a
  apply Fin.ext
  match a with
  | ⟨0, _⟩ => show win1_0.index t 0 * 128 + 1 * r.val = r.val; rw [hi.1]; omega
  | ⟨1, _⟩ => show win1_0.index t 1 * 12544 + 1 * j.val = 12544 * t.val + j.val; rw [hi.2]; omega

/-- The Gram product of column block `n` at entry `(r, s)` (zero past the grid). -/
def blockSum1 (c : Dev nD) (n : ℕ) (r s : Fin 128) : Ideal .f32 :=
  if h : n < 16 then ∑ j : Fin 12544, inp1 V c (ix2 r ⟨12544 * n + j.val, by omega⟩) * inp1 V c (ix2 s ⟨12544 * n + j.val, by omega⟩) else 0

/-- A step's sum at point `n` is that block's Gram product. -/
theorem blockSum_eq1 (c : Dev nD) (n : ℕ) (hn : n < cfg1.N) (r s : Fin 128) :
    ∑ k : Fin 12544, blk1 V c ⟨n, hn⟩ (ix2 r k) * blk1 V c ⟨n, hn⟩ (ix2 s k)
      = blockSum1 V c n r s := by
  have hN : n < 16 := lt_of_lt_of_eq hn (show cfg1.N = 16 from N_1)
  unfold blockSum1
  rw [dif_pos hN]
  exact Finset.sum_congr rfl fun k _ => by rw [iblk1_apply V c ⟨n, hn⟩ hN r k, iblk1_apply V c ⟨n, hn⟩ hN s k]

/-- THE INVARIANT: after point `n` the accumulator's entry `(r, s)` is the sum of the first `n + 1` blocks' Gram products —
    by induction on the point. -/
theorem scratch_eq1 (c : Dev nD) : ∀ (n : ℕ) (hn : n < cfg1.N) (r s : Fin 128),
    (outsAt1 V c n hn).2 (ix2 r s) = ∑ i ∈ Finset.range (n + 1), blockSum1 V c i r s
  | 0, hn, r, s => by
    rw [scratch_zero1 V c hn, pay2_apply1, pay1_apply1, zero_add, Finset.sum_range_one, blockSum_eq1 V c 0 hn r s]
  | n + 1, hn, r, s => by
    rw [scratch_succ1 V c n hn, pay2_apply1, scratch_eq1 c n (Nat.lt_of_succ_lt hn) r s, Finset.sum_range_succ _ (n + 1),
      blockSum_eq1 V c (n + 1) hn r s]

/-- The sixteen blocks' Gram products are the Gram product over the whole contracted axis. -/
theorem blocks_total1 (c : Dev nD) (r s : Fin 128) :
    ∑ i ∈ Finset.range 16, blockSum1 V c i r s = ∑ k : Fin 200704, inp1 V c (ix2 r k) * inp1 V c (ix2 s k) := by
  rw [Finset.sum_range (fun i => blockSum1 V c i r s)]
  rw [← Fin.sum_congr' (fun k : Fin 200704 => inp1 V c (ix2 r k) * inp1 V c (ix2 s k)) (show 16 * 12544 = 200704 from rfl),
    sum_blocks1 16 12544]
  refine Finset.sum_congr rfl fun i _ => ?_
  unfold blockSum1
  rw [dif_pos i.isLt]
  rfl

/-- THE VALUE, entry by entry: the output array ends holding, at `(r, s)`, the sum over the whole contracted axis of the
    products of the input's entries `(r, k)` and `(s, k)`, as the region found the input. -/
theorem gram_final1_apply (c : Dev nD) (r s : Fin 128) :
    outArr1 V c (ix2 r s)
      = ∑ k : Fin 200704, inp1 V c (ix2 r k) * inp1 V c (ix2 s k) := by
  show (dat1 (F := Ideal) V c).arrAt 1 cfg1.N (ix2 r s) = _
  rw [final_out1 V c]
  show (outsAt1 V c 15 h15_1).1 (ix2 r s) = _
  rw [out_last1 V c, scratch_eq1 V c 15 h15_1 r s]
  exact blocks_total1 V c r s

/-- The same as one function of the index. -/
theorem gram_final1 (c : Dev nD) :
    outArr1 V c
      = fun j => ∑ k : Fin 200704, inp1 V c (ix2 (j 0) k) * inp1 V c (ix2 (j 1) k) := by
  funext j
  obtain ⟨r, s, rfl⟩ : ∃ (r s : Fin 128), j = ix2 r s := ⟨j 0, j 1, eq_ix2 j⟩
  exact gram_final1_apply V c r s

end AtIdeal

end Cert.KernelIdeal.GramRegion

end
-- ==== Proof.ValueKI.lean ====
/-
  What the kernel's program leaves in its two result arrays, at the ideal instance, as functions of the arguments.

  The boundary contents are followed from the end back to the launch: a result is the last gate-multiply region's
  output re-laid as [128, 256, 28, 28]; that output is, entry by entry, the input (re-laid as [128, 256, 784]) times
  the gate of its (row, channel); the gate is the host computation `Glue.gateS` / `Glue.gateT` of the two Gram matrices,
  the inputs and the weights; each Gram matrix is what its region leaves: entry (r, s) is the sum over all 200704
  columns of the products of rows r and s of the input re-laid as [128, 200704].
-/
import proofs.«105140_j1606317769259_2_alg».proof.Proof.RunKI
import proofs.«105140_j1606317769259_2_alg».proof.Proof.ChainKI
import proofs.«105140_j1606317769259_2_alg».proof.Proof.GramValueKI0
import proofs.«105140_j1606317769259_2_alg».proof.Proof.GramValueKI1

set_option maxRecDepth 16384

noncomputable section

namespace Cert.KernelIdeal.Run

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ)

/-- The Gram matrix of a [128, 200704] array: entry (r, s) is the sum over the columns of the products of rows r and s. -/
def gramOf (y : FVec Ideal S128x200704 .f32) : FVec Ideal S128x128 .f32 :=
  fun j => ∑ k : Fin 200704, y (ix2 (j 0) k) * y (ix2 (j 1) k)

/-! ## Single host stretches, from any contents -/

theorem first_v0 (W : Valuation τ sig (Elt Ideal)) :
    StableHlo.after hostOps0 W (Proc.devRef .tc main_v0) = shapeCast S128x200704 (W (Proc.devRef .tc main_arg0)) shapeCasts_S128x256x28x28_S128x200704 := by
  after_results; rfl
theorem first_v1 (W : Valuation τ sig (Elt Ideal)) :
    StableHlo.after hostOps0 W (Proc.devRef .tc main_v1) = shapeCast S128x200704 (W (Proc.devRef .tc main_arg1)) shapeCasts_S128x256x28x28_S128x200704 := by
  after_results; rfl
theorem third_v145 (W : Valuation τ sig (Elt Ideal)) :
    StableHlo.after hostOps3 W (Proc.devRef .tc main_v145) = shapeCast S128x256x28x28 (W (Proc.devRef .tc main_v144)) shapeCasts_S128x256x784_S128x256x28x28 := by
  after_results; rfl
theorem third_v146 (W : Valuation τ sig (Elt Ideal)) :
    StableHlo.after hostOps3 W (Proc.devRef .tc main_v146) = shapeCast S128x256x784 (W (Proc.devRef .tc main_arg1)) shapeCasts_S128x256x28x28_S128x256x784 := by
  after_results; rfl
theorem fourth_v148 (W : Valuation τ sig (Elt Ideal)) :
    StableHlo.after hostOps4 W (Proc.devRef .tc main_v148) = shapeCast S128x256x28x28 (W (Proc.devRef .tc main_v147)) shapeCasts_S128x256x784_S128x256x28x28 := by
  after_results; rfl

/-! ## Up to the first gate-multiply region -/

theorem V1_v0 (c : Dev nD) : V1 m c main_v0 = (shapeCast S128x200704 (m ((c.tc : Thread nD τ).loc main_arg0)) shapeCasts_S128x256x28x28_S128x200704) := first_v0 (V0 m c)
theorem V1_v1 (c : Dev nD) : V1 m c main_v1 = (shapeCast S128x200704 (m ((c.tc : Thread nD τ).loc main_arg1)) shapeCasts_S128x256x28x28_S128x200704) := first_v1 (V0 m c)

/-- Region 0 leaves the first input's Gram matrix. -/
theorem o2_eq (c : Dev nD) : outs m 2 main_v2 c = gramOf (V1 m c main_v0) :=
  (Pipeline.withArrays_arr spec0 launch0.win.arr_inj c (V1 m c) (fun w => (GramRegion.dat0 (fun c b => V1 m c b) c).arrAt w cfg0.N) 1).trans
    (GramRegion.gram_final0 (fun c b => V1 m c b) c)

/-- Region 1 leaves the second input's Gram matrix. -/
theorem o3_eq (c : Dev nD) : outs m 3 main_v3 c = gramOf (V1 m c main_v1) := by
  refine ((Pipeline.withArrays_arr spec1 launch1.win.arr_inj c (V2 m (outs2 m) c) (fun w => (GramRegion.dat1 (fun c b => V2 m (outs2 m) c b) c).arrAt w cfg1.N) 1).trans
    (GramRegion.gram_final1 (fun c b => V2 m (outs2 m) c b) c)).trans ?_
  show gramOf (V2 m (outs2 m) c main_v1) = _
  rw [V2_of m (outs2 m) c main_v1 (by decide)]

theorem V3_v2 (c : Dev nD) : V3 m (outs m) c main_v2 = outs m 2 main_v2 c :=
  (V3_of m (outs m) c main_v2 (by decide)).trans
    (Function.update_self (Proc.devRef .tc main_v2 : DevRef τ sig) (outs m 2 main_v2 c) (V1 m c))
theorem V3_v3 (c : Dev nD) : V3 m (outs m) c main_v3 = outs m 3 main_v3 c :=
  Function.update_self (Proc.devRef .tc main_v3 : DevRef τ sig) (outs m 3 main_v3 c) (V2 m (outs m) c)
/-- A buffer written neither by the first host stretch nor by a Gram region is as launched after region 1. -/
theorem V3_arg (c : Dev nD) (r : Ref sig .tc) (h1 : r ∉ ([main_v3] : List (Ref sig .tc))) (h2 : r ∉ ([main_v2] : List (Ref sig .tc)))
    (h3 : r ∉ hostOps0_W) : V3 m (outs m) c r = m ((c.tc : Thread nD τ).loc r) :=
  (V3_of m (outs m) c r h1).trans ((V2_of m (outs m) c r h2).trans ((V1_of m c r h3).trans rfl))

/-- The first gate, before region 2. -/
theorem gateS_eq (c : Dev nD) : V26 m (outs m) c main_v137 = Glue.gateS (gramOf (shapeCast S128x200704 (m ((c.tc : Thread nD τ).loc main_arg0)) shapeCasts_S128x256x28x28_S128x200704)) (gramOf (shapeCast S128x200704 (m ((c.tc : Thread nD τ).loc main_arg1)) shapeCasts_S128x256x28x28_S128x200704)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [Chain.V26_mid m (outs m) c, Chain.mid_gateS (V3 m (outs m) c), V3_v2, V3_v3, o2_eq, o3_eq, V1_v0, V1_v1,
    V3_arg m c main_arg0 (by decide) (by decide) (by decide), V3_arg m c main_arg1 (by decide) (by decide) (by decide), V3_arg m c main_arg2 (by decide) (by decide) (by decide), V3_arg m c main_arg3 (by decide) (by decide) (by decide), V3_arg m c main_arg4 (by decide) (by decide) (by decide), V3_arg m c main_arg5 (by decide) (by decide) (by decide), V3_arg m c main_arg6 (by decide) (by decide) (by decide), V3_arg m c main_arg7 (by decide) (by decide) (by decide), V3_arg m c main_arg8 (by decide) (by decide) (by decide), V3_arg m c main_arg9 (by decide) (by decide) (by decide), V3_arg m c main_arg10 (by decide) (by decide) (by decide), V3_arg m c main_arg11 (by decide) (by decide) (by decide), V3_arg m c main_arg12 (by decide) (by decide) (by decide), V3_arg m c main_arg13 (by decide) (by decide) (by decide)]

/-- The second gate, before region 2 (and still there before region 3). -/
theorem gateT_eq (c : Dev nD) : V26 m (outs m) c main_v142 = Glue.gateT (gramOf (shapeCast S128x200704 (m ((c.tc : Thread nD τ).loc main_arg0)) shapeCasts_S128x256x28x28_S128x200704)) (gramOf (shapeCast S128x200704 (m ((c.tc : Thread nD τ).loc main_arg1)) shapeCasts_S128x256x28x28_S128x200704)) (m ((c.tc : Thread nD τ).loc main_arg0)) (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  rw [Chain.V26_mid m (outs m) c, Chain.mid_gateT (V3 m (outs m) c), V3_v2, V3_v3, o2_eq, o3_eq, V1_v0, V1_v1,
    V3_arg m c main_arg0 (by decide) (by decide) (by decide), V3_arg m c main_arg1 (by decide) (by decide) (by decide), V3_arg m c main_arg14 (by decide) (by decide) (by decide), V3_arg m c main_arg15 (by decide) (by decide) (by decide), V3_arg m c main_arg16 (by decide) (by decide) (by decide), V3_arg m c main_arg17 (by decide) (by decide) (by decide), V3_arg m c main_arg18 (by decide) (by decide) (by decide), V3_arg m c main_arg19 (by decide) (by decide) (by decide), V3_arg m c main_arg20 (by decide) (by decide) (by decide), V3_arg m c main_arg21 (by decide) (by decide) (by decide), V3_arg m c main_arg22 (by decide) (by decide) (by decide), V3_arg m c main_arg23 (by decide) (by decide) (by decide), V3_arg m c main_arg24 (by decide) (by decide) (by decide), V3_arg m c main_arg25 (by decide) (by decide) (by decide)]

/-- The first input re-laid as [128, 256, 784], before region 2. -/
theorem x3_eq (c : Dev nD) : V26 m (outs m) c main_v143 = (shapeCast S128x256x784 (m ((c.tc : Thread nD τ).loc main_arg0)) shapeCasts_S128x256x28x28_S128x256x784) := by
  rw [Chain.V26_mid m (outs m) c, Chain.mid_x3 (V3 m (outs m) c), V3_arg m c main_arg0 (by decide) (by decide) (by decide)]

/-! ## The two gate-multiply regions and the results -/

/-- Region 2 leaves the first input times its gate. -/
theorem o27_eq (c : Dev nD) : outs m 27 main_v144 c
    = GateRegion.gateMul (V26 m (outs m) c main_v143) (V26 m (outs m) c main_v137) :=
  (Pipeline.withArrays_arr spec2 launch2.win.arr_inj c (V26 m (outs3 m) c) (fun w => (GateRegion.dat2 (fun c b => V26 m (outs3 m) c b) c).arrAt w cfg2.N) 2).trans
    (GateRegion.gate_final2 (fun c b => V26 m (outs3 m) c b) c)

theorem V27_arg1 (c : Dev nD) : V27 m (outs m) c main_arg1 = (m ((c.tc : Thread nD τ).loc main_arg1)) :=
  (V28_of m (outs m) c main_arg1 (by decide)).symm.trans ((V29_of m (outs m) c main_arg1 (by decide)).symm.trans
    ((V30_of m (outs m) c main_arg1 (by decide)).symm.trans (V30_main_arg1 m (outs m) c)))

/-- The second input re-laid as [128, 256, 784], before region 3. -/
theorem y3_eq (c : Dev nD) : V28 m (outs m) c main_v146 = (shapeCast S128x256x784 (m ((c.tc : Thread nD τ).loc main_arg1)) shapeCasts_S128x256x28x28_S128x256x784) :=
  (third_v146 (V27 m (outs m) c)).trans (by rw [V27_arg1])

theorem V28_v142 (c : Dev nD) : V28 m (outs m) c main_v142 = V26 m (outs m) c main_v142 :=
  (V28_of m (outs m) c main_v142 (by decide)).trans (V27_of m (outs m) c main_v142 (by decide))

/-- Region 3 leaves the second input times its gate. -/
theorem o29_eq (c : Dev nD) : outs m 29 main_v147 c
    = GateRegion.gateMul (V28 m (outs m) c main_v146) (V28 m (outs m) c main_v142) :=
  (Pipeline.withArrays_arr spec3 launch3.win.arr_inj c (V28 m (outs27 m) c) (fun w => (GateRegion.dat3 (fun c b => V28 m (outs27 m) c b) c).arrAt w cfg3.N) 2).trans
    (GateRegion.gate_final3 (fun c b => V28 m (outs27 m) c b) c)

/-- The first result as a function of the arguments. -/
def kout0 (c : Dev nD) : FVec Ideal S128x256x28x28 .f32 :=
  shapeCast S128x256x28x28 (GateRegion.gateMul (shapeCast S128x256x784 (m ((c.tc : Thread nD τ).loc main_arg0)) shapeCasts_S128x256x28x28_S128x256x784) (Glue.gateS (gramOf (shapeCast S128x200704 (m ((c.tc : Thread nD τ).loc main_arg0)) shapeCasts_S128x256x28x28_S128x200704)) (gramOf (shapeCast S128x200704 (m ((c.tc : Thread nD τ).loc main_arg1)) shapeCasts_S128x256x28x28_S128x200704)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) shapeCasts_S128x256x784_S128x256x28x28
/-- The second result as a function of the arguments. -/
def kout1 (c : Dev nD) : FVec Ideal S128x256x28x28 .f32 :=
  shapeCast S128x256x28x28 (GateRegion.gateMul (shapeCast S128x256x784 (m ((c.tc : Thread nD τ).loc main_arg1)) shapeCasts_S128x256x28x28_S128x256x784) (Glue.gateT (gramOf (shapeCast S128x200704 (m ((c.tc : Thread nD τ).loc main_arg0)) shapeCasts_S128x256x28x28_S128x200704)) (gramOf (shapeCast S128x200704 (m ((c.tc : Thread nD τ).loc main_arg1)) shapeCasts_S128x256x28x28_S128x200704)) (m ((c.tc : Thread nD τ).loc main_arg0)) (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)))) shapeCasts_S128x256x784_S128x256x28x28

theorem out0_eq (c : Dev nD) : V30 m (outs m) c main_v145 = kout0 m c := by
  refine (V30_of m (outs m) c main_v145 (by decide)).trans ((V29_of m (outs m) c main_v145 (by decide)).trans
    ((third_v145 (V27 m (outs m) c)).trans ?_))
  rw [show V27 m (outs m) c main_v144 = outs m 27 main_v144 c from
      Function.update_self (Proc.devRef .tc main_v144 : DevRef τ sig) (outs m 27 main_v144 c) (V26 m (outs m) c),
    o27_eq, x3_eq, gateS_eq]
  rfl

theorem out1_eq (c : Dev nD) : V30 m (outs m) c main_v148 = kout1 m c := by
  refine (fourth_v148 (V29 m (outs m) c)).trans ?_
  rw [show V29 m (outs m) c main_v147 = outs m 29 main_v147 c from
      Function.update_self (Proc.devRef .tc main_v147 : DevRef τ sig) (outs m 29 main_v147 c) (V28 m (outs m) c),
    o29_eq, y3_eq, V28_v142, gateT_eq]
  rfl

end Cert.KernelIdeal.Run

end
-- ==== Proof.RefGlue.lean ====
/-
  The reference's two results through the same gate functions.

  The reference computes each Gram matrix as one product of the input re-laid as [128, 200704] with its transpose,
  carries it through the same host computation as the kernel's program (`Glue.gateS`, `Glue.gateT`), broadcasts the gate
  along the two spatial axes and multiplies it into the input.
-/
import proofs.«105140_j1606317769259_2_alg».proof.Proof.Gen.ReferenceIdeal.Run
import proofs.«105140_j1606317769259_2_alg».proof.Proof.GlueKI

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 4000000 in
/-- The reference's first result. -/
theorem res_out0_eq (m : (ℓ : Loc nD τ sig) → Buf (Elt F) ℓ) (c : Dev nD) :
    res_main_v148 (F := F) m c
      = mulf (broadcastInDim S128x256x28x28 ![0, 1, 2, 3] bcast_S128x256x1x1_S128x256x28x28_0_1_2_3 (broadcastInDim S128x256x1x1 ![0, 1] bcast_S128x256_S128x256x1x1_0_1 (Cert.KernelIdeal.Glue.gateS (Host.dotGeneral dot_S128x200704_S200704x128_S128x128_1_0_0_1_n_n none (shapeCast _ (m ((c.tc : Thread nD τ).loc main_arg0)) shapeCasts_S128x256x28x28_S128x200704) (transpose S200704x128 [1, 0] (shapeCast _ (m ((c.tc : Thread nD τ).loc main_arg0)) shapeCasts_S128x256x28x28_S128x200704) transposes_S128x200704_S200704x128_1_0)) (Host.dotGeneral dot_S128x200704_S200704x128_S128x128_1_0_0_1_n_n none (shapeCast _ (m ((c.tc : Thread nD τ).loc main_arg1)) shapeCasts_S128x256x28x28_S128x200704) (transpose S200704x128 [1, 0] (shapeCast _ (m ((c.tc : Thread nD τ).loc main_arg1)) shapeCasts_S128x256x28x28_S128x200704) transposes_S128x200704_S200704x128_1_0)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))) (m ((c.tc : Thread nD τ).loc main_arg0)) := by
  unfold res_main_v148 Cert.KernelIdeal.Glue.gateS
  rfl

set_option maxHeartbeats 4000000 in
/-- The reference's second result. -/
theorem res_out1_eq (m : (ℓ : Loc nD τ sig) → Buf (Elt F) ℓ) (c : Dev nD) :
    res_main_v150 (F := F) m c
      = mulf (broadcastInDim S128x256x28x28 ![0, 1, 2, 3] bcast_S128x256x1x1_S128x256x28x28_0_1_2_3 (broadcastInDim S128x256x1x1 ![0, 1] bcast_S128x256_S128x256x1x1_0_1 (Cert.KernelIdeal.Glue.gateT (Host.dotGeneral dot_S128x200704_S200704x128_S128x128_1_0_0_1_n_n none (shapeCast _ (m ((c.tc : Thread nD τ).loc main_arg0)) shapeCasts_S128x256x28x28_S128x200704) (transpose S200704x128 [1, 0] (shapeCast _ (m ((c.tc : Thread nD τ).loc main_arg0)) shapeCasts_S128x256x28x28_S128x200704) transposes_S128x200704_S200704x128_1_0)) (Host.dotGeneral dot_S128x200704_S200704x128_S128x128_1_0_0_1_n_n none (shapeCast _ (m ((c.tc : Thread nD τ).loc main_arg1)) shapeCasts_S128x256x28x28_S128x200704) (transpose S200704x128 [1, 0] (shapeCast _ (m ((c.tc : Thread nD τ).loc main_arg1)) shapeCasts_S128x256x28x28_S128x200704) transposes_S128x200704_S200704x128_1_0)) (m ((c.tc : Thread nD τ).loc main_arg0)) (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))))) (m ((c.tc : Thread nD τ).loc main_arg1)) := by
  unfold res_main_v150 Cert.KernelIdeal.Glue.gateT
  rfl

end Cert.ReferenceIdeal.RefValue

end
-- ==== Proof.BridgeLemmas.lean ====
/- Two readings at the ideal instance that set the kernel's program beside the reference's.
   (A) The gated activations: multiplying in the [128,256,784] layout by the gate repeated along the last axis and
   viewing the product as [128,256,28,28] is the reference's product of the gate, broadcast to [128,256,28,28], with the
   activations: entry (b, ch, h, w) of both is x(b, ch, h, w) · g(b, ch), the 3-D index of (b, ch, h, w) being
   (b, ch, 28·h + w).
   (B) The reference's Gram matrix: the contraction of a [128,200704] array with its own transpose is, entry (i, j), the
   sum over k of y(i, k) · y(j, k). -/
import proofs.«105140_j1606317769259_2_alg».proof.Proof.GateRegionKI
import proofs.«105140_j1606317769259_2_alg».proof.ReferenceIdeal
import proofs.«105140_j1606317769259_2_alg».proof.KernelIdeal
import proofs.«105140_j1606317769259_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-! ## (A) The gated activations -/

/-- The product in the 3-D layout, viewed 4-D, is the reference's 4-D product — for any proofs of the four shape
    relations the two programs cite. -/
theorem out_eq_of
    (hc1 : Cert.KernelIdeal.S128x256x28x28.ShapeCasts Cert.KernelIdeal.S128x256x784)
    (hc2 : Cert.KernelIdeal.S128x256x784.ShapeCasts Cert.KernelIdeal.S128x256x28x28)
    (hb1 : Cert.ReferenceIdeal.S128x256.BroadcastsInDim Cert.ReferenceIdeal.S128x256x1x1 (![0, 1] : Fin 2 → Fin Cert.ReferenceIdeal.S128x256x1x1.rank))
    (hb2 : Cert.ReferenceIdeal.S128x256x1x1.BroadcastsInDim Cert.ReferenceIdeal.S128x256x28x28 (![0, 1, 2, 3] : Fin 4 → Fin Cert.ReferenceIdeal.S128x256x28x28.rank))
    (x : (⟨Cert.ReferenceIdeal.S128x256x28x28, .f32⟩ : BufTy).Contents (Elt Ideal)) (g : (⟨Cert.ReferenceIdeal.S128x256, .f32⟩ : BufTy).Contents (Elt Ideal)) :
    shapeCast Cert.KernelIdeal.S128x256x28x28 (Cert.KernelIdeal.GateRegion.gateMul (shapeCast Cert.KernelIdeal.S128x256x784 x hc1) g) hc2
      = mulf (F := Ideal) (φ := .f32) (broadcastInDim Cert.ReferenceIdeal.S128x256x28x28 ![0, 1, 2, 3] hb2 (broadcastInDim Cert.ReferenceIdeal.S128x256x1x1 ![0, 1] hb1 g)) x := by
  funext i
  obtain ⟨a, b, h, w, rfl⟩ : ∃ (a : Fin 128) (b : Fin 256) (h : Fin 28) (w : Fin 28), i = ix4 a b h w :=
    ⟨i 0, i 1, i 2, i 3, eq_ix4 i⟩
  have ha := a.isLt
  have hb := b.isLt
  have hh := h.isLt
  have hw := w.isLt
  have hk : h.val * 28 + w.val < 784 := by omega
  -- the 4-D view of the product reads the product at (a, b, 28·h + w): the same row-major position
  have eL : shapeCast Cert.KernelIdeal.S128x256x28x28 (Cert.KernelIdeal.GateRegion.gateMul (shapeCast Cert.KernelIdeal.S128x256x784 x hc1) g) hc2 (ix4 a b h w)
      = Cert.KernelIdeal.GateRegion.gateMul (shapeCast Cert.KernelIdeal.S128x256x784 x hc1) g (ix3 a b ⟨h.val * 28 + w.val, hk⟩) :=
    shapeCast_apply _ hc2 (ix4 a b h w) (ix3 a b ⟨h.val * 28 + w.val, hk⟩) (by
      rewrite [Shape.rowMajor_val_three, Shape.rowMajor_val_four]
      show (a.val * 256 + b.val) * 784 + (h.val * 28 + w.val) = ((a.val * 256 + b.val) * 28 + h.val) * 28 + w.val
      omega)
  -- the 3-D view of the activations reads them back at (a, b, h, w)
  have eX : shapeCast Cert.KernelIdeal.S128x256x784 x hc1 (ix3 a b ⟨h.val * 28 + w.val, hk⟩) = x (ix4 a b h w) :=
    shapeCast_apply x hc1 (ix3 a b ⟨h.val * 28 + w.val, hk⟩) (ix4 a b h w) (by
      rewrite [Shape.rowMajor_val_four, Shape.rowMajor_val_three]
      show ((a.val * 256 + b.val) * 28 + h.val) * 28 + w.val = (a.val * 256 + b.val) * 784 + (h.val * 28 + w.val)
      omega)
  -- the two broadcasts read the gate at (a, b)
  have eB2 : broadcastInDim Cert.ReferenceIdeal.S128x256x28x28 ![0, 1, 2, 3] hb2 (broadcastInDim Cert.ReferenceIdeal.S128x256x1x1 ![0, 1] hb1 g) (ix4 a b h w)
      = broadcastInDim Cert.ReferenceIdeal.S128x256x1x1 ![0, 1] hb1 g (ix4 a b (0 : Fin 1) (0 : Fin 1)) :=
    broadcastInDim_apply _ hb2 _ (ix4 a b h w) (ix4 a b (0 : Fin 1) (0 : Fin 1)) (fun ax => match ax with
      | ⟨0, _⟩ => by show a.val = if (128 : Nat) = 1 then 0 else a.val; rw [if_neg (by decide)]
      | ⟨1, _⟩ => by show b.val = if (256 : Nat) = 1 then 0 else b.val; rw [if_neg (by decide)]
      | ⟨2, _⟩ => by show 0 = if (1 : Nat) = 1 then 0 else h.val; rw [if_pos rfl]
      | ⟨3, _⟩ => by show 0 = if (1 : Nat) = 1 then 0 else w.val; rw [if_pos rfl])
  have eB1 : broadcastInDim Cert.ReferenceIdeal.S128x256x1x1 ![0, 1] hb1 g (ix4 a b (0 : Fin 1) (0 : Fin 1)) = g (ix2 a b) :=
    broadcastInDim_apply _ hb1 g (ix4 a b (0 : Fin 1) (0 : Fin 1)) (ix2 a b) (fun ax => match ax with
      | ⟨0, _⟩ => by show a.val = if (128 : Nat) = 1 then 0 else a.val; rw [if_neg (by decide)]
      | ⟨1, _⟩ => by show b.val = if (256 : Nat) = 1 then 0 else b.val; rw [if_neg (by decide)])
  calc shapeCast Cert.KernelIdeal.S128x256x28x28 (Cert.KernelIdeal.GateRegion.gateMul (shapeCast Cert.KernelIdeal.S128x256x784 x hc1) g) hc2 (ix4 a b h w)
      = Cert.KernelIdeal.GateRegion.gateMul (shapeCast Cert.KernelIdeal.S128x256x784 x hc1) g (ix3 a b ⟨h.val * 28 + w.val, hk⟩) := eL
    _ = shapeCast Cert.KernelIdeal.S128x256x784 x hc1 (ix3 a b ⟨h.val * 28 + w.val, hk⟩) * g (ix2 a b) := rfl
    _ = x (ix4 a b h w) * g (ix2 a b) := by rw [eX]
    _ = g (ix2 a b) * x (ix4 a b h w) := mul_comm _ _
    _ = broadcastInDim Cert.ReferenceIdeal.S128x256x28x28 ![0, 1, 2, 3] hb2 (broadcastInDim Cert.ReferenceIdeal.S128x256x1x1 ![0, 1] hb1 g) (ix4 a b h w) * x (ix4 a b h w) := by
        rw [eB2, eB1]
    _ = mulf (F := Ideal) (φ := .f32) (broadcastInDim Cert.ReferenceIdeal.S128x256x28x28 ![0, 1, 2, 3] hb2 (broadcastInDim Cert.ReferenceIdeal.S128x256x1x1 ![0, 1] hb1 g)) x (ix4 a b h w) := rfl

/-- The same at the proofs of the shape relations the two programs' facts provide. -/
theorem out_eq (x : (⟨Cert.ReferenceIdeal.S128x256x28x28, .f32⟩ : BufTy).Contents (Elt Ideal)) (g : (⟨Cert.ReferenceIdeal.S128x256, .f32⟩ : BufTy).Contents (Elt Ideal)) :
    shapeCast Cert.KernelIdeal.S128x256x28x28 (Cert.KernelIdeal.GateRegion.gateMul (shapeCast Cert.KernelIdeal.S128x256x784 x Cert.KernelIdeal.Gen.shapeCasts_S128x256x28x28_S128x256x784) g) Cert.KernelIdeal.Gen.shapeCasts_S128x256x784_S128x256x28x28
      = mulf (F := Ideal) (φ := .f32) (broadcastInDim Cert.ReferenceIdeal.S128x256x28x28 ![0, 1, 2, 3] Cert.ReferenceIdeal.Gen.bcast_S128x256x1x1_S128x256x28x28_0_1_2_3 (broadcastInDim Cert.ReferenceIdeal.S128x256x1x1 ![0, 1] Cert.ReferenceIdeal.Gen.bcast_S128x256_S128x256x1x1_0_1 g)) x :=
  out_eq_of _ _ _ _ x g

/-! ## (B) The reference's Gram matrix -/

/-- The contraction of `y` with its transpose over the long axis, entry (i, j): the sum over k of y(i, k) · y(j, k) — for
    any proof that [200704,128] is the transpose of [128,200704]. -/
theorem gram_ref_of (ht : Cert.ReferenceIdeal.S128x200704.Transposes [1, 0] Cert.ReferenceIdeal.S200704x128)
    (y : (⟨Cert.ReferenceIdeal.S128x200704, .f32⟩ : BufTy).Contents (Elt Ideal)) :
    Host.dotGeneral (F := Ideal) (φ₁ := .f32) (φ₂ := .f32) Cert.ReferenceIdeal.dot_S128x200704_S200704x128_S128x128_1_0_0_1_n_n none y (transpose (α := Elt Ideal .f32) Cert.ReferenceIdeal.S200704x128 [1, 0] y ht)
      = fun j => ∑ k : Fin 200704, y (ix2 ⟨(j 0).val, (j 0).isLt⟩ k) * y (ix2 ⟨(j 1).val, (j 1).isLt⟩ k) := by
  funext i
  generalize hyt : transpose (α := Elt Ideal .f32) Cert.ReferenceIdeal.S200704x128 [1, 0] y ht = yt
  simp only [Host.dotGeneral]
  rw [Ideal.dotGeneral_apply, ← Equiv.sum_comp (contrEquiv1 Cert.ReferenceIdeal.dot_S128x200704_S200704x128_S128x128_1_0_0_1_n_n 200704 rfl rfl).symm]
  refine Finset.sum_congr rfl fun k _ => ?_
  have hk := contrEquiv1_symm_val Cert.ReferenceIdeal.dot_S128x200704_S200704x128_S128x128_1_0_0_1_n_n 200704 rfl rfl k
  have el : Cert.ReferenceIdeal.dot_S128x200704_S200704x128_S128x128_1_0_0_1_n_n.lhsIdx i ((contrEquiv1 Cert.ReferenceIdeal.dot_S128x200704_S200704x128_S128x128_1_0_0_1_n_n 200704 rfl rfl).symm k)
      = (ix2 ⟨(i 0).val, (i 0).isLt⟩ k : Cert.ReferenceIdeal.S128x200704.Idx) := funext fun a => Fin.ext (by
    match a with
    | ⟨0, _⟩ => exact Cert.ReferenceIdeal.Read.lhs_main_v2_0 _ _
    | ⟨1, _⟩ => exact (Cert.ReferenceIdeal.Read.lhs_main_v2_1 _ _).trans hk)
  have er : Cert.ReferenceIdeal.dot_S128x200704_S200704x128_S128x128_1_0_0_1_n_n.rhsIdx i ((contrEquiv1 Cert.ReferenceIdeal.dot_S128x200704_S200704x128_S128x128_1_0_0_1_n_n 200704 rfl rfl).symm k)
      = (ix2 k ⟨(i 1).val, (i 1).isLt⟩ : Cert.ReferenceIdeal.S200704x128.Idx) := funext fun a => Fin.ext (by
    match a with
    | ⟨0, _⟩ => exact (Cert.ReferenceIdeal.Read.rhs_main_v2_0 _ _).trans hk
    | ⟨1, _⟩ => exact Cert.ReferenceIdeal.Read.rhs_main_v2_1 _ _)
  rw [el, er, ← hyt]
  exact congrArg (y (ix2 ⟨(i 0).val, (i 0).isLt⟩ k) * ·)
    (transpose_ix2_apply y ht k ⟨(i 1).val, (i 1).isLt⟩)

/-- The same at the proof of the transposition the reference's facts provide. -/
theorem gram_ref (y : (⟨Cert.ReferenceIdeal.S128x200704, .f32⟩ : BufTy).Contents (Elt Ideal)) :
    Host.dotGeneral (F := Ideal) (φ₁ := .f32) (φ₂ := .f32) Cert.ReferenceIdeal.dot_S128x200704_S200704x128_S128x128_1_0_0_1_n_n none y (transpose (α := Elt Ideal .f32) Cert.ReferenceIdeal.S200704x128 [1, 0] y Cert.ReferenceIdeal.Gen.transposes_S128x200704_S200704x128_1_0)
      = fun j => ∑ k : Fin 200704, y (ix2 ⟨(j 0).val, (j 0).isLt⟩ k) * y (ix2 ⟨(j 1).val, (j 1).isLt⟩ k) :=
  gram_ref_of _ y

end Cert.Bridge

end
-- ==== Proof.BridgeAll.lean ====
/-
  The two programs' results are one function of the arguments.

  At the ideal instance the kernel's program leaves in a result array the input times its gate, computed in the layout
  [128, 256, 784] and re-laid; the reference broadcasts the gate along the two spatial axes and multiplies. The gates
  are the same host computation of the two Gram matrices, which the kernel's program accumulates block by block over
  the 200704 columns and the reference takes as one product with the transpose: at each entry both are the sum over
  all columns of the products of two rows, and sums of extended reals do not depend on grouping.
-/
import proofs.«105140_j1606317769259_2_alg».proof.Defs
import proofs.«105140_j1606317769259_2_alg».proof.Proof.ValueKI
import proofs.«105140_j1606317769259_2_alg».proof.Proof.FrameKI
import proofs.«105140_j1606317769259_2_alg».proof.Proof.RefGlue
import proofs.«105140_j1606317769259_2_alg».proof.Proof.BridgeLemmas

set_option maxRecDepth 16384

noncomputable section

namespace Cert.Bridge

open Idealize.ShloMosaic Idealize.ShloMosaic.TcCoe Idealize.SL.Sem

/-- From memories agreeing on the arguments, the reference's first result is the kernel program's first result. -/
theorem ref_out0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v148 (F := Ideal) m' c = Cert.KernelIdeal.Run.kout0 m c := by
  rw [Cert.ReferenceIdeal.RefValue.res_out0_eq, gram_ref, gram_ref, hagree.1, hagree.2.1, hagree.2.2.1, hagree.2.2.2.1, hagree.2.2.2.2.1, hagree.2.2.2.2.2.1, hagree.2.2.2.2.2.2.1, hagree.2.2.2.2.2.2.2.1, hagree.2.2.2.2.2.2.2.2.1, hagree.2.2.2.2.2.2.2.2.2.1, hagree.2.2.2.2.2.2.2.2.2.2.1, hagree.2.2.2.2.2.2.2.2.2.2.2.1, hagree.2.2.2.2.2.2.2.2.2.2.2.2.1, hagree.2.2.2.2.2.2.2.2.2.2.2.2.2.1]
  exact (out_eq _ _).symm

/-- From memories agreeing on the arguments, the reference's second result is the kernel program's second result. -/
theorem ref_out1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v150 (F := Ideal) m' c = Cert.KernelIdeal.Run.kout1 m c := by
  rw [Cert.ReferenceIdeal.RefValue.res_out1_eq, gram_ref, gram_ref, hagree.1, hagree.2.1, hagree.2.2.2.2.2.2.2.2.2.2.2.2.2.2.1, hagree.2.2.2.2.2.2.2.2.2.2.2.2.2.2.2.1, hagree.2.2.2.2.2.2.2.2.2.2.2.2.2.2.2.2.1, hagree.2.2.2.2.2.2.2.2.2.2.2.2.2.2.2.2.2.1, hagree.2.2.2.2.2.2.2.2.2.2.2.2.2.2.2.2.2.2.1, hagree.2.2.2.2.2.2.2.2.2.2.2.2.2.2.2.2.2.2.2.1, hagree.2.2.2.2.2.2.2.2.2.2.2.2.2.2.2.2.2.2.2.2.1, hagree.2.2.2.2.2.2.2.2.2.2.2.2.2.2.2.2.2.2.2.2.2.1, hagree.2.2.2.2.2.2.2.2.2.2.2.2.2.2.2.2.2.2.2.2.2.2.1, hagree.2.2.2.2.2.2.2.2.2.2.2.2.2.2.2.2.2.2.2.2.2.2.2.1, hagree.2.2.2.2.2.2.2.2.2.2.2.2.2.2.2.2.2.2.2.2.2.2.2.2.1, hagree.2.2.2.2.2.2.2.2.2.2.2.2.2.2.2.2.2.2.2.2.2.2.2.2.2]
  exact (out_eq _ _).symm

end Cert.Bridge

end
-- ==== Proof.lean ====
/-
  The certificate of the kernel's program against its reference.

  The program launches four kernels: two Gram kernels, each accumulating a [128, 128] matrix over sixteen blocks of the
  200704 columns of an input re-laid as [128, 200704] in a scratch buffer it keeps between grid points, and two
  gate-multiply kernels, each multiplying an input, re-laid as [128, 256, 784], by a gate of its (row, channel); host
  operations between them normalise the Gram matrices, pool the inputs and run six small perceptrons. The three frames:
  each program terminates, faults nowhere and leaves its arguments as launched — for the kernel's program (at both
  instances) through the regions' segment records, for the reference through its run. The idealization rewrote nothing.
  At the ideal instance both programs' two results are the same functions of the arguments (`Bridge.ref_out0`,
  `Bridge.ref_out1`).
-/
import proofs.«105140_j1606317769259_2_alg».proof.Defs
import proofs.«105140_j1606317769259_2_alg».proof.Proof.Gen.Kernel
import proofs.«105140_j1606317769259_2_alg».proof.Proof.Gen.KernelIdeal
import proofs.«105140_j1606317769259_2_alg».proof.Proof.Gen.ReferenceIdeal
import proofs.«105140_j1606317769259_2_alg».proof.Proof.Gen.Pre_finite_inputs
import proofs.«105140_j1606317769259_2_alg».proof.Proof.Gen.ReferenceIdeal.Run
import proofs.«105140_j1606317769259_2_alg».proof.Proof.Gen.ReferenceIdeal.Read
import proofs.«105140_j1606317769259_2_alg».proof.Proof.FrameK
import proofs.«105140_j1606317769259_2_alg».proof.Proof.FrameKI
import proofs.«105140_j1606317769259_2_alg».proof.Proof.BridgeAll
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2.2) (Cert.ReferenceIdeal.Value.run (F := Ideal) m ρ),
  trivial,
  fun m ρ m' ρ' _ hagree =>
    ⟨fun c => Cert.KernelIdeal.Run.kout0 m c, fun c => Cert.KernelIdeal.Run.kout1 m c,
      (θ_run Cert.KernelIdeal.defs _ _).mono
        (fun _ h c => ⟨(h c).1.trans (Cert.KernelIdeal.Run.out0_eq m c), (h c).2.1.trans (Cert.KernelIdeal.Run.out1_eq m c), (h c).2.2⟩)
        (Cert.KernelIdeal.Run.run_results m ρ),
      (θ_run Cert.ReferenceIdeal.defs _ _).mono
        (fun _ h c => ⟨(h c).1.trans (Cert.Bridge.ref_out0 m m' c (hagree c)), (h c).2.1.trans (Cert.Bridge.ref_out1 m m' c (hagree c)), (h c).2.2⟩)
        (Cert.ReferenceIdeal.Value.run (F := Ideal) m' ρ')⟩⟩

end Cert.Proof

end
